-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S128x64 : Shape := ⟨2, ![128, 64]⟩
abbrev S64x16 : Shape := ⟨2, ![64, 16]⟩
abbrev S_ : Shape := ⟨0, ![]⟩
abbrev S4096 : Shape := ⟨1, ![4096]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg0 : FVec F S4096x4096 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_cst_6 : FVec F S_ .f32 := constant S_ .f32 0x00000000#32
  let main_v19 : FVec F S4096 .f32 := (fun x v => Host.reduceAdd x v reducesTo_S4096x4096_S4096_d1 h_S_) main_arg0 main_cst_6
  let main_cst_7 : FVec F S_ .f32 := constant S_ .f32 0xBF800000#32
  let main_v20 : FVec F S4096 .f32 := broadcastInDim S4096 ![] bcast_S_S4096 main_cst_7
  let main_v21 : IVec S4096 1 := cmpf .ogt main_v19 main_v20
  let main_c_8 : IVec S_ 1 := constantI S_ 1 1#1
  let main_v22 : IVec S_ 1 := (fun x v => Host.reduce IntOp.andi x v reducesTo_S4096_S_d0 h_S_) main_v21 main_c_8
  let main_v23 : IVec S_ 1 := andi main_v18 main_v22
  main_v23

def fn {F : FTy → Type} [FloatOps F] (main_arg0 : FVec F S4096x4096 .f32) (main_arg1 : FVec F S4096x128 .f32) (main_arg2 : FVec F S128x64 .f32) (main_arg3 : FVec F S64x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg0 main_v13 main_v16
-- ==== Kernel.lean ====
abbrev S4096x4096 : Shape := ⟨2, ![4096, 4096]⟩
abbrev S4096x128 : Shape := ⟨2, ![4096, 128]⟩
abbrev S128x64 : Shape := ⟨2, ![128, 64]⟩
abbrev S64x16 : Shape := ⟨2, ![64, 16]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S4096x64 : Shape := ⟨2, ![4096, 64]⟩
abbrev S4096 : Shape := ⟨1, ![4096]⟩
abbrev S4096x16 : Shape := ⟨2, ![4096, 16]⟩
abbrev S256x64 : Shape := ⟨2, ![256, 64]⟩
abbrev S256x16 : Shape := ⟨2, ![256, 16]⟩

abbrev nBuf : Space → Nat
  | .hbm => 9
  | .vmem => 32
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x64, .f32⟩
  | .hbm, ⟨3, _⟩ => ⟨S64x16, .f32⟩
  | .hbm, ⟨4, _⟩ => ⟨S4096x1, .f32⟩
  | .hbm, ⟨5, _⟩ => ⟨S4096x64, .f32⟩
  | .hbm, ⟨6, _⟩ => ⟨S4096x16, .f32⟩
  | .hbm, ⟨7, _⟩ => ⟨S4096x16, .f32⟩
  | .hbm, ⟨8, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S4096x1, .f32⟩
  | .local _ .vmem, ⟨5, _⟩ => ⟨S4096x128, .f32⟩
  | .local _ .vmem, ⟨6, _⟩ => ⟨S128x64, .f32⟩
  | .local _ .vmem, ⟨7, _⟩ => ⟨S4096x64, .f32⟩
  | .local _ .vmem, ⟨8, _⟩ => ⟨S256x4096, .f32⟩
  | .local _ .vmem, ⟨9, _⟩ => ⟨S256x4096, .f32⟩
  | .local _ .vmem, ⟨10, _⟩ => ⟨S4096x64, .f32⟩
  | .local _ .vmem, ⟨11, _⟩ => ⟨S256x64, .f32⟩
  | .local _ .vmem, ⟨12, _⟩ => ⟨S256x64, .f32⟩
  | .local _ .vmem, ⟨13, _⟩ => ⟨S256x1, .f32⟩
  | .local _ .vmem, ⟨14, _⟩ => ⟨S256x1, .f32⟩
  | .local _ .vmem, ⟨15, _⟩ => ⟨S64x16, .f32⟩
  | .local _ .vmem, ⟨16, _⟩ => ⟨S256x16, .f32⟩
  | .local _ .vmem, ⟨17, _⟩ => ⟨S256x16, .f32⟩
  | .local _ .vmem, ⟨18, _⟩ => ⟨S256x4096, .f32⟩
  | .local _ .vmem, ⟨19, _⟩ => ⟨S256x4096, .f32⟩
  | .local _ .vmem, ⟨20, _⟩ => ⟨S4096x16, .f32⟩
  | .local _ .vmem, ⟨21, _⟩ => ⟨S256x16, .f32⟩
  | .local _ .vmem, ⟨22, _⟩ => ⟨S256x16, .f32⟩
  | .local _ .vmem, ⟨23, _⟩ => ⟨S256x1, .f32⟩
  | .local _ .vmem, ⟨24, _⟩ => ⟨S256x1, .f32⟩
  | .local _ .vmem, ⟨25, _⟩ => ⟨S256x16, .f32⟩
  | .local _ .vmem, ⟨26, _⟩ => ⟨S256x16, .f32⟩
  | .local _ .vmem, ⟨27, _⟩ => ⟨S256x16, .f32⟩
  | .local _ .vmem, ⟨28, _⟩ => ⟨S256x16, .f32⟩
  | .local _ .vmem, ⟨29, _⟩ => ⟨S4096x16, .f32⟩
  | .local _ .vmem, ⟨30, _⟩ => ⟨S256x4096, .f32⟩
  | .local _ .vmem, ⟨31, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S4096x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  reduces_S4096x64_S4096 : S4096x64.Reduces [1] S4096
  shapeCasts_S4096_S4096x1 : S4096.ShapeCasts S4096x1
  broadcasts_S4096x1_S4096x64 : S4096x1.Broadcasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  inb_S64x16_S64x16_0_0 : ∀ a, (![0, 0] : Fin 2 → Nat) a + S64x16.size a ≤ S64x16.size a
  h_S64x16 : 0 < S64x16.numel
  reduces_S256x16_S256 : S256x16.Reduces [1] S256
  broadcasts_S256x1_S256x16 : S256x1.Broadcasts S256x16
  inb_S256x16_S256x16_0_0 : ∀ a, (![0, 0] : Fin 2 → Nat) a + S256x16.size a ≤ S256x16.size a
  h_S256x16 : 0 < S256x16.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  shapeCasts_S256x16_S256x16 : S256x16.ShapeCasts S256x16
  dot_S4096x128_S128x64_S4096x64_1_0_0_1_n_n_wf : DotDims.WF S4096x128 S128x64 S4096x64 [1] [0] [0] [1] [] []
  dot_S256x4096_S4096x64_S256x64_1_0_0_1_n_n_wf : DotDims.WF S256x4096 S4096x64 S256x64 [1] [0] [0] [1] [] []
  dot_S256x64_S64x16_S256x16_1_0_0_1_n_n_wf : DotDims.WF S256x64 S64x16 S256x16 [1] [0] [0] [1] [] []
  dot_S256x4096_S4096x16_S256x16_1_0_0_1_n_n_wf : DotDims.WF S256x4096 S4096x16 S256x16 [1] [0] [0] [1] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S4096x64.size a
  hwx2_2 : ∀ i : grid2.Coords, EltTy.bits .f32 = 32 ∨ (Rect.block (s := S4096x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S4096x1.size a
  hwx2_3 : ∀ i : grid2.Coords, EltTy.bits .f32 = 32 ∨ (Rect.block (s := S4096x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x16.size a ≤ S64x16.size a
  hwx2_4 : ∀ i : grid2.Coords, EltTy.bits .f32 = 32 ∨ (Rect.block (s := S64x16) S64x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x16.size a ≤ S4096x16.size a
  hwx2_5 : ∀ i : grid2.Coords, EltTy.bits .f32 = 32 ∨ (Rect.block (s := S4096x16) S256x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x16.size a ≤ S4096x16.size a
  hwx3_1 : ∀ i : grid3.Coords, EltTy.bits .f32 = 32 ∨ (Rect.block (s := S4096x16) S4096x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x16.size a ≤ S4096x16.size a
  hwx3_2 : ∀ i : grid3.Coords, EltTy.bits .f32 = 32 ∨ (Rect.block (s := S4096x16) S256x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S4096x1.size a
  hwx3_3 : ∀ i : grid3.Coords, EltTy.bits .f32 = 32 ∨ (Rect.block (s := S4096x1) S256x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x16.size a ≤ S4096x16.size a
  hwx3_4 : ∀ i : grid3.Coords, EltTy.bits .f32 = 32 ∨ (Rect.block (s := S4096x16) S256x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x16.size a ≤ S4096x16.size a
  hwx4_0 : ∀ i : grid4.Coords, EltTy.bits .f32 = 32 ∨ (Rect.block (s := S4096x16) S256x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x16.size a ≤ S4096x16.size a
  hwx4_1 : ∀ i : grid4.Coords, EltTy.bits .f32 = 32 ∨ (Rect.block (s := S4096x16) S4096x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x4096.size a ≤ S4096x4096.size a
  hwx4_2 : ∀ i : grid4.Coords, EltTy.bits .f32 = 32 ∨ (Rect.block (s := S4096x4096) S256x4096.size (cc4_transform_2 i) (hinb4_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_arg1) false false (stage1_1 0) (sem1_1 0) (Memref.isWhole_whole _) (hstage1_1 0)

abbrev win1_2 : Pipeline.Window sig grid1 :=
  Pipeline.Window.whole (Memref.whole main_arg2) false false (stage1_2 0) (sem1_2 0) (Memref.isWhole_whole _) (hstage1_2 0)

abbrev win1_3 : Pipeline.Window sig grid1 :=
  Pipeline.Window.whole (Memref.whole main_v1) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S64x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S256x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4096x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S256x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3) S256x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v3) S256x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S4096x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S256x4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4096x4096 : Shape := ⟨2, ![4096, 4096]⟩
abbrev S4096x128 : Shape := ⟨2, ![4096, 128]⟩
abbrev S128x64 : Shape := ⟨2, ![128, 64]⟩
abbrev S64x16 : Shape := ⟨2, ![64, 16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x64 : Shape := ⟨2, ![4096, 64]⟩
abbrev S4096x16 : Shape := ⟨2, ![4096, 16]⟩
abbrev S16x4096 : Shape := ⟨2, ![16, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x64, .f32⟩
  | .hbm, ⟨3, _⟩ => ⟨S64x16, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S4096x16, .f32⟩
  | .hbm, ⟨42, _⟩ => ⟨S4096x16, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S_, .f32⟩
  | .hbm, ⟨54, _⟩ => ⟨S4096x16, .f32⟩
  | .hbm, ⟨55, _⟩ => ⟨S4096x16, .f32⟩
  | .hbm, ⟨56, _⟩ => ⟨S16x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_call2_cst : Ref sig .tc := ⟨.hbm, 43, rfl⟩
abbrev main_call2_v1 : Ref sig .tc := ⟨.hbm, 44, rfl⟩
abbrev main_call2_v2 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x64_S4096_d1 : S4096x64.ReducesTo [1] S4096
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  reducesTo_S4096x16_S4096_d1 : S4096x16.ReducesTo [1] S4096
  bcast_S4096x1_S4096x16_0_1 : S4096x1.BroadcastsInDim S4096x16 (![0, 1] : Fin 2 → Fin S4096x16.rank)
  bcast_S_S4096x16 : S_.BroadcastsInDim S4096x16 (![] : Fin 0 → Fin S4096x16.rank)
  transposes_S4096x16_S16x4096_1_0 : S4096x16.Transposes [1, 0] S16x4096
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x16_S4096x16_1_0_0_1_n_n_wf : DotDims.WF S4096x64 S64x16 S4096x16 [1] [0] [0] [1] [] []
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.HandData.lean ====
/-
  The five passes as pipelines: what each pass finds and leaves, point by point.

  Each pass streams row blocks of its operands through staging buffers: at grid point `t` an input window's buffer holds
  block `t` of its array (`iblkK`, read off the contents `V` the pass is entered with), the body loads every buffer whole,
  computes ONE value (the pass's arithmetic, `kK_pay1` of the loaded blocks) and stores it whole into the output window's
  buffer (`outK_W`), which the pipeline writes back as block `t` of the output array. `datK` records exactly that per
  point. Two input windows of passes 2, 3 and 4 read the same array (the whole of it for the matrix product, one row block
  of it for the added term): each holds half of that array's read share.
-/
import proofs.«108352_g74474732912750_cont_9to1_m_1152_2_alg».proof.Proof.Gen.KernelIdeal.Launch
import proofs.«108352_g74474732912750_cont_9to1_m_1152_2_alg».proof.Proof.Gen.KernelIdeal.Skeleton
import proofs.«108352_g74474732912750_cont_9to1_m_1152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Data
-- the core's buffer contents when a pass is entered: every pass's half is stated at this parameter
variable (V : (c : Dev nD) → (b : Ref sig .tc) → Buf (Elt F) ((c : Thread nD τ).loc b))

/-! ## Pass 0: `d = rsqrt (rowsum A + 1)`, a [256, 1] block per point -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S256x4096 := (Rect.unit (s := S256x4096) ![0, 0] S256x4096.size inb_S256x4096_S256x4096_0_0)
abbrev rD : Rect S256x1 := (Rect.unit (s := S256x1) ![0, 0] S256x1.size inb_S256x1_S256x1_0_0)
abbrev rX : Rect S4096x128 := (Rect.unit (s := S4096x128) ![0, 0] S4096x128.size inb_S4096x128_S4096x128_0_0)
abbrev rW1 : Rect S128x64 := (Rect.unit (s := S128x64) ![0, 0] S128x64.size inb_S128x64_S128x64_0_0)
abbrev rDw : Rect S4096x1 := (Rect.unit (s := S4096x1) ![0, 0] S4096x1.size inb_S4096x1_S4096x1_0_0)
abbrev rZw : Rect S4096x64 := (Rect.unit (s := S4096x64) ![0, 0] S4096x64.size inb_S4096x64_S4096x64_0_0)
abbrev rZb : Rect S256x64 := (Rect.unit (s := S256x64) ![0, 0] S256x64.size inb_S256x64_S256x64_0_0)
abbrev rW2 : Rect S64x16 := (Rect.unit (s := S64x16) ![0, 0] S64x16.size inb_S64x16_S64x16_0_0)
abbrev rEb : Rect S256x16 := (Rect.unit (s := S256x16) ![0, 0] S256x16.size inb_S256x16_S256x16_0_0)
abbrev rEw : Rect S4096x16 := (Rect.unit (s := S4096x16) ![0, 0] S4096x16.size inb_S4096x16_S4096x16_0_0)

/-- The output buffer after the body: its one store, of the pass's arithmetic on the loaded block. -/
def out0_1 (x0 : Vec F S256x4096 .f32) : Vec F S256x1 .f32 :=
  View.canon [⟨rD, k0_pay1 (View.ld x0 rA)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Pass 1: `zd1 = d · ℓ₂(X W₁)`, one point, everything whole -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Windows: 0 the column `d`, 1 `X`, 2 `W₁`; the body's arithmetic takes `X`, `W₁`, `d` in that order. -/
def out1_3 (x0 : Vec F S4096x1 .f32) (x1 : Vec F S4096x128 .f32) (x2 : Vec F S128x64 .f32) : Vec F S4096x64 .f32 :=
  View.canon [⟨rZw, k1_pay1 (View.ld x1 rX) (View.ld x2 rW1) (View.ld x0 rDw)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Pass 2: the first convolution and the second layer's small operand, a [256, 16] block per point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Windows: 0 a row block of `A`, 1 `zd1` whole, 2 the row block of `zd1`, 3 the row block of `d`, 4 `W₂`; the
    body loads the `d` block twice. -/
def out2_5 (x0 : Vec F S256x4096 .f32) (x1 : Vec F S4096x64 .f32) (x2 : Vec F S256x64 .f32) (x3 : Vec F S256x1 .f32)
    (x4 : Vec F S64x16 .f32) : Vec F S256x16 .f32 :=
  View.canon [⟨rEb, k2_pay1 (View.ld x0 rA) (View.ld x1 rZw) (View.ld x3 rD) (View.ld x2 rZb) (View.ld x4 rW2) (View.ld x3 rD)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## Pass 3: the second convolution, the encoding's [256, 16] block per point -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Windows: 0 a row block of `A`, 1 `zd2` whole, 2 the row block of `zd2`, 3 the row block of `d`. -/
def out3_4 (x0 : Vec F S256x4096 .f32) (x1 : Vec F S4096x16 .f32) (x2 : Vec F S256x16 .f32) (x3 : Vec F S256x1 .f32) :
    Vec F S256x16 .f32 :=
  View.canon [⟨rEb, k3_pay1 (View.ld x0 rA) (View.ld x1 rEw) (View.ld x3 rD) (View.ld x2 rEb)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! ## Pass 4: `σ(e eᵀ)`, a [256, 4096] row block per point -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Windows: 0 the row block of the encoding, 1 the encoding whole. -/
def out4_2 (x0 : Vec F S256x16 .f32) (x1 : Vec F S4096x16 .f32) : Vec F S256x4096 .f32 :=
  View.canon [⟨rA, k4_pay1 (View.ld x0 rEb) (View.ld x1 rEw)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

end Data

end Cert.KernelIdeal.Hand

end
-- ==== Proof.HandBodiesA.lean ====
/-
  The kernel bodies of the first three passes against their pipelines' proof data.

  Each pass is a pipeline over a static grid: at every grid point the pipeline hands the body one staging buffer per
  window; the body loads each input buffer whole, loads the output buffer (a value nothing uses), and stores one
  payload over the whole output buffer. The proof data `datK`, the blocks `iblkK` and the output contents `outK_W`
  are those of the data module; everything is stated at the same parameter `V`, the contents of the core's buffers
  when the pass is entered. Per pass `K`:

  * `coverK_W` — the single whole-buffer store covers the output buffer;
  * `sound_kernelK` — the body's triple on arbitrary whole staging memrefs: inputs kept, output left at `outK_W`;
  * `beforeK_W_of`, `beforeK_W` — an input buffer holds its window's block at every point, fetched there or not:
    at a point where the window is not fetched its block index is the previous point's;
  * `bodyPreK`, `bodyPostK`, `sound_bodyK`, `body_obligationK` — the pipeline rule's body obligation at every point.
-/
import proofs.«108352_g74474732912750_cont_9to1_m_1152_2_alg».proof.Proof.HandData

-- membership of an index in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Bodies
-- the core's buffer contents when a pass is entered: the parameter of the data module
variable (V : (c : Dev nD) → (b : Ref sig .tc) → Buf (Elt F) ((c : Thread nD τ).loc b))

/-! # Pass 0: window 0 a [256, 4096] row block of the adjacency matrix, window 1 the [256, 1] block of `d` -/

/-- Input window 0 holds its block at every point, for any proof data whose array is `V`'s and whose body leaves
    the block in place. The blocks tile the array (no cut) and the window is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is a tiling of the output buffer by itself, so every index of the buffer lies in it. -/
theorem cover0_1 (p0 : Vec F S256x1 .f32) (y : S256x1.Idx) :
    ∃ pc ∈ ([⟨rD, p0⟩] : List (View.Piece (Elt F) S256x1 .f32)), y ∈ pc.1.set :=
  View.cover_of_tiled [⟨rD, p0⟩] S256x1.size (by rfl) y

set_option maxHeartbeats 1000000 in
/-- The body on whole staging memrefs, the input's reading `x0` and the output's holding anything: it returns with
    the input's as it was and the output's reading `out0_1 x0`. -/
theorem sound_kernel0 (c : Dev nD) (E : Set ℕ) (i : grid0.Coords)
    (arg1 : Memref sig .tc .vmem S256x4096 .f32) (harg1 : arg1.IsWhole) (arg2 : Memref sig .tc .vmem S256x1 .f32) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_body i arg1 harg1 arg2 harg2) K := by
  simp only [cc0__rowsum_body_eq_skeleton]; unfold cc0__rowsum_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input memref holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # Pass 1: one point; windows 0 the column `d`, 1 `X`, 2 `W₁` (each the whole array), window 3 the whole output -/

/-- Input window 0 (the column `d`) holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (`X`) holds its block at every point, for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (`W₁`) holds its block at every point, for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is a tiling of the output buffer by itself, so every index of the buffer lies in it. -/
theorem cover1_3 (p0 : Vec F S4096x64 .f32) (y : S4096x64.Idx) :
    ∃ pc ∈ ([⟨rZw, p0⟩] : List (View.Piece (Elt F) S4096x64 .f32)), y ∈ pc.1.set :=
  View.cover_of_tiled [⟨rZw, p0⟩] S4096x64.size (by rfl) y

set_option maxHeartbeats 1000000 in
/-- The body on whole staging memrefs, the inputs' reading `x0`, `x1`, `x2` and the output's holding anything: it
    returns with the inputs' as they were and the output's reading `out1_3 x0 x1 x2`. -/
theorem sound_kernel1 (c : Dev nD) (E : Set ℕ)
    (arg0 : Memref sig .tc .vmem S4096x1 .f32) (harg0 : arg0.IsWhole) (arg1 : Memref sig .tc .vmem S4096x128 .f32) (harg1 : arg1.IsWhole)
    (arg2 : Memref sig .tc .vmem S128x64 .f32) (harg2 : arg2.IsWhole) (arg3 : Memref sig .tc .vmem S4096x64 .f32) (harg3 : arg3.IsWhole)
    (x0 : Vec F S4096x1 .f32) (x1 : Vec F S4096x128 .f32) (x2 : Vec F S128x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__prep_body arg0 harg0 arg1 harg1 arg2 harg2 arg3 harg3) K := by
  simp only [cc1__prep_body_eq_skeleton]; unfold cc1__prep_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at the point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at the point. -/
theorem body_obligation1 (c : Dev nD) : BodyObligation (dat1 (F := F) V c) (defs₀ (F := F)) Variants.none () Set.univ := fun t => by
  rw [bigSep_W1, bigSep_W1]
  exact sound_body1 V c t

/-! # Pass 2: windows 0 a [256, 4096] row block of the adjacency matrix, 1 `zd1` whole, 2 the [256, 64] row block of
    `zd1`, 3 the [256, 1] row block of `d`, 4 `W₂` whole; window 5 the [256, 16] output block. Windows 1 and 4 have a
    constant block index: they are fetched at the first point only and found unchanged at every later one. -/

/-- Input window 0 (the row block of the adjacency matrix) holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (`zd1` whole) holds its block at every point, for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the row block of `zd1`) holds its block at every point, for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the row block of `d`) holds its block at every point, for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (`W₂` whole) holds its block at every point, for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is a tiling of the output buffer by itself, so every index of the buffer lies in it. -/
theorem cover2_5 (p0 : Vec F S256x16 .f32) (y : S256x16.Idx) :
    ∃ pc ∈ ([⟨rEb, p0⟩] : List (View.Piece (Elt F) S256x16 .f32)), y ∈ pc.1.set :=
  View.cover_of_tiled [⟨rEb, p0⟩] S256x16.size (by rfl) y

set_option maxHeartbeats 1000000 in
/-- The body on whole staging memrefs, the inputs' reading `x0` … `x4` and the output's holding anything: it returns
    with the inputs' as they were and the output's reading `out2_5 x0 x1 x2 x3 x4`. The `d` block's buffer is loaded
    twice; both loads read `x3`. -/
theorem sound_kernel2 (c : Dev nD) (E : Set ℕ) (i : grid2.Coords)
    (arg1 : Memref sig .tc .vmem S256x4096 .f32) (harg1 : arg1.IsWhole) (arg2 : Memref sig .tc .vmem S4096x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S64x16 .f32) (harg5 : arg5.IsWhole) (arg6 : Memref sig .tc .vmem S256x16 .f32) (harg6 : arg6.IsWhole)
    (x0 : Vec F S256x4096 .f32) (x1 : Vec F S4096x64 .f32) (x2 : Vec F S256x64 .f32) (x3 : Vec F S256x1 .f32) (x4 : Vec F S64x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__conv1_body i arg1 harg1 arg2 harg2 arg3 harg3 arg4 harg4 arg5 harg5 arg6 harg6) K := by
  simp only [cc2__conv1_body_eq_skeleton]; unfold cc2__conv1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Bodies

end Cert.KernelIdeal.Hand

end
-- ==== Proof.HandBodiesB.lean ====
/-
  The body's half of passes 3 and 4: at every grid point the kernel body, run on the windows' current staging buffers,
  finds each input buffer at its block of the array (fetched there or not: a block index that does not move leaves the
  buffer as the previous point left it) and leaves the output buffer at the pass's arithmetic on those blocks, the
  invariant and what the core owes passing through untouched.
-/
import proofs.«108352_g74474732912750_cont_9to1_m_1152_2_alg».proof.Proof.HandData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Bodies
-- the core's buffer contents when a pass is entered
variable (V : (c : Dev nD) → (b : Ref sig .tc) → Buf (Elt F) ((c : Thread nD τ).loc b))

/-! # Pass 4 -/

/-! ## What the body finds in the input windows' buffers -/

/-- Input window 0's staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 is the whole array, its block index constant: fetched at the first point only, and found in place
    at every later one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The output buffer is stored whole -/

/-- The body's one store goes through the rectangle that is the whole [256, 4096] buffer, so it covers it. -/
theorem cover4_2 (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

/-! ## The body's triple -/

set_option maxHeartbeats 1000000 in
/-- The body on whole staging memrefs — the two inputs' at read contents `x0`, `x1`, the output's at anything — runs to
    the continuation holding the inputs' as they were and the output's at `out4_2 x0 x1`: two loads, a load of the
    output buffer whose value nothing reads, and the store of the arithmetic over the whole buffer. -/
theorem sound_kernel4 (c : Dev nD) (E : Set ℕ) (i : grid4.Coords)
    (arg1 : Memref sig .tc .vmem S256x16 .f32) (harg1 : arg1.IsWhole)
    (arg2 : Memref sig .tc .vmem S4096x16 .f32) (harg2 : arg2.IsWhole)
    (arg3 : Memref sig .tc .vmem S256x4096 .f32) (harg3 : arg3.IsWhole)
    (x0 : Vec F S256x16 .f32) (x1 : Vec F S4096x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__outer_body i arg1 harg1 arg2 harg2 arg3 harg3) K := by
  simp only [cc4__outer_body_eq_skeleton]; unfold cc4__outer_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and what
    the core owes are the same before and after, and pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pass 4, at every point. -/
theorem body_obligation4 (c : Dev nD) : BodyObligation (dat4 (F := F) V c) (defs₀ (F := F)) Variants.none () Set.univ := fun t => by
  rw [bigSep_W4, bigSep_W4]
  exact sound_body4 V c t

/-! # Pass 3 -/

/-! ## What the body finds in the input windows' buffers -/
/-- Input window 0 (a row block of the [4096, 4096] operand) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 is the whole [4096, 16] array, its block index constant: fetched at the first point only, and found
    in place at every later one. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2, a row block of the same [4096, 16] array. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3, a row block of the [4096, 1] column. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The output buffer is stored whole -/

/-- The body's one store goes through the rectangle that is the whole [256, 16] buffer, so it covers it. -/
theorem cover3_4 (p0 : Vec F S256x16 .f32) (y : S256x16.Idx) :
    ∃ pc ∈ ([⟨rEb, p0⟩] : List (View.Piece (Elt F) S256x16 .f32)), y ∈ pc.1.set :=
  View.cover_of_tiled [⟨rEb, p0⟩] S256x16.size (by rfl) y

/-! ## The body's triple -/

set_option maxHeartbeats 1000000 in
/-- The body on whole staging memrefs — the four inputs' at read contents `x0 … x3`, the output's at anything — runs
    to the continuation holding the inputs' as they were and the output's at `out3_4 x0 x1 x2 x3`: four loads (the
    fourth memref before the third), a load of the output buffer whose value nothing reads, and the store of the
    arithmetic over the whole buffer. -/
theorem sound_kernel3 (c : Dev nD) (E : Set ℕ) (i : grid3.Coords)
    (arg1 : Memref sig .tc .vmem S256x4096 .f32) (harg1 : arg1.IsWhole)
    (arg2 : Memref sig .tc .vmem S4096x16 .f32) (harg2 : arg2.IsWhole)
    (arg3 : Memref sig .tc .vmem S256x16 .f32) (harg3 : arg3.IsWhole)
    (arg4 : Memref sig .tc .vmem S256x1 .f32) (harg4 : arg4.IsWhole)
    (arg5 : Memref sig .tc .vmem S256x16 .f32) (harg5 : arg5.IsWhole)
    (x0 : Vec F S256x4096 .f32) (x1 : Vec F S4096x16 .f32) (x2 : Vec F S256x16 .f32) (x3 : Vec F S256x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__conv2_body i arg1 harg1 arg2 harg2 arg3 harg3 arg4 harg4 arg5 harg5) K := by
  simp only [cc3__conv2_body_eq_skeleton]; unfold cc3__conv2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the invariant and what
    the core owes are the same before and after, and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pass 3, at every point. -/
theorem body_obligation3 (c : Dev nD) : BodyObligation (dat3 (F := F) V c) (defs₀ (F := F)) Variants.none () Set.univ := fun t => by
  rw [bigSep_W3, bigSep_W3]
  exact sound_body3 V c t

end Bodies

end Cert.KernelIdeal.Hand

end
-- ==== Proof.HandRun.lean ====
/-
  The whole program's run: five passes, each entered from what the one before left.

  Between two passes a core's HBM buffers hold: the four arguments as launched, and each pass's result array as that pass's
  write-backs left it (`WK`: the launch contents updated, pass by pass, at the pass's one output array with the fold of
  its blocks, `Dat.arrAt … N`). Every pass is one pipelined kernel region: its arrays are split out of the buffers at
  entry and put back at exit; an array that two input windows of one pass read is handed to them half a read share
  each and rejoined at exit. The run's post-condition says what every HBM buffer holds at the end (`W5`).
-/
import proofs.«108352_g74474732912750_cont_9to1_m_1152_2_alg».proof.Proof.HandData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shares
variable (Vp : (c : Dev nD) → (b : Ref sig .tc) → Buf (Elt F) ((c : Thread nD τ).loc b))
/-- Pass 2's arrays at contents read off a valuation are the buffers behind them whole: the array two windows read is
    its two read halves. -/
theorem arrays2_iff (c : Dev nD) (V' : (b : Ref sig .tc) → Buf (Elt F) ((c : Thread nD τ).loc b))
    (Fw : (w : Fin cfg2.W) → Buf (Elt F) ((cfg2.win w).arr.view.loc (c : Thread nD τ))) (hF : ∀ w, Fw w = V' (Pipeline.arrRef spec2 w)) :
    ((dat2 Vp c).arrays Fw : sProp 𝕄) ⊣⊢ Pipeline.arrBufs spec2 c V' := by
  unfold Pipeline.Dat.arrays Pipeline.arrBufs
  rw [bigSep_W2, Idealize.SL.BI.bigSep_eq_bigSepL_of_eq [main_arg0, main_v1, main_v0, main_arg3, main_v2] (by decide) (by decide)]
  rw [hF 0, hF 1, hF 2, hF 3, hF 4, hF 5]
  try rw [show (cfg2.win 0).arr.view.set = Finset.univ from (arr_whole2 0).set_eq_univ]
  try rw [show (cfg2.win 1).arr.view.set = Finset.univ from (arr_whole2 1).set_eq_univ]
  try rw [show (cfg2.win 2).arr.view.set = Finset.univ from (arr_whole2 2).set_eq_univ]
  try rw [show (cfg2.win 3).arr.view.set = Finset.univ from (arr_whole2 3).set_eq_univ]
  try rw [show (cfg2.win 4).arr.view.set = Finset.univ from (arr_whole2 4).set_eq_univ]
  try rw [show (cfg2.win 5).arr.view.set = Finset.univ from (arr_whole2 5).set_eq_univ]
  rw [show (dat2 Vp c).share 0 = fullShare from rfl,
    show (dat2 Vp c).share 1 = fullShare.left from rfl,
    show (dat2 Vp c).share 2 = fullShare.right from rfl,
    show (dat2 Vp c).share 3 = fullShare from rfl,
    show (dat2 Vp c).share 4 = fullShare from rfl,
    show (dat2 Vp c).share 5 = fullShare from rfl]
  show _ ⊣⊢ (iprop((((c : Thread nD τ).loc main_arg0) ↦{fullShare} V' main_arg0) ∗ (((c : Thread nD τ).loc main_v1) ↦{fullShare} V' main_v1) ∗ (((c : Thread nD τ).loc main_v0) ↦{fullShare} V' main_v0) ∗ (((c : Thread nD τ).loc main_arg3) ↦{fullShare} V' main_arg3) ∗ (((c : Thread nD τ).loc main_v2) ↦{fullShare} V' main_v2)) : sProp 𝕄)
  constructor
  · iintro ⟨H0, H1, H2, H3, H4, H5⟩
    ihave HJ := (pointsTo_share (PosShare.mem_left_op_right fullShare)).2 $$ [H1 H2]
    · isplitl [H1]; · iexact H1
      iexact H2
    isplitl [H0]; · iexact H0
    isplitl [HJ]; · iexact HJ
    isplitl [H3]; · iexact H3
    isplitl [H4]; · iexact H4
    iexact H5
  · iintro ⟨H0, HJ, H3, H4, H5⟩
    ihave HS := (pointsTo_share (PosShare.mem_left_op_right fullShare)).1 $$ HJ
    icases HS with ⟨H1, H2⟩
    isplitl [H0]; · iexact H0
    isplitl [H1]; · iexact H1
    isplitl [H2]; · iexact H2
    isplitl [H3]; · iexact H3
    isplitl [H4]; · iexact H4
    iexact H5

/-- Pass 3's arrays at contents read off a valuation are the buffers behind them whole: the array two windows read is
    its two read halves. -/
theorem arrays3_iff (c : Dev nD) (V' : (b : Ref sig .tc) → Buf (Elt F) ((c : Thread nD τ).loc b))
    (Fw : (w : Fin cfg3.W) → Buf (Elt F) ((cfg3.win w).arr.view.loc (c : Thread nD τ))) (hF : ∀ w, Fw w = V' (Pipeline.arrRef spec3 w)) :
    ((dat3 Vp c).arrays Fw : sProp 𝕄) ⊣⊢ Pipeline.arrBufs spec3 c V' := by
  unfold Pipeline.Dat.arrays Pipeline.arrBufs
  rw [bigSep_W3, Idealize.SL.BI.bigSep_eq_bigSepL_of_eq [main_arg0, main_v2, main_v0, main_v3] (by decide) (by decide)]
  rw [hF 0, hF 1, hF 2, hF 3, hF 4]
  try rw [show (cfg3.win 0).arr.view.set = Finset.univ from (arr_whole3 0).set_eq_univ]
  try rw [show (cfg3.win 1).arr.view.set = Finset.univ from (arr_whole3 1).set_eq_univ]
  try rw [show (cfg3.win 2).arr.view.set = Finset.univ from (arr_whole3 2).set_eq_univ]
  try rw [show (cfg3.win 3).arr.view.set = Finset.univ from (arr_whole3 3).set_eq_univ]
  try rw [show (cfg3.win 4).arr.view.set = Finset.univ from (arr_whole3 4).set_eq_univ]
  rw [show (dat3 Vp c).share 0 = fullShare from rfl,
    show (dat3 Vp c).share 1 = fullShare.left from rfl,
    show (dat3 Vp c).share 2 = fullShare.right from rfl,
    show (dat3 Vp c).share 3 = fullShare from rfl,
    show (dat3 Vp c).share 4 = fullShare from rfl]
  show _ ⊣⊢ (iprop((((c : Thread nD τ).loc main_arg0) ↦{fullShare} V' main_arg0) ∗ (((c : Thread nD τ).loc main_v2) ↦{fullShare} V' main_v2) ∗ (((c : Thread nD τ).loc main_v0) ↦{fullShare} V' main_v0) ∗ (((c : Thread nD τ).loc main_v3) ↦{fullShare} V' main_v3)) : sProp 𝕄)
  constructor
  · iintro ⟨H0, H1, H2, H3, H4⟩
    ihave HJ := (pointsTo_share (PosShare.mem_left_op_right fullShare)).2 $$ [H1 H2]
    · isplitl [H1]; · iexact H1
      iexact H2
    isplitl [H0]; · iexact H0
    isplitl [HJ]; · iexact HJ
    isplitl [H3]; · iexact H3
    iexact H4
  · iintro ⟨H0, HJ, H3, H4⟩
    ihave HS := (pointsTo_share (PosShare.mem_left_op_right fullShare)).1 $$ HJ
    icases HS with ⟨H1, H2⟩
    isplitl [H0]; · iexact H0
    isplitl [H1]; · iexact H1
    isplitl [H2]; · iexact H2
    isplitl [H3]; · iexact H3
    iexact H4

/-- Pass 4's arrays at contents read off a valuation are the buffers behind them whole: the array two windows read is
    its two read halves. -/
theorem arrays4_iff (c : Dev nD) (V' : (b : Ref sig .tc) → Buf (Elt F) ((c : Thread nD τ).loc b))
    (Fw : (w : Fin cfg4.W) → Buf (Elt F) ((cfg4.win w).arr.view.loc (c : Thread nD τ))) (hF : ∀ w, Fw w = V' (Pipeline.arrRef spec4 w)) :
    ((dat4 Vp c).arrays Fw : sProp 𝕄) ⊣⊢ Pipeline.arrBufs spec4 c V' := by
  unfold Pipeline.Dat.arrays Pipeline.arrBufs
  rw [bigSep_W4, Idealize.SL.BI.bigSep_eq_bigSepL_of_eq [main_v3, main_v4] (by decide) (by decide)]
  rw [hF 0, hF 1, hF 2]
  try rw [show (cfg4.win 0).arr.view.set = Finset.univ from (arr_whole4 0).set_eq_univ]
  try rw [show (cfg4.win 1).arr.view.set = Finset.univ from (arr_whole4 1).set_eq_univ]
  try rw [show (cfg4.win 2).arr.view.set = Finset.univ from (arr_whole4 2).set_eq_univ]
  rw [show (dat4 Vp c).share 0 = fullShare.left from rfl,
    show (dat4 Vp c).share 1 = fullShare.right from rfl,
    show (dat4 Vp c).share 2 = fullShare from rfl]
  show _ ⊣⊢ (iprop((((c : Thread nD τ).loc main_v3) ↦{fullShare} V' main_v3) ∗ (((c : Thread nD τ).loc main_v4) ↦{fullShare} V' main_v4)) : sProp 𝕄)
  constructor
  · iintro ⟨H0, H1, H2⟩
    ihave HJ := (pointsTo_share (PosShare.mem_left_op_right fullShare)).2 $$ [H0 H1]
    · isplitl [H0]; · iexact H0
      iexact H1
    isplitl [HJ]; · iexact HJ
    iexact H2
  · iintro ⟨HJ, H2⟩
    ihave HS := (pointsTo_share (PosShare.mem_left_op_right fullShare)).1 $$ HJ
    icases HS with ⟨H0, H1⟩
    isplitl [H0]; · iexact H0
    isplitl [H1]; · iexact H1
    iexact H2

end Shares

section Run

variable (m : (ℓ : Loc nD τ sig) → Buf (Elt F) ℓ)

/-! ## What the HBM buffers hold between passes -/

/-- At launch. -/
abbrev W0 (c : Dev nD) : Valuation τ sig (Elt F) := fun b => m (c, b)
abbrev V0 : (c : Dev nD) → (b : Ref sig .tc) → Buf (Elt F) ((c : Thread nD τ).loc b) := fun c b => W0 m c b
/-- After pass 0: `d` in its array. -/
def W1 (c : Dev nD) : Valuation τ sig (Elt F) :=
  Function.update (W0 m c) (Proc.devRef .tc main_v0) ((dat0 (V0 m) c).arrAt 1 cfg0.N)
abbrev V1 : (c : Dev nD) → (b : Ref sig .tc) → Buf (Elt F) ((c : Thread nD τ).loc b) := fun c b => W1 m c b
/-- After pass 1: `zd1`. -/
def W2 (c : Dev nD) : Valuation τ sig (Elt F) :=
  Function.update (W1 m c) (Proc.devRef .tc main_v1) ((dat1 (V1 m) c).arrAt 3 cfg1.N)
abbrev V2 : (c : Dev nD) → (b : Ref sig .tc) → Buf (Elt F) ((c : Thread nD τ).loc b) := fun c b => W2 m c b
/-- After pass 2: `zd2`. -/
def W3 (c : Dev nD) : Valuation τ sig (Elt F) :=
  Function.update (W2 m c) (Proc.devRef .tc main_v2) ((dat2 (V2 m) c).arrAt 5 cfg2.N)
abbrev V3 : (c : Dev nD) → (b : Ref sig .tc) → Buf (Elt F) ((c : Thread nD τ).loc b) := fun c b => W3 m c b
/-- After pass 3: the encoding. -/
def W4 (c : Dev nD) : Valuation τ sig (Elt F) :=
  Function.update (W3 m c) (Proc.devRef .tc main_v3) ((dat3 (V3 m) c).arrAt 4 cfg3.N)
abbrev V4 : (c : Dev nD) → (b : Ref sig .tc) → Buf (Elt F) ((c : Thread nD τ).loc b) := fun c b => W4 m c b
/-- After pass 4: the result. -/
def W5 (c : Dev nD) : Valuation τ sig (Elt F) :=
  Function.update (W4 m c) (Proc.devRef .tc main_v4) ((dat4 (V4 m) c).arrAt 2 cfg4.N)
abbrev V5 : (c : Dev nD) → (b : Ref sig .tc) → Buf (Elt F) ((c : Thread nD τ).loc b) := fun c b => W5 m c b

/-- A pass changes its own result array only. -/
theorem W1_of_ne (c : Dev nD) (b : Ref sig .tc) (h : b ≠ main_v0) : W1 m c (Proc.devRef .tc b) = W0 m c (Proc.devRef .tc b) := by
  unfold W1; exact Function.update_of_ne (StableHlo.devRef_ne_of_ne h) _ _
theorem W2_of_ne (c : Dev nD) (b : Ref sig .tc) (h : b ≠ main_v1) : W2 m c (Proc.devRef .tc b) = W1 m c (Proc.devRef .tc b) := by
  unfold W2; exact Function.update_of_ne (StableHlo.devRef_ne_of_ne h) _ _
theorem W3_of_ne (c : Dev nD) (b : Ref sig .tc) (h : b ≠ main_v2) : W3 m c (Proc.devRef .tc b) = W2 m c (Proc.devRef .tc b) := by
  unfold W3; exact Function.update_of_ne (StableHlo.devRef_ne_of_ne h) _ _
theorem W4_of_ne (c : Dev nD) (b : Ref sig .tc) (h : b ≠ main_v3) : W4 m c (Proc.devRef .tc b) = W3 m c (Proc.devRef .tc b) := by
  unfold W4; exact Function.update_of_ne (StableHlo.devRef_ne_of_ne h) _ _
theorem W5_of_ne (c : Dev nD) (b : Ref sig .tc) (h : b ≠ main_v4) : W5 m c (Proc.devRef .tc b) = W4 m c (Proc.devRef .tc b) := by
  unfold W5; exact Function.update_of_ne (StableHlo.devRef_ne_of_ne h) _ _
theorem W1_self (c : Dev nD) : W1 m c (Proc.devRef .tc main_v0) = (dat0 (V0 m) c).arrAt 1 cfg0.N := by
  unfold W1; exact Function.update_self _ _ _
theorem W2_self (c : Dev nD) : W2 m c (Proc.devRef .tc main_v1) = (dat1 (V1 m) c).arrAt 3 cfg1.N := by
  unfold W2; exact Function.update_self _ _ _
theorem W3_self (c : Dev nD) : W3 m c (Proc.devRef .tc main_v2) = (dat2 (V2 m) c).arrAt 5 cfg2.N := by
  unfold W3; exact Function.update_self _ _ _
theorem W4_self (c : Dev nD) : W4 m c (Proc.devRef .tc main_v3) = (dat3 (V3 m) c).arrAt 4 cfg3.N := by
  unfold W4; exact Function.update_self _ _ _
theorem W5_self (c : Dev nD) : W5 m c (Proc.devRef .tc main_v4) = (dat4 (V4 m) c).arrAt 2 cfg4.N := by
  unfold W5; exact Function.update_self _ _ _

/-- At a pass's exit each of its arrays holds what the pipeline leaves: an input array what it held, the output the fold
    of its blocks. -/
theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans ((A_eq0 (V0 m) c 0).trans (W1_of_ne m c main_arg0 (by decide)).symm)
  | ⟨1, _⟩ => (W1_self m c).symm
theorem hrest0 (c : Dev nD) : ∀ b, b ∉ Finset.univ.image (Pipeline.arrRef spec0) → V1 m c b = V0 m c b :=
  fun b hb => W1_of_ne m c b fun e => hb (Finset.mem_image.mpr ⟨1, Finset.mem_univ _, e.symm⟩)
theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans ((A_eq1 (V1 m) c 0).trans (W2_of_ne m c main_v0 (by decide)).symm)
  | ⟨1, _⟩ => ((dat1 (V1 m) c).arrAt_in 1 rfl _).trans ((A_eq1 (V1 m) c 1).trans (W2_of_ne m c main_arg1 (by decide)).symm)
  | ⟨2, _⟩ => ((dat1 (V1 m) c).arrAt_in 2 rfl _).trans ((A_eq1 (V1 m) c 2).trans (W2_of_ne m c main_arg2 (by decide)).symm)
  | ⟨3, _⟩ => (W2_self m c).symm
theorem hrest1 (c : Dev nD) : ∀ b, b ∉ Finset.univ.image (Pipeline.arrRef spec1) → V2 m c b = V1 m c b :=
  fun b hb => W2_of_ne m c b fun e => hb (Finset.mem_image.mpr ⟨3, Finset.mem_univ _, e.symm⟩)

theorem hF2 (c : Dev nD) (w : Fin cfg2.W) : (dat2 (V2 m) c).arrAt w cfg2.N = V3 m c (Pipeline.arrRef spec2 w) :=
  match w with
  | ⟨0, _⟩ => ((dat2 (V2 m) c).arrAt_in 0 rfl _).trans ((A_eq2 (V2 m) c 0).trans (W3_of_ne m c main_arg0 (by decide)).symm)
  | ⟨1, _⟩ => ((dat2 (V2 m) c).arrAt_in 1 rfl _).trans ((A_eq2 (V2 m) c 1).trans (W3_of_ne m c main_v1 (by decide)).symm)
  | ⟨2, _⟩ => ((dat2 (V2 m) c).arrAt_in 2 rfl _).trans ((A_eq2 (V2 m) c 2).trans (W3_of_ne m c main_v1 (by decide)).symm)
  | ⟨3, _⟩ => ((dat2 (V2 m) c).arrAt_in 3 rfl _).trans ((A_eq2 (V2 m) c 3).trans (W3_of_ne m c main_v0 (by decide)).symm)
  | ⟨4, _⟩ => ((dat2 (V2 m) c).arrAt_in 4 rfl _).trans ((A_eq2 (V2 m) c 4).trans (W3_of_ne m c main_arg3 (by decide)).symm)
  | ⟨5, _⟩ => (W3_self m c).symm
theorem hrest2 (c : Dev nD) : ∀ b, b ∉ Finset.univ.image (Pipeline.arrRef spec2) → V3 m c b = V2 m c b :=
  fun b hb => W3_of_ne m c b fun e => hb (Finset.mem_image.mpr ⟨5, Finset.mem_univ _, e.symm⟩)
theorem hF3 (c : Dev nD) (w : Fin cfg3.W) : (dat3 (V3 m) c).arrAt w cfg3.N = V4 m c (Pipeline.arrRef spec3 w) :=
  match w with
  | ⟨0, _⟩ => ((dat3 (V3 m) c).arrAt_in 0 rfl _).trans ((A_eq3 (V3 m) c 0).trans (W4_of_ne m c main_arg0 (by decide)).symm)
  | ⟨1, _⟩ => ((dat3 (V3 m) c).arrAt_in 1 rfl _).trans ((A_eq3 (V3 m) c 1).trans (W4_of_ne m c main_v2 (by decide)).symm)
  | ⟨2, _⟩ => ((dat3 (V3 m) c).arrAt_in 2 rfl _).trans ((A_eq3 (V3 m) c 2).trans (W4_of_ne m c main_v2 (by decide)).symm)
  | ⟨3, _⟩ => ((dat3 (V3 m) c).arrAt_in 3 rfl _).trans ((A_eq3 (V3 m) c 3).trans (W4_of_ne m c main_v0 (by decide)).symm)
  | ⟨4, _⟩ => (W4_self m c).symm
theorem hrest3 (c : Dev nD) : ∀ b, b ∉ Finset.univ.image (Pipeline.arrRef spec3) → V4 m c b = V3 m c b :=
  fun b hb => W4_of_ne m c b fun e => hb (Finset.mem_image.mpr ⟨4, Finset.mem_univ _, e.symm⟩)
theorem hF4 (c : Dev nD) (w : Fin cfg4.W) : (dat4 (V4 m) c).arrAt w cfg4.N = V5 m c (Pipeline.arrRef spec4 w) :=
  match w with
  | ⟨0, _⟩ => ((dat4 (V4 m) c).arrAt_in 0 rfl _).trans ((A_eq4 (V4 m) c 0).trans (W5_of_ne m c main_v3 (by decide)).symm)
  | ⟨1, _⟩ => ((dat4 (V4 m) c).arrAt_in 1 rfl _).trans ((A_eq4 (V4 m) c 1).trans (W5_of_ne m c main_v3 (by decide)).symm)
  | ⟨2, _⟩ => (W5_self m c).symm
theorem hrest4 (c : Dev nD) : ∀ b, b ∉ Finset.univ.image (Pipeline.arrRef spec4) → V5 m c b = V4 m c b :=
  fun b hb => W5_of_ne m c b fun e => hb (Finset.mem_image.mpr ⟨2, Finset.mem_univ _, e.symm⟩)

/-- The arguments end as launched: no pass writes one. -/
theorem W5_arg (c : Dev nD) (b : Ref sig .tc) (h0 : b ≠ main_v0) (h1 : b ≠ main_v1) (h2 : b ≠ main_v2) (h3 : b ≠ main_v3) (h4 : b ≠ main_v4) :
    W5 m c (Proc.devRef .tc b) = m ((c : Thread nD τ).loc b) :=
  (W5_of_ne m c b h4).trans <| (W4_of_ne m c b h3).trans <| (W3_of_ne m c b h2).trans <| (W2_of_ne m c b h1).trans <| (W1_of_ne m c b h0).trans rfl

/-! ## The proof data family and the thread state -/

abbrev adm : (p : Fin 5) → (pcfgs (F := F) p).Adm := fun p => (cfgs p).toPCfg_adm
/-- Every pass's proof data at its entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- What rides beside the buffers: the core's generator register at some state, and that it owes nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W5 m c) ∗ ∃ r, prngReg c r)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the bodies' obligations, pass by pass, at any entry contents
variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)
  (hb3 : ∀ (V : (c : Dev nD) → (b : Ref sig .tc) → Buf (Elt F) ((c : Thread nD τ).loc b)) (c : Dev nD),
    BodyObligation (dat3 (F := F) V c) (defs₀ (F := F)) Variants.none () Set.univ)
  (hb4 : ∀ (V : (c : Dev nD) → (b : Ref sig .tc) → Buf (Elt F) ((c : Thread nD τ).loc b)) (c : Dev nD),
    BodyObligation (dat4 (F := F) V c) (defs₀ (F := F)) Variants.none () Set.univ)

include hb0 in
set_option backward.isDefEq.respectTransparency.types false in
/-- Pass 0 as a segment: entered with every HBM buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb1 in
set_option backward.isDefEq.respectTransparency.types false in
/-- Pass 1 as a segment: entered with every HBM buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb2 in
set_option backward.isDefEq.respectTransparency.types false in
/-- Pass 2 as a segment: entered with every HBM buffer at `W2`, left at `W3`; the array two of its windows read is
    split into its read halves at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit : (unscopedBufs c (V2 m c) : sProp 𝕄)
        ⊢ iprop((pdats m 2 c).arrays ((pdats m 2 c).arrAt · 0) ∗ Pipeline.unscopedRest spec2 c (V2 m c)) := by
      rw [Pipeline.unscopedBufs_split₀ cfgs 2 winFacts₀2.arr_unscoped c (V2 m c)]
      exact sep_mono (arrays2_iff (V2 m) c (V2 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V2 m c))
        ⊢ (unscopedBufs c (V3 m c) : sProp 𝕄) := by
      rw [Pipeline.unscopedBufs_split₀ cfgs 2 winFacts₀2.arr_unscoped c (V3 m c)]
      refine sep_mono (arrays2_iff (V2 m) c (V3 m c) _ (hF2 m c)).1 (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb3 in
set_option backward.isDefEq.respectTransparency.types false in
/-- Pass 3 as a segment: entered with every HBM buffer at `W3`, left at `W4`; the array two of its windows read is
    split into its read halves at entry and rejoined at exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (hb3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit : (unscopedBufs c (V3 m c) : sProp 𝕄)
        ⊢ iprop((pdats m 3 c).arrays ((pdats m 3 c).arrAt · 0) ∗ Pipeline.unscopedRest spec3 c (V3 m c)) := by
      rw [Pipeline.unscopedBufs_split₀ cfgs 3 winFacts₀3.arr_unscoped c (V3 m c)]
      exact sep_mono (arrays3_iff (V3 m) c (V3 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V3 m c))
        ⊢ (unscopedBufs c (V4 m c) : sProp 𝕄) := by
      rw [Pipeline.unscopedBufs_split₀ cfgs 3 winFacts₀3.arr_unscoped c (V4 m c)]
      refine sep_mono (arrays3_iff (V3 m) c (V4 m c) _ (hF3 m c)).1 (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb4 in
set_option backward.isDefEq.respectTransparency.types false in
/-- Pass 4 as a segment: entered with every HBM buffer at `W4`, left at `W5`; the array two of its windows read is
    split into its read halves at entry and rejoined at exit. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (hb4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit : (unscopedBufs c (V4 m c) : sProp 𝕄)
        ⊢ iprop((pdats m 4 c).arrays ((pdats m 4 c).arrAt · 0) ∗ Pipeline.unscopedRest spec4 c (V4 m c)) := by
      rw [Pipeline.unscopedBufs_split₀ cfgs 4 winFacts₀4.arr_unscoped c (V4 m c)]
      exact sep_mono (arrays4_iff (V4 m) c (V4 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (V4 m c))
        ⊢ (unscopedBufs c (V5 m c) : sProp 𝕄) := by
      rw [Pipeline.unscopedBufs_split₀ cfgs 4 winFacts₀4.arr_unscoped c (V5 m c)]
      refine sep_mono (arrays4_iff (V4 m) c (V5 m c) _ (hF4 m c)).1 (Entails.of_eq ?_)
      unfold Pipeline.unscopedRest
      exact bigSep_congr fun b hb => by rw [hrest4 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

include hb0 hb1 hb2 hb3 hb4 in
-- the launch theorem's implicit arguments are found by unifying its conclusion with this one, which takes unfolding plain definitions
set_option backward.isDefEq.respectTransparency.types false in
/-- THE RUN, at any float instance: from any memory with zero counters every weakly fair execution of the five passes
    terminates, nothing faulting; the result array ends at the last pass's fold of its blocks and every argument as launched. -/
theorem run (ρ : Dev nD → PrngReg) : θ_run defs (onTc (τ := τ) (main (F := F))) ⟨m, fun _ => 0, ρ⟩ (fun r => ∀ c : Dev nD,
      r.2.mem ((c.tc : Thread nD τ).loc main_v4) = (dat4 (V4 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main
    [.region (reg0 m hb0), .region (reg1 m hb1), .region (reg2 m hb2), .region (reg3 m hb3), .region (reg4 m hb4)]
    (fun c Q => by rw [main_segs adm (pdats m) () 𝒱₀ L lv (reg0 m hb0) (reg1 m hb1) (reg2 m hb2) (reg3 m hb3) (reg4 m hb4) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v4 (by decide))).trans (W5_self m c),
       (h c _ (mem_uc main_arg0 (by decide))).trans (W5_arg m c main_arg0 (by decide) (by decide) (by decide) (by decide) (by decide)),
       (h c _ (mem_uc main_arg1 (by decide))).trans (W5_arg m c main_arg1 (by decide) (by decide) (by decide) (by decide) (by decide)),
       (h c _ (mem_uc main_arg2 (by decide))).trans (W5_arg m c main_arg2 (by decide) (by decide) (by decide) (by decide) (by decide)),
       (h c _ (mem_uc main_arg3 (by decide))).trans (W5_arg m c main_arg3 (by decide) (by decide) (by decide) (by decide) (by decide))⟩)

end Run

end Cert.KernelIdeal.Hand

end
-- ==== Proof.KHandData.lean ====
/-
  The five passes as pipelines: what each pass finds and leaves, point by point.

  Each pass streams row blocks of its operands through staging buffers: at grid point `t` an input window's buffer holds
  block `t` of its array (`iblkK`, read off the contents `V` the pass is entered with), the body loads every buffer whole,
  computes ONE value (the pass's arithmetic, `kK_pay1` of the loaded blocks) and stores it whole into the output window's
  buffer (`outK_W`), which the pipeline writes back as block `t` of the output array. `datK` records exactly that per
  point. Two input windows of passes 2, 3 and 4 read the same array (the whole of it for the matrix product, one row block
  of it for the added term): each holds half of that array's read share.
-/
import proofs.«108352_g74474732912750_cont_9to1_m_1152_2_alg».proof.Proof.Gen.Kernel.Launch
import proofs.«108352_g74474732912750_cont_9to1_m_1152_2_alg».proof.Proof.Gen.Kernel.Skeleton
import proofs.«108352_g74474732912750_cont_9to1_m_1152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Data
-- the core's buffer contents when a pass is entered: every pass's half is stated at this parameter
variable (V : (c : Dev nD) → (b : Ref sig .tc) → Buf (Elt F) ((c : Thread nD τ).loc b))

/-! ## Pass 0: `d = rsqrt (rowsum A + 1)`, a [256, 1] block per point -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S256x4096 := (Rect.unit (s := S256x4096) ![0, 0] S256x4096.size inb_S256x4096_S256x4096_0_0)
abbrev rD : Rect S256x1 := (Rect.unit (s := S256x1) ![0, 0] S256x1.size inb_S256x1_S256x1_0_0)
abbrev rX : Rect S4096x128 := (Rect.unit (s := S4096x128) ![0, 0] S4096x128.size inb_S4096x128_S4096x128_0_0)
abbrev rW1 : Rect S128x64 := (Rect.unit (s := S128x64) ![0, 0] S128x64.size inb_S128x64_S128x64_0_0)
abbrev rDw : Rect S4096x1 := (Rect.unit (s := S4096x1) ![0, 0] S4096x1.size inb_S4096x1_S4096x1_0_0)
abbrev rZw : Rect S4096x64 := (Rect.unit (s := S4096x64) ![0, 0] S4096x64.size inb_S4096x64_S4096x64_0_0)
abbrev rZb : Rect S256x64 := (Rect.unit (s := S256x64) ![0, 0] S256x64.size inb_S256x64_S256x64_0_0)
abbrev rW2 : Rect S64x16 := (Rect.unit (s := S64x16) ![0, 0] S64x16.size inb_S64x16_S64x16_0_0)
abbrev rEb : Rect S256x16 := (Rect.unit (s := S256x16) ![0, 0] S256x16.size inb_S256x16_S256x16_0_0)
abbrev rEw : Rect S4096x16 := (Rect.unit (s := S4096x16) ![0, 0] S4096x16.size inb_S4096x16_S4096x16_0_0)

/-- The output buffer after the body: its one store, of the pass's arithmetic on the loaded block. -/
def out0_1 (x0 : Vec F S256x4096 .f32) : Vec F S256x1 .f32 :=
  View.canon [⟨rD, k0_pay1 (View.ld x0 rA)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Pass 1: `zd1 = d · ℓ₂(X W₁)`, one point, everything whole -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Windows: 0 the column `d`, 1 `X`, 2 `W₁`; the body's arithmetic takes `X`, `W₁`, `d` in that order. -/
def out1_3 (x0 : Vec F S4096x1 .f32) (x1 : Vec F S4096x128 .f32) (x2 : Vec F S128x64 .f32) : Vec F S4096x64 .f32 :=
  View.canon [⟨rZw, k1_pay1 (View.ld x1 rX) (View.ld x2 rW1) (View.ld x0 rDw)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Pass 2: the first convolution and the second layer's small operand, a [256, 16] block per point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Windows: 0 a row block of `A`, 1 `zd1` whole, 2 the row block of `zd1`, 3 the row block of `d`, 4 `W₂`; the
    body loads the `d` block twice. -/
def out2_5 (x0 : Vec F S256x4096 .f32) (x1 : Vec F S4096x64 .f32) (x2 : Vec F S256x64 .f32) (x3 : Vec F S256x1 .f32)
    (x4 : Vec F S64x16 .f32) : Vec F S256x16 .f32 :=
  View.canon [⟨rEb, k2_pay1 (View.ld x0 rA) (View.ld x1 rZw) (View.ld x3 rD) (View.ld x2 rZb) (View.ld x4 rW2) (View.ld x3 rD)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## Pass 3: the second convolution, the encoding's [256, 16] block per point -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Windows: 0 a row block of `A`, 1 `zd2` whole, 2 the row block of `zd2`, 3 the row block of `d`. -/
def out3_4 (x0 : Vec F S256x4096 .f32) (x1 : Vec F S4096x16 .f32) (x2 : Vec F S256x16 .f32) (x3 : Vec F S256x1 .f32) :
    Vec F S256x16 .f32 :=
  View.canon [⟨rEb, k3_pay1 (View.ld x0 rA) (View.ld x1 rEw) (View.ld x3 rD) (View.ld x2 rEb)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! ## Pass 4: `σ(e eᵀ)`, a [256, 4096] row block per point -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Windows: 0 the row block of the encoding, 1 the encoding whole. -/
def out4_2 (x0 : Vec F S256x16 .f32) (x1 : Vec F S4096x16 .f32) : Vec F S256x4096 .f32 :=
  View.canon [⟨rA, k4_pay1 (View.ld x0 rEb) (View.ld x1 rEw)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

end Data

end Cert.Kernel.Hand

end
-- ==== Proof.KHandBodiesA.lean ====
/-
  The kernel bodies of the first three passes against their pipelines' proof data.

  Each pass is a pipeline over a static grid: at every grid point the pipeline hands the body one staging buffer per
  window; the body loads each input buffer whole, loads the output buffer (a value nothing uses), and stores one
  payload over the whole output buffer. The proof data `datK`, the blocks `iblkK` and the output contents `outK_W`
  are those of the data module; everything is stated at the same parameter `V`, the contents of the core's buffers
  when the pass is entered. Per pass `K`:

  * `coverK_W` — the single whole-buffer store covers the output buffer;
  * `sound_kernelK` — the body's triple on arbitrary whole staging memrefs: inputs kept, output left at `outK_W`;
  * `beforeK_W_of`, `beforeK_W` — an input buffer holds its window's block at every point, fetched there or not:
    at a point where the window is not fetched its block index is the previous point's;
  * `bodyPreK`, `bodyPostK`, `sound_bodyK`, `body_obligationK` — the pipeline rule's body obligation at every point.
-/
import proofs.«108352_g74474732912750_cont_9to1_m_1152_2_alg».proof.Proof.KHandData

-- membership of an index in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Bodies
-- the core's buffer contents when a pass is entered: the parameter of the data module
variable (V : (c : Dev nD) → (b : Ref sig .tc) → Buf (Elt F) ((c : Thread nD τ).loc b))

/-! # Pass 0: window 0 a [256, 4096] row block of the adjacency matrix, window 1 the [256, 1] block of `d` -/

/-- Input window 0 holds its block at every point, for any proof data whose array is `V`'s and whose body leaves
    the block in place. The blocks tile the array (no cut) and the window is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is a tiling of the output buffer by itself, so every index of the buffer lies in it. -/
theorem cover0_1 (p0 : Vec F S256x1 .f32) (y : S256x1.Idx) :
    ∃ pc ∈ ([⟨rD, p0⟩] : List (View.Piece (Elt F) S256x1 .f32)), y ∈ pc.1.set :=
  View.cover_of_tiled [⟨rD, p0⟩] S256x1.size (by rfl) y

set_option maxHeartbeats 1000000 in
/-- The body on whole staging memrefs, the input's reading `x0` and the output's holding anything: it returns with
    the input's as it was and the output's reading `out0_1 x0`. -/
theorem sound_kernel0 (c : Dev nD) (E : Set ℕ) (i : grid0.Coords)
    (arg1 : Memref sig .tc .vmem S256x4096 .f32) (harg1 : arg1.IsWhole) (arg2 : Memref sig .tc .vmem S256x1 .f32) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_body i arg1 harg1 arg2 harg2) K := by
  simp only [cc0__rowsum_body_eq_skeleton]; unfold cc0__rowsum_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input memref holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # Pass 1: one point; windows 0 the column `d`, 1 `X`, 2 `W₁` (each the whole array), window 3 the whole output -/

/-- Input window 0 (the column `d`) holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (`X`) holds its block at every point, for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (`W₁`) holds its block at every point, for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is a tiling of the output buffer by itself, so every index of the buffer lies in it. -/
theorem cover1_3 (p0 : Vec F S4096x64 .f32) (y : S4096x64.Idx) :
    ∃ pc ∈ ([⟨rZw, p0⟩] : List (View.Piece (Elt F) S4096x64 .f32)), y ∈ pc.1.set :=
  View.cover_of_tiled [⟨rZw, p0⟩] S4096x64.size (by rfl) y

set_option maxHeartbeats 1000000 in
/-- The body on whole staging memrefs, the inputs' reading `x0`, `x1`, `x2` and the output's holding anything: it
    returns with the inputs' as they were and the output's reading `out1_3 x0 x1 x2`. -/
theorem sound_kernel1 (c : Dev nD) (E : Set ℕ)
    (arg0 : Memref sig .tc .vmem S4096x1 .f32) (harg0 : arg0.IsWhole) (arg1 : Memref sig .tc .vmem S4096x128 .f32) (harg1 : arg1.IsWhole)
    (arg2 : Memref sig .tc .vmem S128x64 .f32) (harg2 : arg2.IsWhole) (arg3 : Memref sig .tc .vmem S4096x64 .f32) (harg3 : arg3.IsWhole)
    (x0 : Vec F S4096x1 .f32) (x1 : Vec F S4096x128 .f32) (x2 : Vec F S128x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__prep_body arg0 harg0 arg1 harg1 arg2 harg2 arg3 harg3) K := by
  simp only [cc1__prep_body_eq_skeleton]; unfold cc1__prep_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at the point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at the point. -/
theorem body_obligation1 (c : Dev nD) : BodyObligation (dat1 (F := F) V c) (defs₀ (F := F)) Variants.none () Set.univ := fun t => by
  rw [bigSep_W1, bigSep_W1]
  exact sound_body1 V c t

/-! # Pass 2: windows 0 a [256, 4096] row block of the adjacency matrix, 1 `zd1` whole, 2 the [256, 64] row block of
    `zd1`, 3 the [256, 1] row block of `d`, 4 `W₂` whole; window 5 the [256, 16] output block. Windows 1 and 4 have a
    constant block index: they are fetched at the first point only and found unchanged at every later one. -/

/-- Input window 0 (the row block of the adjacency matrix) holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (`zd1` whole) holds its block at every point, for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the row block of `zd1`) holds its block at every point, for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the row block of `d`) holds its block at every point, for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (`W₂` whole) holds its block at every point, for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is a tiling of the output buffer by itself, so every index of the buffer lies in it. -/
theorem cover2_5 (p0 : Vec F S256x16 .f32) (y : S256x16.Idx) :
    ∃ pc ∈ ([⟨rEb, p0⟩] : List (View.Piece (Elt F) S256x16 .f32)), y ∈ pc.1.set :=
  View.cover_of_tiled [⟨rEb, p0⟩] S256x16.size (by rfl) y

set_option maxHeartbeats 1000000 in
/-- The body on whole staging memrefs, the inputs' reading `x0` … `x4` and the output's holding anything: it returns
    with the inputs' as they were and the output's reading `out2_5 x0 x1 x2 x3 x4`. The `d` block's buffer is loaded
    twice; both loads read `x3`. -/
theorem sound_kernel2 (c : Dev nD) (E : Set ℕ) (i : grid2.Coords)
    (arg1 : Memref sig .tc .vmem S256x4096 .f32) (harg1 : arg1.IsWhole) (arg2 : Memref sig .tc .vmem S4096x64 .f32) (harg2 : arg2.IsWhole)
    (arg3 : Memref sig .tc .vmem S256x64 .f32) (harg3 : arg3.IsWhole) (arg4 : Memref sig .tc .vmem S256x1 .f32) (harg4 : arg4.IsWhole)
    (arg5 : Memref sig .tc .vmem S64x16 .f32) (harg5 : arg5.IsWhole) (arg6 : Memref sig .tc .vmem S256x16 .f32) (harg6 : arg6.IsWhole)
    (x0 : Vec F S256x4096 .f32) (x1 : Vec F S4096x64 .f32) (x2 : Vec F S256x64 .f32) (x3 : Vec F S256x1 .f32) (x4 : Vec F S64x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__conv1_body i arg1 harg1 arg2 harg2 arg3 harg3 arg4 harg4 arg5 harg5 arg6 harg6) K := by
  simp only [cc2__conv1_body_eq_skeleton]; unfold cc2__conv1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Bodies

end Cert.Kernel.Hand

end
-- ==== Proof.KHandBodiesB.lean ====
/-
  The body's half of passes 3 and 4: at every grid point the kernel body, run on the windows' current staging buffers,
  finds each input buffer at its block of the array (fetched there or not: a block index that does not move leaves the
  buffer as the previous point left it) and leaves the output buffer at the pass's arithmetic on those blocks, the
  invariant and what the core owes passing through untouched.
-/
import proofs.«108352_g74474732912750_cont_9to1_m_1152_2_alg».proof.Proof.KHandData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Bodies
-- the core's buffer contents when a pass is entered
variable (V : (c : Dev nD) → (b : Ref sig .tc) → Buf (Elt F) ((c : Thread nD τ).loc b))

/-! # Pass 4 -/

/-! ## What the body finds in the input windows' buffers -/

/-- Input window 0's staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 is the whole array, its block index constant: fetched at the first point only, and found in place
    at every later one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The output buffer is stored whole -/

/-- The body's one store goes through the rectangle that is the whole [256, 4096] buffer, so it covers it. -/
theorem cover4_2 (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

/-! ## The body's triple -/

set_option maxHeartbeats 1000000 in
/-- The body on whole staging memrefs — the two inputs' at read contents `x0`, `x1`, the output's at anything — runs to
    the continuation holding the inputs' as they were and the output's at `out4_2 x0 x1`: two loads, a load of the
    output buffer whose value nothing reads, and the store of the arithmetic over the whole buffer. -/
theorem sound_kernel4 (c : Dev nD) (E : Set ℕ) (i : grid4.Coords)
    (arg1 : Memref sig .tc .vmem S256x16 .f32) (harg1 : arg1.IsWhole)
    (arg2 : Memref sig .tc .vmem S4096x16 .f32) (harg2 : arg2.IsWhole)
    (arg3 : Memref sig .tc .vmem S256x4096 .f32) (harg3 : arg3.IsWhole)
    (x0 : Vec F S256x16 .f32) (x1 : Vec F S4096x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__outer_body i arg1 harg1 arg2 harg2 arg3 harg3) K := by
  simp only [cc4__outer_body_eq_skeleton]; unfold cc4__outer_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and what
    the core owes are the same before and after, and pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pass 4, at every point. -/
theorem body_obligation4 (c : Dev nD) : BodyObligation (dat4 (F := F) V c) (defs₀ (F := F)) Variants.none () Set.univ := fun t => by
  rw [bigSep_W4, bigSep_W4]
  exact sound_body4 V c t

/-! # Pass 3 -/

/-! ## What the body finds in the input windows' buffers -/
/-- Input window 0 (a row block of the [4096, 4096] operand) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 is the whole [4096, 16] array, its block index constant: fetched at the first point only, and found
    in place at every later one. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2, a row block of the same [4096, 16] array. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3, a row block of the [4096, 1] column. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The output buffer is stored whole -/

/-- The body's one store goes through the rectangle that is the whole [256, 16] buffer, so it covers it. -/
theorem cover3_4 (p0 : Vec F S256x16 .f32) (y : S256x16.Idx) :
    ∃ pc ∈ ([⟨rEb, p0⟩] : List (View.Piece (Elt F) S256x16 .f32)), y ∈ pc.1.set :=
  View.cover_of_tiled [⟨rEb, p0⟩] S256x16.size (by rfl) y

/-! ## The body's triple -/

set_option maxHeartbeats 1000000 in
/-- The body on whole staging memrefs — the four inputs' at read contents `x0 … x3`, the output's at anything — runs
    to the continuation holding the inputs' as they were and the output's at `out3_4 x0 x1 x2 x3`: four loads (the
    fourth memref before the third), a load of the output buffer whose value nothing reads, and the store of the
    arithmetic over the whole buffer. -/
theorem sound_kernel3 (c : Dev nD) (E : Set ℕ) (i : grid3.Coords)
    (arg1 : Memref sig .tc .vmem S256x4096 .f32) (harg1 : arg1.IsWhole)
    (arg2 : Memref sig .tc .vmem S4096x16 .f32) (harg2 : arg2.IsWhole)
    (arg3 : Memref sig .tc .vmem S256x16 .f32) (harg3 : arg3.IsWhole)
    (arg4 : Memref sig .tc .vmem S256x1 .f32) (harg4 : arg4.IsWhole)
    (arg5 : Memref sig .tc .vmem S256x16 .f32) (harg5 : arg5.IsWhole)
    (x0 : Vec F S256x4096 .f32) (x1 : Vec F S4096x16 .f32) (x2 : Vec F S256x16 .f32) (x3 : Vec F S256x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__conv2_body i arg1 harg1 arg2 harg2 arg3 harg3 arg4 harg4 arg5 harg5) K := by
  simp only [cc3__conv2_body_eq_skeleton]; unfold cc3__conv2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the invariant and what
    the core owes are the same before and after, and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pass 3, at every point. -/
theorem body_obligation3 (c : Dev nD) : BodyObligation (dat3 (F := F) V c) (defs₀ (F := F)) Variants.none () Set.univ := fun t => by
  rw [bigSep_W3, bigSep_W3]
  exact sound_body3 V c t

end Bodies

end Cert.Kernel.Hand

end
-- ==== Proof.KHandRun.lean ====
/-
  The whole program's run: five passes, each entered from what the one before left.

  Between two passes a core's HBM buffers hold: the four arguments as launched, and each pass's result array as that pass's
  write-backs left it (`WK`: the launch contents updated, pass by pass, at the pass's one output array with the fold of
  its blocks, `Dat.arrAt … N`). Every pass is one pipelined kernel region: its arrays are split out of the buffers at
  entry and put back at exit; an array that two input windows of one pass read is handed to them half a read share
  each and rejoined at exit. The run's post-condition says what every HBM buffer holds at the end (`W5`).
-/
import proofs.«108352_g74474732912750_cont_9to1_m_1152_2_alg».proof.Proof.KHandData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shares
variable (Vp : (c : Dev nD) → (b : Ref sig .tc) → Buf (Elt F) ((c : Thread nD τ).loc b))
/-- Pass 2's arrays at contents read off a valuation are the buffers behind them whole: the array two windows read is
    its two read halves. -/
theorem arrays2_iff (c : Dev nD) (V' : (b : Ref sig .tc) → Buf (Elt F) ((c : Thread nD τ).loc b))
    (Fw : (w : Fin cfg2.W) → Buf (Elt F) ((cfg2.win w).arr.view.loc (c : Thread nD τ))) (hF : ∀ w, Fw w = V' (Pipeline.arrRef spec2 w)) :
    ((dat2 Vp c).arrays Fw : sProp 𝕄) ⊣⊢ Pipeline.arrBufs spec2 c V' := by
  unfold Pipeline.Dat.arrays Pipeline.arrBufs
  rw [bigSep_W2, Idealize.SL.BI.bigSep_eq_bigSepL_of_eq [main_arg0, main_v1, main_v0, main_arg3, main_v2] (by decide) (by decide)]
  rw [hF 0, hF 1, hF 2, hF 3, hF 4, hF 5]
  try rw [show (cfg2.win 0).arr.view.set = Finset.univ from (arr_whole2 0).set_eq_univ]
  try rw [show (cfg2.win 1).arr.view.set = Finset.univ from (arr_whole2 1).set_eq_univ]
  try rw [show (cfg2.win 2).arr.view.set = Finset.univ from (arr_whole2 2).set_eq_univ]
  try rw [show (cfg2.win 3).arr.view.set = Finset.univ from (arr_whole2 3).set_eq_univ]
  try rw [show (cfg2.win 4).arr.view.set = Finset.univ from (arr_whole2 4).set_eq_univ]
  try rw [show (cfg2.win 5).arr.view.set = Finset.univ from (arr_whole2 5).set_eq_univ]
  rw [show (dat2 Vp c).share 0 = fullShare from rfl,
    show (dat2 Vp c).share 1 = fullShare.left from rfl,
    show (dat2 Vp c).share 2 = fullShare.right from rfl,
    show (dat2 Vp c).share 3 = fullShare from rfl,
    show (dat2 Vp c).share 4 = fullShare from rfl,
    show (dat2 Vp c).share 5 = fullShare from rfl]
  show _ ⊣⊢ (iprop((((c : Thread nD τ).loc main_arg0) ↦{fullShare} V' main_arg0) ∗ (((c : Thread nD τ).loc main_v1) ↦{fullShare} V' main_v1) ∗ (((c : Thread nD τ).loc main_v0) ↦{fullShare} V' main_v0) ∗ (((c : Thread nD τ).loc main_arg3) ↦{fullShare} V' main_arg3) ∗ (((c : Thread nD τ).loc main_v2) ↦{fullShare} V' main_v2)) : sProp 𝕄)
  constructor
  · iintro ⟨H0, H1, H2, H3, H4, H5⟩
    ihave HJ := (pointsTo_share (PosShare.mem_left_op_right fullShare)).2 $$ [H1 H2]
    · isplitl [H1]; · iexact H1
      iexact H2
    isplitl [H0]; · iexact H0
    isplitl [HJ]; · iexact HJ
    isplitl [H3]; · iexact H3
    isplitl [H4]; · iexact H4
    iexact H5
  · iintro ⟨H0, HJ, H3, H4, H5⟩
    ihave HS := (pointsTo_share (PosShare.mem_left_op_right fullShare)).1 $$ HJ
    icases HS with ⟨H1, H2⟩
    isplitl [H0]; · iexact H0
    isplitl [H1]; · iexact H1
    isplitl [H2]; · iexact H2
    isplitl [H3]; · iexact H3
    isplitl [H4]; · iexact H4
    iexact H5

/-- Pass 3's arrays at contents read off a valuation are the buffers behind them whole: the array two windows read is
    its two read halves. -/
theorem arrays3_iff (c : Dev nD) (V' : (b : Ref sig .tc) → Buf (Elt F) ((c : Thread nD τ).loc b))
    (Fw : (w : Fin cfg3.W) → Buf (Elt F) ((cfg3.win w).arr.view.loc (c : Thread nD τ))) (hF : ∀ w, Fw w = V' (Pipeline.arrRef spec3 w)) :
    ((dat3 Vp c).arrays Fw : sProp 𝕄) ⊣⊢ Pipeline.arrBufs spec3 c V' := by
  unfold Pipeline.Dat.arrays Pipeline.arrBufs
  rw [bigSep_W3, Idealize.SL.BI.bigSep_eq_bigSepL_of_eq [main_arg0, main_v2, main_v0, main_v3] (by decide) (by decide)]
  rw [hF 0, hF 1, hF 2, hF 3, hF 4]
  try rw [show (cfg3.win 0).arr.view.set = Finset.univ from (arr_whole3 0).set_eq_univ]
  try rw [show (cfg3.win 1).arr.view.set = Finset.univ from (arr_whole3 1).set_eq_univ]
  try rw [show (cfg3.win 2).arr.view.set = Finset.univ from (arr_whole3 2).set_eq_univ]
  try rw [show (cfg3.win 3).arr.view.set = Finset.univ from (arr_whole3 3).set_eq_univ]
  try rw [show (cfg3.win 4).arr.view.set = Finset.univ from (arr_whole3 4).set_eq_univ]
  rw [show (dat3 Vp c).share 0 = fullShare from rfl,
    show (dat3 Vp c).share 1 = fullShare.left from rfl,
    show (dat3 Vp c).share 2 = fullShare.right from rfl,
    show (dat3 Vp c).share 3 = fullShare from rfl,
    show (dat3 Vp c).share 4 = fullShare from rfl]
  show _ ⊣⊢ (iprop((((c : Thread nD τ).loc main_arg0) ↦{fullShare} V' main_arg0) ∗ (((c : Thread nD τ).loc main_v2) ↦{fullShare} V' main_v2) ∗ (((c : Thread nD τ).loc main_v0) ↦{fullShare} V' main_v0) ∗ (((c : Thread nD τ).loc main_v3) ↦{fullShare} V' main_v3)) : sProp 𝕄)
  constructor
  · iintro ⟨H0, H1, H2, H3, H4⟩
    ihave HJ := (pointsTo_share (PosShare.mem_left_op_right fullShare)).2 $$ [H1 H2]
    · isplitl [H1]; · iexact H1
      iexact H2
    isplitl [H0]; · iexact H0
    isplitl [HJ]; · iexact HJ
    isplitl [H3]; · iexact H3
    iexact H4
  · iintro ⟨H0, HJ, H3, H4⟩
    ihave HS := (pointsTo_share (PosShare.mem_left_op_right fullShare)).1 $$ HJ
    icases HS with ⟨H1, H2⟩
    isplitl [H0]; · iexact H0
    isplitl [H1]; · iexact H1
    isplitl [H2]; · iexact H2
    isplitl [H3]; · iexact H3
    iexact H4

/-- Pass 4's arrays at contents read off a valuation are the buffers behind them whole: the array two windows read is
    its two read halves. -/
theorem arrays4_iff (c : Dev nD) (V' : (b : Ref sig .tc) → Buf (Elt F) ((c : Thread nD τ).loc b))
    (Fw : (w : Fin cfg4.W) → Buf (Elt F) ((cfg4.win w).arr.view.loc (c : Thread nD τ))) (hF : ∀ w, Fw w = V' (Pipeline.arrRef spec4 w)) :
    ((dat4 Vp c).arrays Fw : sProp 𝕄) ⊣⊢ Pipeline.arrBufs spec4 c V' := by
  unfold Pipeline.Dat.arrays Pipeline.arrBufs
  rw [bigSep_W4, Idealize.SL.BI.bigSep_eq_bigSepL_of_eq [main_v3, main_v4] (by decide) (by decide)]
  rw [hF 0, hF 1, hF 2]
  try rw [show (cfg4.win 0).arr.view.set = Finset.univ from (arr_whole4 0).set_eq_univ]
  try rw [show (cfg4.win 1).arr.view.set = Finset.univ from (arr_whole4 1).set_eq_univ]
  try rw [show (cfg4.win 2).arr.view.set = Finset.univ from (arr_whole4 2).set_eq_univ]
  rw [show (dat4 Vp c).share 0 = fullShare.left from rfl,
    show (dat4 Vp c).share 1 = fullShare.right from rfl,
    show (dat4 Vp c).share 2 = fullShare from rfl]
  show _ ⊣⊢ (iprop((((c : Thread nD τ).loc main_v3) ↦{fullShare} V' main_v3) ∗ (((c : Thread nD τ).loc main_v4) ↦{fullShare} V' main_v4)) : sProp 𝕄)
  constructor
  · iintro ⟨H0, H1, H2⟩
    ihave HJ := (pointsTo_share (PosShare.mem_left_op_right fullShare)).2 $$ [H0 H1]
    · isplitl [H0]; · iexact H0
      iexact H1
    isplitl [HJ]; · iexact HJ
    iexact H2
  · iintro ⟨HJ, H2⟩
    ihave HS := (pointsTo_share (PosShare.mem_left_op_right fullShare)).1 $$ HJ
    icases HS with ⟨H0, H1⟩
    isplitl [H0]; · iexact H0
    isplitl [H1]; · iexact H1
    iexact H2

end Shares

section Run

variable (m : (ℓ : Loc nD τ sig) → Buf (Elt F) ℓ)

/-! ## What the HBM buffers hold between passes -/

/-- At launch. -/
abbrev W0 (c : Dev nD) : Valuation τ sig (Elt F) := fun b => m (c, b)
abbrev V0 : (c : Dev nD) → (b : Ref sig .tc) → Buf (Elt F) ((c : Thread nD τ).loc b) := fun c b => W0 m c b
/-- After pass 0: `d` in its array. -/
def W1 (c : Dev nD) : Valuation τ sig (Elt F) :=
  Function.update (W0 m c) (Proc.devRef .tc main_v0) ((dat0 (V0 m) c).arrAt 1 cfg0.N)
abbrev V1 : (c : Dev nD) → (b : Ref sig .tc) → Buf (Elt F) ((c : Thread nD τ).loc b) := fun c b => W1 m c b
/-- After pass 1: `zd1`. -/
def W2 (c : Dev nD) : Valuation τ sig (Elt F) :=
  Function.update (W1 m c) (Proc.devRef .tc main_v1) ((dat1 (V1 m) c).arrAt 3 cfg1.N)
abbrev V2 : (c : Dev nD) → (b : Ref sig .tc) → Buf (Elt F) ((c : Thread nD τ).loc b) := fun c b => W2 m c b
/-- After pass 2: `zd2`. -/
def W3 (c : Dev nD) : Valuation τ sig (Elt F) :=
  Function.update (W2 m c) (Proc.devRef .tc main_v2) ((dat2 (V2 m) c).arrAt 5 cfg2.N)
abbrev V3 : (c : Dev nD) → (b : Ref sig .tc) → Buf (Elt F) ((c : Thread nD τ).loc b) := fun c b => W3 m c b
/-- After pass 3: the encoding. -/
def W4 (c : Dev nD) : Valuation τ sig (Elt F) :=
  Function.update (W3 m c) (Proc.devRef .tc main_v3) ((dat3 (V3 m) c).arrAt 4 cfg3.N)
abbrev V4 : (c : Dev nD) → (b : Ref sig .tc) → Buf (Elt F) ((c : Thread nD τ).loc b) := fun c b => W4 m c b
/-- After pass 4: the result. -/
def W5 (c : Dev nD) : Valuation τ sig (Elt F) :=
  Function.update (W4 m c) (Proc.devRef .tc main_v4) ((dat4 (V4 m) c).arrAt 2 cfg4.N)
abbrev V5 : (c : Dev nD) → (b : Ref sig .tc) → Buf (Elt F) ((c : Thread nD τ).loc b) := fun c b => W5 m c b

/-- A pass changes its own result array only. -/
theorem W1_of_ne (c : Dev nD) (b : Ref sig .tc) (h : b ≠ main_v0) : W1 m c (Proc.devRef .tc b) = W0 m c (Proc.devRef .tc b) := by
  unfold W1; exact Function.update_of_ne (StableHlo.devRef_ne_of_ne h) _ _
theorem W2_of_ne (c : Dev nD) (b : Ref sig .tc) (h : b ≠ main_v1) : W2 m c (Proc.devRef .tc b) = W1 m c (Proc.devRef .tc b) := by
  unfold W2; exact Function.update_of_ne (StableHlo.devRef_ne_of_ne h) _ _
theorem W3_of_ne (c : Dev nD) (b : Ref sig .tc) (h : b ≠ main_v2) : W3 m c (Proc.devRef .tc b) = W2 m c (Proc.devRef .tc b) := by
  unfold W3; exact Function.update_of_ne (StableHlo.devRef_ne_of_ne h) _ _
theorem W4_of_ne (c : Dev nD) (b : Ref sig .tc) (h : b ≠ main_v3) : W4 m c (Proc.devRef .tc b) = W3 m c (Proc.devRef .tc b) := by
  unfold W4; exact Function.update_of_ne (StableHlo.devRef_ne_of_ne h) _ _
theorem W5_of_ne (c : Dev nD) (b : Ref sig .tc) (h : b ≠ main_v4) : W5 m c (Proc.devRef .tc b) = W4 m c (Proc.devRef .tc b) := by
  unfold W5; exact Function.update_of_ne (StableHlo.devRef_ne_of_ne h) _ _
theorem W1_self (c : Dev nD) : W1 m c (Proc.devRef .tc main_v0) = (dat0 (V0 m) c).arrAt 1 cfg0.N := by
  unfold W1; exact Function.update_self _ _ _
theorem W2_self (c : Dev nD) : W2 m c (Proc.devRef .tc main_v1) = (dat1 (V1 m) c).arrAt 3 cfg1.N := by
  unfold W2; exact Function.update_self _ _ _
theorem W3_self (c : Dev nD) : W3 m c (Proc.devRef .tc main_v2) = (dat2 (V2 m) c).arrAt 5 cfg2.N := by
  unfold W3; exact Function.update_self _ _ _
theorem W4_self (c : Dev nD) : W4 m c (Proc.devRef .tc main_v3) = (dat3 (V3 m) c).arrAt 4 cfg3.N := by
  unfold W4; exact Function.update_self _ _ _
theorem W5_self (c : Dev nD) : W5 m c (Proc.devRef .tc main_v4) = (dat4 (V4 m) c).arrAt 2 cfg4.N := by
  unfold W5; exact Function.update_self _ _ _

/-- At a pass's exit each of its arrays holds what the pipeline leaves: an input array what it held, the output the fold
    of its blocks. -/
theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans ((A_eq0 (V0 m) c 0).trans (W1_of_ne m c main_arg0 (by decide)).symm)
  | ⟨1, _⟩ => (W1_self m c).symm
theorem hrest0 (c : Dev nD) : ∀ b, b ∉ Finset.univ.image (Pipeline.arrRef spec0) → V1 m c b = V0 m c b :=
  fun b hb => W1_of_ne m c b fun e => hb (Finset.mem_image.mpr ⟨1, Finset.mem_univ _, e.symm⟩)
theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans ((A_eq1 (V1 m) c 0).trans (W2_of_ne m c main_v0 (by decide)).symm)
  | ⟨1, _⟩ => ((dat1 (V1 m) c).arrAt_in 1 rfl _).trans ((A_eq1 (V1 m) c 1).trans (W2_of_ne m c main_arg1 (by decide)).symm)
  | ⟨2, _⟩ => ((dat1 (V1 m) c).arrAt_in 2 rfl _).trans ((A_eq1 (V1 m) c 2).trans (W2_of_ne m c main_arg2 (by decide)).symm)
  | ⟨3, _⟩ => (W2_self m c).symm
theorem hrest1 (c : Dev nD) : ∀ b, b ∉ Finset.univ.image (Pipeline.arrRef spec1) → V2 m c b = V1 m c b :=
  fun b hb => W2_of_ne m c b fun e => hb (Finset.mem_image.mpr ⟨3, Finset.mem_univ _, e.symm⟩)

theorem hF2 (c : Dev nD) (w : Fin cfg2.W) : (dat2 (V2 m) c).arrAt w cfg2.N = V3 m c (Pipeline.arrRef spec2 w) :=
  match w with
  | ⟨0, _⟩ => ((dat2 (V2 m) c).arrAt_in 0 rfl _).trans ((A_eq2 (V2 m) c 0).trans (W3_of_ne m c main_arg0 (by decide)).symm)
  | ⟨1, _⟩ => ((dat2 (V2 m) c).arrAt_in 1 rfl _).trans ((A_eq2 (V2 m) c 1).trans (W3_of_ne m c main_v1 (by decide)).symm)
  | ⟨2, _⟩ => ((dat2 (V2 m) c).arrAt_in 2 rfl _).trans ((A_eq2 (V2 m) c 2).trans (W3_of_ne m c main_v1 (by decide)).symm)
  | ⟨3, _⟩ => ((dat2 (V2 m) c).arrAt_in 3 rfl _).trans ((A_eq2 (V2 m) c 3).trans (W3_of_ne m c main_v0 (by decide)).symm)
  | ⟨4, _⟩ => ((dat2 (V2 m) c).arrAt_in 4 rfl _).trans ((A_eq2 (V2 m) c 4).trans (W3_of_ne m c main_arg3 (by decide)).symm)
  | ⟨5, _⟩ => (W3_self m c).symm
theorem hrest2 (c : Dev nD) : ∀ b, b ∉ Finset.univ.image (Pipeline.arrRef spec2) → V3 m c b = V2 m c b :=
  fun b hb => W3_of_ne m c b fun e => hb (Finset.mem_image.mpr ⟨5, Finset.mem_univ _, e.symm⟩)
theorem hF3 (c : Dev nD) (w : Fin cfg3.W) : (dat3 (V3 m) c).arrAt w cfg3.N = V4 m c (Pipeline.arrRef spec3 w) :=
  match w with
  | ⟨0, _⟩ => ((dat3 (V3 m) c).arrAt_in 0 rfl _).trans ((A_eq3 (V3 m) c 0).trans (W4_of_ne m c main_arg0 (by decide)).symm)
  | ⟨1, _⟩ => ((dat3 (V3 m) c).arrAt_in 1 rfl _).trans ((A_eq3 (V3 m) c 1).trans (W4_of_ne m c main_v2 (by decide)).symm)
  | ⟨2, _⟩ => ((dat3 (V3 m) c).arrAt_in 2 rfl _).trans ((A_eq3 (V3 m) c 2).trans (W4_of_ne m c main_v2 (by decide)).symm)
  | ⟨3, _⟩ => ((dat3 (V3 m) c).arrAt_in 3 rfl _).trans ((A_eq3 (V3 m) c 3).trans (W4_of_ne m c main_v0 (by decide)).symm)
  | ⟨4, _⟩ => (W4_self m c).symm
theorem hrest3 (c : Dev nD) : ∀ b, b ∉ Finset.univ.image (Pipeline.arrRef spec3) → V4 m c b = V3 m c b :=
  fun b hb => W4_of_ne m c b fun e => hb (Finset.mem_image.mpr ⟨4, Finset.mem_univ _, e.symm⟩)
theorem hF4 (c : Dev nD) (w : Fin cfg4.W) : (dat4 (V4 m) c).arrAt w cfg4.N = V5 m c (Pipeline.arrRef spec4 w) :=
  match w with
  | ⟨0, _⟩ => ((dat4 (V4 m) c).arrAt_in 0 rfl _).trans ((A_eq4 (V4 m) c 0).trans (W5_of_ne m c main_v3 (by decide)).symm)
  | ⟨1, _⟩ => ((dat4 (V4 m) c).arrAt_in 1 rfl _).trans ((A_eq4 (V4 m) c 1).trans (W5_of_ne m c main_v3 (by decide)).symm)
  | ⟨2, _⟩ => (W5_self m c).symm
theorem hrest4 (c : Dev nD) : ∀ b, b ∉ Finset.univ.image (Pipeline.arrRef spec4) → V5 m c b = V4 m c b :=
  fun b hb => W5_of_ne m c b fun e => hb (Finset.mem_image.mpr ⟨2, Finset.mem_univ _, e.symm⟩)

/-- The arguments end as launched: no pass writes one. -/
theorem W5_arg (c : Dev nD) (b : Ref sig .tc) (h0 : b ≠ main_v0) (h1 : b ≠ main_v1) (h2 : b ≠ main_v2) (h3 : b ≠ main_v3) (h4 : b ≠ main_v4) :
    W5 m c (Proc.devRef .tc b) = m ((c : Thread nD τ).loc b) :=
  (W5_of_ne m c b h4).trans <| (W4_of_ne m c b h3).trans <| (W3_of_ne m c b h2).trans <| (W2_of_ne m c b h1).trans <| (W1_of_ne m c b h0).trans rfl

/-! ## The proof data family and the thread state -/

abbrev adm : (p : Fin 5) → (pcfgs (F := F) p).Adm := fun p => (cfgs p).toPCfg_adm
/-- Every pass's proof data at its entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- What rides beside the buffers: the core's generator register at some state, and that it owes nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W5 m c) ∗ ∃ r, prngReg c r)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the bodies' obligations, pass by pass, at any entry contents
variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)
  (hb3 : ∀ (V : (c : Dev nD) → (b : Ref sig .tc) → Buf (Elt F) ((c : Thread nD τ).loc b)) (c : Dev nD),
    BodyObligation (dat3 (F := F) V c) (defs₀ (F := F)) Variants.none () Set.univ)
  (hb4 : ∀ (V : (c : Dev nD) → (b : Ref sig .tc) → Buf (Elt F) ((c : Thread nD τ).loc b)) (c : Dev nD),
    BodyObligation (dat4 (F := F) V c) (defs₀ (F := F)) Variants.none () Set.univ)

include hb0 in
set_option backward.isDefEq.respectTransparency.types false in
/-- Pass 0 as a segment: entered with every HBM buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb1 in
set_option backward.isDefEq.respectTransparency.types false in
/-- Pass 1 as a segment: entered with every HBM buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb2 in
set_option backward.isDefEq.respectTransparency.types false in
/-- Pass 2 as a segment: entered with every HBM buffer at `W2`, left at `W3`; the array two of its windows read is
    split into its read halves at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit : (unscopedBufs c (V2 m c) : sProp 𝕄)
        ⊢ iprop((pdats m 2 c).arrays ((pdats m 2 c).arrAt · 0) ∗ Pipeline.unscopedRest spec2 c (V2 m c)) := by
      rw [Pipeline.unscopedBufs_split₀ cfgs 2 winFacts₀2.arr_unscoped c (V2 m c)]
      exact sep_mono (arrays2_iff (V2 m) c (V2 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V2 m c))
        ⊢ (unscopedBufs c (V3 m c) : sProp 𝕄) := by
      rw [Pipeline.unscopedBufs_split₀ cfgs 2 winFacts₀2.arr_unscoped c (V3 m c)]
      refine sep_mono (arrays2_iff (V2 m) c (V3 m c) _ (hF2 m c)).1 (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb3 in
set_option backward.isDefEq.respectTransparency.types false in
/-- Pass 3 as a segment: entered with every HBM buffer at `W3`, left at `W4`; the array two of its windows read is
    split into its read halves at entry and rejoined at exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (hb3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit : (unscopedBufs c (V3 m c) : sProp 𝕄)
        ⊢ iprop((pdats m 3 c).arrays ((pdats m 3 c).arrAt · 0) ∗ Pipeline.unscopedRest spec3 c (V3 m c)) := by
      rw [Pipeline.unscopedBufs_split₀ cfgs 3 winFacts₀3.arr_unscoped c (V3 m c)]
      exact sep_mono (arrays3_iff (V3 m) c (V3 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V3 m c))
        ⊢ (unscopedBufs c (V4 m c) : sProp 𝕄) := by
      rw [Pipeline.unscopedBufs_split₀ cfgs 3 winFacts₀3.arr_unscoped c (V4 m c)]
      refine sep_mono (arrays3_iff (V3 m) c (V4 m c) _ (hF3 m c)).1 (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb4 in
set_option backward.isDefEq.respectTransparency.types false in
/-- Pass 4 as a segment: entered with every HBM buffer at `W4`, left at `W5`; the array two of its windows read is
    split into its read halves at entry and rejoined at exit. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (hb4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit : (unscopedBufs c (V4 m c) : sProp 𝕄)
        ⊢ iprop((pdats m 4 c).arrays ((pdats m 4 c).arrAt · 0) ∗ Pipeline.unscopedRest spec4 c (V4 m c)) := by
      rw [Pipeline.unscopedBufs_split₀ cfgs 4 winFacts₀4.arr_unscoped c (V4 m c)]
      exact sep_mono (arrays4_iff (V4 m) c (V4 m c) _ (fun _ => rfl)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (V4 m c))
        ⊢ (unscopedBufs c (V5 m c) : sProp 𝕄) := by
      rw [Pipeline.unscopedBufs_split₀ cfgs 4 winFacts₀4.arr_unscoped c (V5 m c)]
      refine sep_mono (arrays4_iff (V4 m) c (V5 m c) _ (hF4 m c)).1 (Entails.of_eq ?_)
      unfold Pipeline.unscopedRest
      exact bigSep_congr fun b hb => by rw [hrest4 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

include hb0 hb1 hb2 hb3 hb4 in
-- the launch theorem's implicit arguments are found by unifying its conclusion with this one, which takes unfolding plain definitions
set_option backward.isDefEq.respectTransparency.types false in
/-- THE RUN, at any float instance: from any memory with zero counters every weakly fair execution of the five passes
    terminates, nothing faulting; the result array ends at the last pass's fold of its blocks and every argument as launched. -/
theorem run (ρ : Dev nD → PrngReg) : θ_run defs (onTc (τ := τ) (main (F := F))) ⟨m, fun _ => 0, ρ⟩ (fun r => ∀ c : Dev nD,
      r.2.mem ((c.tc : Thread nD τ).loc main_v4) = (dat4 (V4 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main
    [.region (reg0 m hb0), .region (reg1 m hb1), .region (reg2 m hb2), .region (reg3 m hb3), .region (reg4 m hb4)]
    (fun c Q => by rw [main_segs adm (pdats m) () 𝒱₀ L lv (reg0 m hb0) (reg1 m hb1) (reg2 m hb2) (reg3 m hb3) (reg4 m hb4) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v4 (by decide))).trans (W5_self m c),
       (h c _ (mem_uc main_arg0 (by decide))).trans (W5_arg m c main_arg0 (by decide) (by decide) (by decide) (by decide) (by decide)),
       (h c _ (mem_uc main_arg1 (by decide))).trans (W5_arg m c main_arg1 (by decide) (by decide) (by decide) (by decide) (by decide)),
       (h c _ (mem_uc main_arg2 (by decide))).trans (W5_arg m c main_arg2 (by decide) (by decide) (by decide) (by decide) (by decide)),
       (h c _ (mem_uc main_arg3 (by decide))).trans (W5_arg m c main_arg3 (by decide) (by decide) (by decide) (by decide) (by decide))⟩)

end Run

end Cert.Kernel.Hand

end
-- ==== Proof.Spec.lean ====
/-
  The two programs as mathematics, stage by stage, over the extended reals.

  A graph auto-encoder on a dense 4096×4096 adjacency `A`: with `A' = A + I`, `d = (rowsum A')^(-1/2)` and the normalised
  adjacency `Ã i j = d i · A' i j · d j`, two graph convolutions `h = relu (s · Ã · ℓ₂(X W₁))`, `e = s · Ã · ℓ₂(h W₂)`
  (`ℓ₂` divides each row by the larger of its Euclidean norm and `ε`), then `σ(e eᵀ)`.

  The reference (`r…`) computes exactly that. The kernel (`k…`) never forms `A'` or `Ã`: it takes `d` as the reciprocal
  square root of `rowsum A + 1`, folds the column scaling into the small operand (`d j · ℓ₂(…) j`) and uses
  `(A + I) · v = A · v + v`, the row scaling `s · d i` applied last. Every function here is written with the operations of
  the extended reals the programs denote (`Ideal.rsqrt`, `Ideal.pow`, `Ideal.sqrt`, `Ideal.div`, `Ideal.exp`,
  `Ideal.logistic`), so that each program's value is one of them by unfolding; that the two agree on finite inputs whose
  shifted row sums are positive is real algebra (Algebra.lean).
-/
import Idealize.ShloMosaic.PureOps.Ideal

noncomputable section

namespace Cert.Spec

open Idealize.ShloMosaic

/-- The f32 literals both programs carry, as the extended reals they denote. -/
abbrev cOne : EReal := Ideal.ofBits .f32 0x3F800000#32
abbrev cEps : EReal := Ideal.ofBits .f32 0x2B8CBCCC#32
abbrev cScale : EReal := Ideal.ofBits .f32 0x3FE66666#32
abbrev cZero : EReal := Ideal.ofBits .f32 0x00000000#32
abbrev cMinusHalf : EReal := Ideal.ofBits .f32 0xBF000000#32

variable (A : Fin 4096 → Fin 4096 → EReal) (X : Fin 4096 → Fin 128 → EReal) (W1 : Fin 128 → Fin 64 → EReal)
  (W2 : Fin 64 → Fin 16 → EReal)

/-! ## Shared by both programs -/

/-- `X W₁`. -/
def Z (i : Fin 4096) (c : Fin 64) : EReal := ∑ k : Fin 128, X i k * W1 k c
/-- A row's `ℓ₂` normalisation with the floor `ε` under the norm, for any number of rows and any width. -/
def l2 {m n : Nat} (G : Fin m → Fin n → EReal) (i : Fin m) (c : Fin n) : EReal :=
  Ideal.div (G i c) (max (Ideal.sqrt (∑ c' : Fin n, G i c' * G i c')) cEps)

/-! ## The kernel, pass by pass -/

/-- Pass 0: `d i = rsqrt (Σ_j A i j + 1)`. -/
def kD (i : Fin 4096) : EReal := Ideal.rsqrt ((∑ j : Fin 4096, A i j) + cOne)
/-- Pass 1: `d i · ℓ₂(X W₁) i c`. -/
def kZd1 (i : Fin 4096) (c : Fin 64) : EReal := kD A i * l2 (Z X W1) i c
/-- Pass 2, first half: the hidden layer `max ((s · d i) · (Σ_j A i j · zd1 j c + zd1 i c)) 0`. -/
def kH (i : Fin 4096) (c : Fin 64) : EReal :=
  max ((cScale * kD A i) * ((∑ j : Fin 4096, A i j * kZd1 A X W1 j c) + kZd1 A X W1 i c)) cZero
/-- Pass 2, second half: `h W₂`, normalised and scaled by `d i`. -/
def kG (i : Fin 4096) (c : Fin 16) : EReal := ∑ k : Fin 64, kH A X W1 i k * W2 k c
def kZd2 (i : Fin 4096) (c : Fin 16) : EReal := kD A i * l2 (kG A X W1 W2) i c
/-- Pass 3: the encoding `(s · d i) · (Σ_j A i j · zd2 j c + zd2 i c)`. -/
def kEnc (i : Fin 4096) (c : Fin 16) : EReal :=
  (cScale * kD A i) * ((∑ j : Fin 4096, A i j * kZd2 A X W1 W2 j c) + kZd2 A X W1 W2 i c)
/-- Pass 4: `σ(e eᵀ)`. -/
def kOut (i j : Fin 4096) : EReal := Ideal.logistic (∑ c : Fin 16, kEnc A X W1 W2 i c * kEnc A X W1 W2 j c)

/-! ## The reference -/

/-- The identity matrix's entry, as the 0/1 an `i1` converts to. -/
def eye (i j : Fin 4096) : EReal := if i = j then 1 else 0
/-- `A + I`. -/
def rA' (i j : Fin 4096) : EReal := A i j + eye i j
/-- `d i = (Σ_j A' i j)^(-1/2)`. -/
def rD (i : Fin 4096) : EReal := Ideal.pow (∑ j : Fin 4096, rA' A i j) cMinusHalf
/-- `Ã i j = (d i · A' i j) · d j`. -/
def rAn (i j : Fin 4096) : EReal := (rD A i * rA' A i j) * rD A j
/-- `h = max (s · (Ã · ℓ₂(X W₁))) 0`. -/
def rH (i : Fin 4096) (c : Fin 64) : EReal := max (cScale * ∑ j : Fin 4096, rAn A i j * l2 (Z X W1) j c) cZero
def rG (i : Fin 4096) (c : Fin 16) : EReal := ∑ k : Fin 64, rH A X W1 i k * W2 k c
/-- `e = s · (Ã · ℓ₂(h W₂))`. -/
def rEnc (i : Fin 4096) (c : Fin 16) : EReal := cScale * ∑ j : Fin 4096, rAn A i j * l2 (rG A X W1 W2) j c
/-- `1 / (1 + exp (-(e eᵀ) i j))`, the logistic spelt out as the reference's operations. -/
def rOut (i j : Fin 4096) : EReal :=
  Ideal.div cOne (cOne + Ideal.exp (-(∑ c : Fin 16, rEnc A X W1 W2 i c * rEnc A X W1 W2 j c)))

end Cert.Spec

end
-- ==== Proof.Payloads.lean ====
/-
  The kernel bodies' arithmetic read at an index, over the extended reals.

  Each pass of the kernel stores one value, a composition of a block product into a zero accumulator, a sum along the
  lanes kept as a column, scalar splats, a column spread over the lanes, and pointwise arithmetic. Read at an index
  `(r, c)` every pointwise operation is the extended reals' operation on the operands at `(r, c)`; a column `[a, 1]`
  spread to `[a, b]` reads the column at row `r`; a lane sum kept as a column reads the sum of row `r`; a block
  product into the zero accumulator reads the sum over the one contracted axis of the operands' products. Composing
  these gives each pass's value as the formula of the specification's stage.
-/
import proofs.«108352_g74474732912750_cont_9to1_m_1152_2_alg».proof.Proof.Gen.KernelIdeal.Skeleton
import proofs.«108352_g74474732912750_cont_9to1_m_1152_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic ValueIdx Cert.KernelIdeal Cert.KernelIdeal.Gen Cert.Spec

variable {α : Type}

/-! ## Unary maps read at an index -/

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## The keepdims column forms -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` array, read at row `r`: the sum of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun k _ => ?_
  exact congrArg src (funext fun ax => Fin.ext (by match ax with | ⟨0, _⟩ => rfl | ⟨1, _⟩ => rfl))

/-! ## Pass 0: `d r = rsqrt (Σ_j A r j + 1)` -/

/-- Pass 0 at `(r, 0)`: `rsqrt (Σ_j A r j + 1)`. -/
theorem pay0 (v0 : Vec Ideal S256x4096 .f32) (r : Fin 256) (z : Fin 1) :
    k0_pay1 (F := Ideal) v0 (ix2 r z) = Ideal.rsqrt ((∑ j : Fin 4096, v0 (ix2 r j)) + cOne) := by
  unfold k0_pay1
  rw [rsqrt_apply, addf_apply, broadcast_apply, shapeCast_a_a1_apply, laneSum_apply]
  rfl

/-! ## Pass 1: `d r · ℓ₂(X W₁) r c` -/

theorem mm_4096x128_128x64_lhs_free (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem mm_4096x128_128x64_lhs_contr (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem mm_4096x128_128x64_rhs_contr (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem mm_4096x128_128x64_rhs_free (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl
/-- Pass 1's block product `[4096, 128] × [128, 64]` at `(r, c)`: the sum over the contracted axis. -/
theorem mm_4096x128_128x64 (A : FVec Ideal S4096x128 .f32) (B : FVec Ideal S128x64 .f32) (r : Fin 4096) (c : Fin 64) :
    matmul (F := Ideal) dot_S4096x128_S128x64_S4096x64_1_0_0_1_n_n none A B (constant (F := Ideal) S4096x64 .f32 0x00000000#32) (ix2 r c)
      = ∑ k : Fin 128, A (ix2 r k) * B (ix2 k c) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 r c) ((contrEquiv1 dot_S4096x128_S128x64_S4096x64_1_0_0_1_n_n 128 rfl rfl).symm k) = ix2 r k := funext fun a => Fin.ext (by
    match a with
    | ⟨0, _⟩ => exact mm_4096x128_128x64_lhs_free _ _
    | ⟨1, _⟩ => exact (mm_4096x128_128x64_lhs_contr _ _).trans hk)
  have er : dot_S4096x128_S128x64_S4096x64_1_0_0_1_n_n.rhsIdx (ix2 r c) ((contrEquiv1 dot_S4096x128_S128x64_S4096x64_1_0_0_1_n_n 128 rfl rfl).symm k) = ix2 k c := funext fun a => Fin.ext (by
    match a with
    | ⟨0, _⟩ => exact (mm_4096x128_128x64_rhs_contr _ _).trans hk
    | ⟨1, _⟩ => exact mm_4096x128_128x64_rhs_free _ _)
  rw [el, er]

/-- Pass 1 at `(r, c)`: `d r · ℓ₂(X W₁) r c`. -/
theorem pay1 (v0 : Vec Ideal S4096x128 .f32) (v1 : Vec Ideal S128x64 .f32) (v11 : Vec Ideal S4096x1 .f32) (r : Fin 4096) (c : Fin 64) :
    k1_pay1 (F := Ideal) v0 v1 v11 (ix2 r c) = v11 (ix2 r (0 : Fin 1)) * l2 (fun (i : Fin 4096) (c' : Fin 64) => ∑ k : Fin 128, v0 (ix2 i k) * v1 (ix2 k c')) r c := by
  unfold k1_pay1
  simp only [mulf_apply, divf_apply, maximumf_apply, sqrt_apply, broadcast_apply, broadcastTo_a1_ab_apply, shapeCast_self,
    shapeCast_a_a1_apply, mm_4096x128_128x64]
  rw [laneSum_apply]
  simp only [mulf_apply, mm_4096x128_128x64]
  rfl

/-! ## Pass 2: `d r · ℓ₂(h W₂) r c`, `h = max ((s · d) · (A z + z)) 0` -/

theorem mm_256x4096_4096x64_lhs_free (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem mm_256x4096_4096x64_lhs_contr (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem mm_256x4096_4096x64_rhs_contr (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem mm_256x4096_4096x64_rhs_free (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl
/-- Pass 2's first block product `[256, 4096] × [4096, 64]` at `(r, c)`: the sum over the contracted axis. -/
theorem mm_256x4096_4096x64 (A : FVec Ideal S256x4096 .f32) (B : FVec Ideal S4096x64 .f32) (r : Fin 256) (c : Fin 64) :
    matmul (F := Ideal) dot_S256x4096_S4096x64_S256x64_1_0_0_1_n_n none A B (constant (F := Ideal) S256x64 .f32 0x00000000#32) (ix2 r c)
      = ∑ k : Fin 4096, A (ix2 r k) * B (ix2 k c) := by
  simp only [matmul]
  rw [Ideal.matmul_constant_zero_apply, ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r c) ((contrEquiv1 dot_S256x4096_S4096x64_S256x64_1_0_0_1_n_n 4096 rfl rfl).symm k) = ix2 r k := funext fun a => Fin.ext (by
    match a with
    | ⟨0, _⟩ => exact mm_256x4096_4096x64_lhs_free _ _
    | ⟨1, _⟩ => exact (mm_256x4096_4096x64_lhs_contr _ _).trans hk)
  have er : dot_S256x4096_S4096x64_S256x64_1_0_0_1_n_n.rhsIdx (ix2 r c) ((contrEquiv1 dot_S256x4096_S4096x64_S256x64_1_0_0_1_n_n 4096 rfl rfl).symm k) = ix2 k c := funext fun a => Fin.ext (by
    match a with
    | ⟨0, _⟩ => exact (mm_256x4096_4096x64_rhs_contr _ _).trans hk
    | ⟨1, _⟩ => exact mm_256x4096_4096x64_rhs_free _ _)
  rw [el, er]

theorem mm_256x64_64x16_lhs_free (i : S256x16.Idx) (q : dot_S256x64_S64x16_S256x16_1_0_0_1_n_n.contr.Idx) :
    (dot_S256x64_S64x16_S256x16_1_0_0_1_n_n.lhsIdx i q 0).val = (i 0).val := by
  unfold DotDims.lhsIdx
  rw [dif_neg (show ¬(0 : Fin S256x64.rank) ∈ dot_S256x64_S64x16_S256x16_1_0_0_1_n_n.lhsBatch by decide), dif_pos (show (0 : Fin S256x64.rank) ∈ dot_S256x64_S64x16_S256x16_1_0_0_1_n_n.lhsNonContracting by decide)]
  rfl
theorem mm_256x64_64x16_lhs_contr (i : S256x16.Idx) (q : dot_S256x64_S64x16_S256x16_1_0_0_1_n_n.contr.Idx) :
    (dot_S256x64_S64x16_S256x16_1_0_0_1_n_n.lhsIdx i q 1).val = (q ⟨0, by decide⟩).val :=
  dot_S256x64_S64x16_S256x16_1_0_0_1_n_n.lhsIdx_val_of_single rfl i q
theorem mm_256x64_64x16_rhs_contr (i : S256x16.Idx) (q : dot_S256x64_S64x16_S256x16_1_0_0_1_n_n.contr.Idx) :
    (dot_S256x64_S64x16_S256x16_1_0_0_1_n_n.rhsIdx i q 0).val = (q ⟨0, by decide⟩).val :=
  dot_S256x64_S64x16_S256x16_1_0_0_1_n_n.rhsIdx_val_of_single rfl i q
theorem mm_256x64_64x16_rhs_free (i : S256x16.Idx) (q : dot_S256x64_S64x16_S256x16_1_0_0_1_n_n.contr.Idx) :
    (dot_S256x64_S64x16_S256x16_1_0_0_1_n_n.rhsIdx i q 1).val = (i 1).val := by
  unfold DotDims.rhsIdx
  rw [dif_neg (show ¬(1 : Fin S64x16.rank) ∈ dot_S256x64_S64x16_S256x16_1_0_0_1_n_n.rhsBatch by decide), dif_pos (show (1 : Fin S64x16.rank) ∈ dot_S256x64_S64x16_S256x16_1_0_0_1_n_n.rhsNonContracting by decide)]
  rfl
/-- Pass 2's second block product `[256, 64] × [64, 16]` at `(r, c)`: the sum over the contracted axis. -/
theorem mm_256x64_64x16 (A : FVec Ideal S256x64 .f32) (B : FVec Ideal S64x16 .f32) (r : Fin 256) (c : Fin 16) :
    matmul (F := Ideal) dot_S256x64_S64x16_S256x16_1_0_0_1_n_n none A B (constant (F := Ideal) S256x16 .f32 0x00000000#32) (ix2 r c)
      = ∑ k : Fin 64, A (ix2 r k) * B (ix2 k c) := by
  simp only [matmul]
  rw [Ideal.matmul_constant_zero_apply, ← Equiv.sum_comp (contrEquiv1 dot_S256x64_S64x16_S256x16_1_0_0_1_n_n 64 rfl rfl).symm]
  refine Finset.sum_congr rfl fun k _ => ?_
  have hk := contrEquiv1_symm_val dot_S256x64_S64x16_S256x16_1_0_0_1_n_n 64 rfl rfl k
  have el : dot_S256x64_S64x16_S256x16_1_0_0_1_n_n.lhsIdx (ix2 r c) ((contrEquiv1 dot_S256x64_S64x16_S256x16_1_0_0_1_n_n 64 rfl rfl).symm k) = ix2 r k := funext fun a => Fin.ext (by
    match a with
    | ⟨0, _⟩ => exact mm_256x64_64x16_lhs_free _ _
    | ⟨1, _⟩ => exact (mm_256x64_64x16_lhs_contr _ _).trans hk)
  have er : dot_S256x64_S64x16_S256x16_1_0_0_1_n_n.rhsIdx (ix2 r c) ((contrEquiv1 dot_S256x64_S64x16_S256x16_1_0_0_1_n_n 64 rfl rfl).symm k) = ix2 k c := funext fun a => Fin.ext (by
    match a with
    | ⟨0, _⟩ => exact (mm_256x64_64x16_rhs_contr _ _).trans hk
    | ⟨1, _⟩ => exact mm_256x64_64x16_rhs_free _ _)
  rw [el, er]

/-- Pass 2 at `(r, c)`: `d r · ℓ₂(h W₂) r c` with `h = max ((s · d) · (A z + z)) 0`. -/
theorem pay2 (v0 : Vec Ideal S256x4096 .f32) (v1 : Vec Ideal S4096x64 .f32) (v4 : Vec Ideal S256x1 .f32) (v8 : Vec Ideal S256x64 .f32) (v15 : Vec Ideal S64x16 .f32) (v25 : Vec Ideal S256x1 .f32) (r : Fin 256) (c : Fin 16) :
    k2_pay1 (F := Ideal) v0 v1 v4 v8 v15 v25 (ix2 r c) = v25 (ix2 r (0 : Fin 1)) * l2 (fun (i : Fin 256) (c' : Fin 16) => ∑ k : Fin 64,
        max ((cScale * v4 (ix2 i (0 : Fin 1))) * ((∑ j : Fin 4096, v0 (ix2 i j) * v1 (ix2 j k)) + v8 (ix2 i k))) cZero * v15 (ix2 k c')) r c := by
  unfold k2_pay1
  simp only [mulf_apply, addf_apply, divf_apply, maximumf_apply, sqrt_apply, broadcast_apply, broadcastTo_a1_ab_apply,
    shapeCast_self, shapeCast_a_a1_apply, mm_256x4096_4096x64, mm_256x64_64x16]
  rw [laneSum_apply]
  simp only [mulf_apply, addf_apply, maximumf_apply, broadcast_apply, broadcastTo_a1_ab_apply, mm_256x4096_4096x64,
    mm_256x64_64x16]
  rfl

/-! ## Pass 3: `(s · d r) · (Σ_j A r j · z j c + z r c)` -/

theorem mm_256x4096_4096x16_lhs_free (i : S256x16.Idx) (q : dot_S256x4096_S4096x16_S256x16_1_0_0_1_n_n.contr.Idx) :
    (dot_S256x4096_S4096x16_S256x16_1_0_0_1_n_n.lhsIdx i q 0).val = (i 0).val := by
  unfold DotDims.lhsIdx
  rw [dif_neg (show ¬(0 : Fin S256x4096.rank) ∈ dot_S256x4096_S4096x16_S256x16_1_0_0_1_n_n.lhsBatch by decide), dif_pos (show (0 : Fin S256x4096.rank) ∈ dot_S256x4096_S4096x16_S256x16_1_0_0_1_n_n.lhsNonContracting by decide)]
  rfl
theorem mm_256x4096_4096x16_lhs_contr (i : S256x16.Idx) (q : dot_S256x4096_S4096x16_S256x16_1_0_0_1_n_n.contr.Idx) :
    (dot_S256x4096_S4096x16_S256x16_1_0_0_1_n_n.lhsIdx i q 1).val = (q ⟨0, by decide⟩).val :=
  dot_S256x4096_S4096x16_S256x16_1_0_0_1_n_n.lhsIdx_val_of_single rfl i q
theorem mm_256x4096_4096x16_rhs_contr (i : S256x16.Idx) (q : dot_S256x4096_S4096x16_S256x16_1_0_0_1_n_n.contr.Idx) :
    (dot_S256x4096_S4096x16_S256x16_1_0_0_1_n_n.rhsIdx i q 0).val = (q ⟨0, by decide⟩).val :=
  dot_S256x4096_S4096x16_S256x16_1_0_0_1_n_n.rhsIdx_val_of_single rfl i q
theorem mm_256x4096_4096x16_rhs_free (i : S256x16.Idx) (q : dot_S256x4096_S4096x16_S256x16_1_0_0_1_n_n.contr.Idx) :
    (dot_S256x4096_S4096x16_S256x16_1_0_0_1_n_n.rhsIdx i q 1).val = (i 1).val := by
  unfold DotDims.rhsIdx
  rw [dif_neg (show ¬(1 : Fin S4096x16.rank) ∈ dot_S256x4096_S4096x16_S256x16_1_0_0_1_n_n.rhsBatch by decide), dif_pos (show (1 : Fin S4096x16.rank) ∈ dot_S256x4096_S4096x16_S256x16_1_0_0_1_n_n.rhsNonContracting by decide)]
  rfl
/-- Pass 3's block product `[256, 4096] × [4096, 16]` at `(r, c)`: the sum over the contracted axis. -/
theorem mm_256x4096_4096x16 (A : FVec Ideal S256x4096 .f32) (B : FVec Ideal S4096x16 .f32) (r : Fin 256) (c : Fin 16) :
    matmul (F := Ideal) dot_S256x4096_S4096x16_S256x16_1_0_0_1_n_n none A B (constant (F := Ideal) S256x16 .f32 0x00000000#32) (ix2 r c)
      = ∑ k : Fin 4096, A (ix2 r k) * B (ix2 k c) := by
  simp only [matmul]
  rw [Ideal.matmul_constant_zero_apply, ← Equiv.sum_comp (contrEquiv1 dot_S256x4096_S4096x16_S256x16_1_0_0_1_n_n 4096 rfl rfl).symm]
  refine Finset.sum_congr rfl fun k _ => ?_
  have hk := contrEquiv1_symm_val dot_S256x4096_S4096x16_S256x16_1_0_0_1_n_n 4096 rfl rfl k
  have el : dot_S256x4096_S4096x16_S256x16_1_0_0_1_n_n.lhsIdx (ix2 r c) ((contrEquiv1 dot_S256x4096_S4096x16_S256x16_1_0_0_1_n_n 4096 rfl rfl).symm k) = ix2 r k := funext fun a => Fin.ext (by
    match a with
    | ⟨0, _⟩ => exact mm_256x4096_4096x16_lhs_free _ _
    | ⟨1, _⟩ => exact (mm_256x4096_4096x16_lhs_contr _ _).trans hk)
  have er : dot_S256x4096_S4096x16_S256x16_1_0_0_1_n_n.rhsIdx (ix2 r c) ((contrEquiv1 dot_S256x4096_S4096x16_S256x16_1_0_0_1_n_n 4096 rfl rfl).symm k) = ix2 k c := funext fun a => Fin.ext (by
    match a with
    | ⟨0, _⟩ => exact (mm_256x4096_4096x16_rhs_contr _ _).trans hk
    | ⟨1, _⟩ => exact mm_256x4096_4096x16_rhs_free _ _)
  rw [el, er]

/-- Pass 3 at `(r, c)`: `(s · d r) · (Σ_j A r j · z j c + z r c)`. -/
theorem pay3 (v0 : Vec Ideal S256x4096 .f32) (v1 : Vec Ideal S4096x16 .f32) (v4 : Vec Ideal S256x1 .f32) (v8 : Vec Ideal S256x16 .f32) (r : Fin 256) (c : Fin 16) :
    k3_pay1 (F := Ideal) v0 v1 v4 v8 (ix2 r c) = (cScale * v4 (ix2 r (0 : Fin 1))) * ((∑ j : Fin 4096, v0 (ix2 r j) * v1 (ix2 j c)) + v8 (ix2 r c)) := by
  unfold k3_pay1
  rw [mulf_apply, broadcastTo_a1_ab_apply, mulf_apply, broadcast_apply, addf_apply, shapeCast_self, shapeCast_self,
    shapeCast_self, mm_256x4096_4096x16]
  rfl

/-! ## Pass 4: `σ(e eᵀ)` -/

theorem mm_256x16_4096x16_lhs_free (i : S256x4096.Idx) (q : dot_S256x16_S4096x16_S256x4096_1_1_0_0_n_n.contr.Idx) :
    (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem mm_256x16_4096x16_lhs_contr (i : S256x4096.Idx) (q : dot_S256x16_S4096x16_S256x4096_1_1_0_0_n_n.contr.Idx) :
    (dot_S256x16_S4096x16_S256x4096_1_1_0_0_n_n.lhsIdx i q 1).val = (q ⟨0, by decide⟩).val :=
  dot_S256x16_S4096x16_S256x4096_1_1_0_0_n_n.lhsIdx_val_of_single rfl i q
theorem mm_256x16_4096x16_rhs_contr (i : S256x4096.Idx) (q : dot_S256x16_S4096x16_S256x4096_1_1_0_0_n_n.contr.Idx) :
    (dot_S256x16_S4096x16_S256x4096_1_1_0_0_n_n.rhsIdx i q 1).val = (q ⟨0, by decide⟩).val :=
  dot_S256x16_S4096x16_S256x4096_1_1_0_0_n_n.rhsIdx_val_of_single rfl i q
theorem mm_256x16_4096x16_rhs_free (i : S256x4096.Idx) (q : dot_S256x16_S4096x16_S256x4096_1_1_0_0_n_n.contr.Idx) :
    (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
/-- Pass 4's block product `[256, 16] × [4096, 16]ᵀ` at `(r, c)`: both operands contract their second axis. -/
theorem mm_256x16_4096x16 (A : FVec Ideal S256x16 .f32) (B : FVec Ideal S4096x16 .f32) (r : Fin 256) (c : Fin 4096) :
    matmul (F := Ideal) dot_S256x16_S4096x16_S256x4096_1_1_0_0_n_n none A B (constant (F := Ideal) S256x4096 .f32 0x00000000#32) (ix2 r c)
      = ∑ k : Fin 16, A (ix2 r k) * B (ix2 c k) := by
  simp only [matmul]
  rw [Ideal.matmul_constant_zero_apply, ← Equiv.sum_comp (contrEquiv1 dot_S256x16_S4096x16_S256x4096_1_1_0_0_n_n 16 rfl rfl).symm]
  refine Finset.sum_congr rfl fun k _ => ?_
  have hk := contrEquiv1_symm_val dot_S256x16_S4096x16_S256x4096_1_1_0_0_n_n 16 rfl rfl k
  have el : dot_S256x16_S4096x16_S256x4096_1_1_0_0_n_n.lhsIdx (ix2 r c) ((contrEquiv1 dot_S256x16_S4096x16_S256x4096_1_1_0_0_n_n 16 rfl rfl).symm k) = ix2 r k := funext fun a => Fin.ext (by
    match a with
    | ⟨0, _⟩ => exact mm_256x16_4096x16_lhs_free _ _
    | ⟨1, _⟩ => exact (mm_256x16_4096x16_lhs_contr _ _).trans hk)
  have er : dot_S256x16_S4096x16_S256x4096_1_1_0_0_n_n.rhsIdx (ix2 r c) ((contrEquiv1 dot_S256x16_S4096x16_S256x4096_1_1_0_0_n_n 16 rfl rfl).symm k) = ix2 c k := funext fun a => Fin.ext (by
    match a with
    | ⟨1, _⟩ => exact (mm_256x16_4096x16_rhs_contr _ _).trans hk
    | ⟨0, _⟩ => exact mm_256x16_4096x16_rhs_free _ _)
  rw [el, er]

/-- Pass 4 at `(r, j)`: `σ(Σ_c e r c · e j c)`. -/
theorem pay4 (v0 : Vec Ideal S256x16 .f32) (v2 : Vec Ideal S4096x16 .f32) (r : Fin 256) (j : Fin 4096) :
    k4_pay1 (F := Ideal) v0 v2 (ix2 r j) = Ideal.logistic (∑ c : Fin 16, v0 (ix2 r c) * v2 (ix2 j c)) := by
  unfold k4_pay1
  rw [logistic_apply, shapeCast_self, shapeCast_self, mm_256x16_4096x16]

end Cert.KernelIdeal.Pay
end
-- ==== Proof.HandValuesA.lean ====
/-
  The kernel's first two passes, from blocks to whole arrays: what each pass leaves in its output array, as one function
  of the arrays the pass finds.
-/
import proofs.«108352_g74474732912750_cont_9to1_m_1152_2_alg».proof.Proof.HandData
import proofs.«108352_g74474732912750_cont_9to1_m_1152_2_alg».proof.Proof.Payloads
import proofs.«108352_g74474732912750_cont_9to1_m_1152_2_alg».proof.Proof.Spec
import Idealize.ShloMosaic.Lib.Pipeline.Value
import Idealize.ShloMosaic.Lib.ValueIdx

noncomputable section

namespace Cert.KernelIdeal.HandValue

open Idealize.ShloMosaic Idealize.ShloMosaic.TcCoe Idealize.SL.Sem ValueIdx
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b)) (c : Dev nD)

/-- The arrays the passes find, as functions into the extended reals. -/
abbrev aA : S4096x4096.Idx → EReal := V c main_arg0
abbrev aX : S4096x128.Idx → EReal := V c main_arg1
abbrev aW1 : S128x64.Idx → EReal := V c main_arg2
abbrev aD : S4096x1.Idx → EReal := V c main_v0

theorem hz : (![0, 0] : Fin 2 → Nat) = fun _ => 0 := funext fun a => by fin_cases a <;> rfl

/-! ## Pass 0 -/

/-- The printed index maps of pass 0, decided over the grid: both windows are at block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What pass 0 leaves in its output array: `rsqrt (rowsum A + 1)`, row by row. -/
abbrev g0 (r : Fin 4096) (z : Fin 1) : EReal :=
  Ideal.rsqrt ((∑ j : Fin 4096, aA V c (ix2 r j)) + cOne)
abbrev G0 : S4096x1.Idx → EReal := fun i => g0 V c (i 0) (i 1)

/-- Block `t` of the first window, read at `(r, j)`, is the array at row `256 t + r`. -/
theorem iblk0_0_apply (t : Fin cfg0.N) (r : Fin 256) (j : Fin 4096) (hr : 256 * t.val + r.val < 4096) :
    (iblk0 V c 0 t : Vec Ideal S256x4096 .f32) (ix2 r j)
      = aA V c (ix2 ⟨256 * t.val + r.val, hr⟩ j) := by
  obtain ⟨e0, e1, -, -⟩ := idx_facts0 t
  unfold iblk0
  rw [View.read_apply]
  show aA V c _ = _
  congr 1
  funext a
  apply Fin.ext
  match a with
  | ⟨0, _⟩ => show win0_0.index t 0 * 256 + 1 * r.val = 256 * t.val + r.val; rw [e0]; omega
  | ⟨1, _⟩ => show win0_0.index t 1 * 4096 + 1 * j.val = j.val; rw [e1]; omega

/-- Point `t`'s value at `(r, z)` is the array function at row `256 t + r`. -/
theorem point0 (t : Fin cfg0.N) (r : Fin 256) (z : Fin 1) (hr : 256 * t.val + r.val < 4096) :
    k0_pay1 (F := Ideal) (iblk0 V c 0 t) (ix2 r z) = g0 V c ⟨256 * t.val + r.val, hr⟩ z := by
  rw [Pay.pay0]
  refine congrArg (fun s => Ideal.rsqrt (s + cOne)) (Finset.sum_congr rfl fun j _ => ?_)
  exact iblk0_0_apply V c t r j hr

theorem flushed0_at (t : Fin cfg0.N) (y : S256x1.Idx) :
    k0_pay1 (F := Ideal) (iblk0 V c 0 t) y = G0 V c (((cfg0.win 1).blk t).view.emb y) := by
  obtain ⟨r, z, rfl⟩ : ∃ (r : Fin 256) (z : Fin 1), y = ix2 r z := ⟨y 0, y 1, eq_ix2 y⟩
  have hN : cfg0.N = 16 := N_0
  have ht := t.isLt
  have hr := r.isLt
  obtain ⟨-, -, e0, e1⟩ := idx_facts0 t
  have hemb : ((cfg0.win 1).blk t).view.emb (ix2 r z) = ix2 (⟨256 * t.val + r.val, by omega⟩ : Fin 4096) z := by
    funext a; apply Fin.ext
    match a with
    | ⟨0, _⟩ => show win0_1.index t 0 * 256 + 1 * r.val = 256 * t.val + r.val; rw [e0]; omega
    | ⟨1, _⟩ => show win0_1.index t 1 * 1 + 1 * z.val = z.val; rw [e1]; omega
  rw [hemb]
  exact point0 V c t r z (by omega)

/-- What point `t` writes back is block `t` of the array function. -/
theorem flushed0_eq (t : Fin cfg0.N) :
    (dat0 V c).flushed 1 t = ((cfg0.win 1).blk t).view.read (Elt Ideal) (G0 V c) := by
  show (cfg0.win 1).cut (grid0.coords t) ((dat0 V c).after 1 t) = _
  rw [after0_1]
  unfold out0_1
  rw [View.canon_unit_zero hz]
  simp only [View.ld_unit_zero (S := S256x4096) hz]
  funext y
  exact flushed0_at V c t y

/-- An index of the output array is in point `t`'s block iff each coordinate is in the block's range on its axis. -/
theorem mem_blk0 (t : Fin cfg0.N) (i : S4096x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v0).slice (win0_1.rect t)).set ↔ _
  rw [View.set_slice_whole, Rect.mem_set_unit]
  exact Iff.rfl

/-- Row `r` of the output array is in the block of point `r / 256`. -/
theorem cover0 (i : S4096x1.Idx) :
    ∃ t : Fin cfg0.N, (cfg0.win 1).flush t = true ∧ i ∈ ((cfg0.win 1).blk t).view.set := by
  have hN : cfg0.N = 16 := N_0
  have hi0 : (i 0).val < 4096 := (i 0).isLt
  have hi1 : (i 1).val < 1 := (i 1).isLt
  obtain ⟨t, ht⟩ : ∃ t : Fin cfg0.N, t.val = (i 0).val / 256 := ⟨⟨(i 0).val / 256, by omega⟩, rfl⟩
  refine ⟨t, flush0_1 t, ?_⟩
  rw [mem_blk0]
  obtain ⟨-, -, e0, e1⟩ := idx_facts0 t
  intro a
  match a with
  | ⟨0, _⟩ => show win0_1.index t 0 * 256 ≤ (i 0).val ∧ (i 0).val < win0_1.index t 0 * 256 + 256; rw [e0]; omega
  | ⟨1, _⟩ => show win0_1.index t 1 * 1 ≤ (i 1).val ∧ (i 1).val < win0_1.index t 1 * 1 + 1; rw [e1]; omega

/-- The output array after pass 0. -/
theorem final0 : (dat0 V c).arrAt 1 cfg0.N = G0 V c :=
  (dat0 V c).arrAt_eq_of_cover 1 (G0 V c) (fun t _ => flushed0_eq V c t) (cover0)

theorem val0 (r : Fin 4096) (z : Fin 1) :
    ((dat0 V c).arrAt 1 cfg0.N : S4096x1.Idx → EReal) (ix2 r z)
      = Ideal.rsqrt ((∑ j : Fin 4096, aA V c (ix2 r j)) + cOne) := by
  rw [final0]

/-! ## Pass 1: one point, every window its whole array -/

/-- What pass 1 leaves in its output array: `d · ℓ₂(X W₁)`. -/
abbrev g1 (r : Fin 4096) (c' : Fin 64) : EReal :=
  aD V c (ix2 r (0 : Fin 1))
    * l2 (fun (i : Fin 4096) (k : Fin 64) => ∑ q : Fin 128, aX V c (ix2 i q) * aW1 V c (ix2 q k)) r c'
abbrev G1 : S4096x64.Idx → EReal := fun i => g1 V c (i 0) (i 1)

/-- The one point's blocks are the whole arrays. -/
theorem iblk1_0_eq (t : Fin cfg1.N) : (iblk1 V c 0 t : Vec Ideal S4096x1 .f32) = aD V c := by
  funext y
  unfold iblk1
  rw [View.read_apply]
  show aD V c _ = _
  congr 1
  funext a
  apply Fin.ext
  match a with
  | ⟨0, _⟩ => show 0 * 4096 + 1 * (y 0).val = (y 0).val; omega
  | ⟨1, _⟩ => show 0 * 1 + 1 * (y 1).val = (y 1).val; omega
theorem iblk1_1_eq (t : Fin cfg1.N) : (iblk1 V c 1 t : Vec Ideal S4096x128 .f32) = aX V c := by
  funext y
  unfold iblk1
  rw [View.read_apply]
  show aX V c _ = _
  congr 1
  funext a
  apply Fin.ext
  match a with
  | ⟨0, _⟩ => show 0 * 4096 + 1 * (y 0).val = (y 0).val; omega
  | ⟨1, _⟩ => show 0 * 128 + 1 * (y 1).val = (y 1).val; omega
theorem iblk1_2_eq (t : Fin cfg1.N) : (iblk1 V c 2 t : Vec Ideal S128x64 .f32) = aW1 V c := by
  funext y
  unfold iblk1
  rw [View.read_apply]
  show aW1 V c _ = _
  congr 1
  funext a
  apply Fin.ext
  match a with
  | ⟨0, _⟩ => show 0 * 128 + 1 * (y 0).val = (y 0).val; omega
  | ⟨1, _⟩ => show 0 * 64 + 1 * (y 1).val = (y 1).val; omega

theorem flushed1_at (t : Fin cfg1.N) (y : S4096x64.Idx) :
    k1_pay1 (F := Ideal) (iblk1 V c 1 t) (iblk1 V c 2 t) (iblk1 V c 0 t) y
      = G1 V c (((cfg1.win 3).blk t).view.emb y) := by
  obtain ⟨r, c', rfl⟩ : ∃ (r : Fin 4096) (c' : Fin 64), y = ix2 r c' := ⟨y 0, y 1, eq_ix2 y⟩
  have hemb : ((cfg1.win 3).blk t).view.emb (ix2 r c') = ix2 r c' := by
    funext a; apply Fin.ext
    match a with
    | ⟨0, _⟩ => show 0 * 4096 + 1 * r.val = r.val; omega
    | ⟨1, _⟩ => show 0 * 64 + 1 * c'.val = c'.val; omega
  rw [hemb, iblk1_0_eq, iblk1_1_eq, iblk1_2_eq]
  exact Pay.pay1 (aX V c) (aW1 V c) (aD V c) r c'

/-- What the point writes back is the whole of the array function. -/
theorem flushed1_eq (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S4096x128) hz, View.ld_unit_zero (S := S128x64) hz,
    View.ld_unit_zero (S := S4096x1) hz]
  funext y
  exact flushed1_at V c t y

theorem mem_blk1 (t : Fin cfg1.N) (i : S4096x64.Idx) :
    i ∈ ((cfg1.win 3).blk t).view.set ↔ ∀ a : Fin 2, win1_3.index t a * S4096x64.size a ≤ (i a).val
      ∧ (i a).val < win1_3.index t a * S4096x64.size a + S4096x64.size a := by
  show i ∈ ((View.whole main_v1).slice (win1_3.rect t)).set ↔ _
  rw [View.set_slice_whole, Rect.mem_set_unit]
  exact Iff.rfl

/-- The one point's block is the whole output array. -/
theorem cover1 (i : S4096x64.Idx) :
    ∃ t : Fin cfg1.N, (cfg1.win 3).flush t = true ∧ i ∈ ((cfg1.win 3).blk t).view.set := by
  have hi0 : (i 0).val < 4096 := (i 0).isLt
  have hi1 : (i 1).val < 64 := (i 1).isLt
  refine ⟨t1_0, flush1_3 t1_0, ?_⟩
  rw [mem_blk1]
  intro a
  match a with
  | ⟨0, _⟩ => show 0 * 4096 ≤ (i 0).val ∧ (i 0).val < 0 * 4096 + 4096; omega
  | ⟨1, _⟩ => show 0 * 64 ≤ (i 1).val ∧ (i 1).val < 0 * 64 + 64; omega

/-- The output array after pass 1. -/
theorem final1 : (dat1 V c).arrAt 3 cfg1.N = G1 V c :=
  (dat1 V c).arrAt_eq_of_cover 3 (G1 V c) (fun t _ => flushed1_eq V c t) (cover1)

theorem val1 (r : Fin 4096) (c' : Fin 64) :
    ((dat1 V c).arrAt 3 cfg1.N : S4096x64.Idx → EReal) (ix2 r c')
      = aD V c (ix2 r (0 : Fin 1))
        * l2 (fun (i : Fin 4096) (k : Fin 64) => ∑ q : Fin 128, aX V c (ix2 i q) * aW1 V c (ix2 q k)) r c' := by
  rw [final1]

end Cert.KernelIdeal.HandValue

end
-- ==== Proof.HandValuesB.lean ====
/-
  From blocks to whole arrays, passes 3 and 4, over the extended reals. A pass writes back, at grid point `t`, rows
  `256 t … 256 t + 255` of its output array; what it writes is the pass's arithmetic on the input blocks at `t`, and
  those blocks are rows of the input arrays (the same rows for a row-block window, all rows for a whole-array window).
  So every write-back is the block of ONE function of the input arrays, the sixteen blocks tile the output array, and the
  array after the pass is that function, index by index.
-/
import proofs.«108352_g74474732912750_cont_9to1_m_1152_2_alg».proof.Proof.HandData
import proofs.«108352_g74474732912750_cont_9to1_m_1152_2_alg».proof.Proof.Payloads
import proofs.«108352_g74474732912750_cont_9to1_m_1152_2_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat)
open ValueIdx Cert.KernelIdeal Cert.KernelIdeal.Gen Cert.KernelIdeal.Hand Cert.Spec

variable (V : (c : Dev nD) → (b : Ref sig .tc) → Buf (Elt Ideal) ((c : Thread nD τ).loc b)) (c : Dev nD)

/-- The offsets of a whole-buffer access are zero on both axes. -/
theorem hz : (![0, 0] : Fin 2 → Nat) = fun _ => 0 := funext fun a => by fin_cases a <;> rfl

/-- The product and the sum of extended reals, the type of the operands stated: an array's entry at an index is an
    extended real, its element type being `f32`. -/
local infixl:70 " *ᵣ " => HMul.hMul (α := EReal) (β := EReal) (γ := EReal)
local infixl:65 " +ᵣ " => HAdd.hAdd (α := EReal) (β := EReal) (γ := EReal)

/-! # Pass 4: `σ(e eᵀ)` -/

/-- The output array of pass 4 as one function of the encoding `E`: at `(i, j)` the logistic of rows `i` and `j`'s
    inner product. -/
def G4 (E : S4096x16.Idx → EReal) : S4096x4096.Idx → EReal :=
  fun i => Ideal.logistic (∑ c' : Fin 16, E (ix2 (i 0) c') * E (ix2 (i 1) c'))

/-- The block indices over the grid: the row-block windows (input 0, the output) are at block `(t, 0)`, the whole-array
    window at `(0, 0)`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point `t` is rows `256 t …` of the encoding. -/
theorem iblk4_0_read (t : Fin cfg4.N) (r : Fin 256) (c' : Fin 16) (R : Fin 4096) (hR : R.val = 256 * t.val + r.val) :
    (iblk4 V c 0 t : Vec Ideal S256x16 .f32) (ix2 r c') = (V c main_v3 : S4096x16.Idx → EReal) (ix2 R c') := by
  obtain ⟨e0, e1, -⟩ := idx4 t
  unfold iblk4
  rw [View.read_apply]
  show V c main_v3 _ = V c main_v3 _
  congr 1
  funext a
  apply Fin.ext
  match a with
  | ⟨0, _⟩ => show win4_0.index t (0 : Fin 2) * 256 + 1 * r.val = R.val; rw [e0, hR]; omega
  | ⟨1, _⟩ => show win4_0.index t (1 : Fin 2) * 16 + 1 * c'.val = c'.val; rw [e1]; omega

/-- Window 1's block at every point is the whole encoding. -/
theorem iblk4_1_read (t : Fin cfg4.N) (j : Fin 4096) (c' : Fin 16) :
    (iblk4 V c 1 t : Vec Ideal S4096x16 .f32) (ix2 j c') = (V c main_v3 : S4096x16.Idx → EReal) (ix2 j c') := by
  obtain ⟨-, -, e2, e3, -⟩ := idx4 t
  unfold iblk4
  rw [View.read_apply]
  show V c main_v3 _ = V c main_v3 _
  congr 1
  funext a
  apply Fin.ext
  match a with
  | ⟨0, _⟩ => show win4_1.index t (0 : Fin 2) * 4096 + 1 * j.val = j.val; rw [e2]; omega
  | ⟨1, _⟩ => show win4_1.index t (1 : Fin 2) * 16 + 1 * c'.val = c'.val; rw [e3]; omega

/-- The body's arithmetic at `(r, j)` of the block, on blocks that are rows `256 t + r` and all rows of `E`, is `G4 E`
    at `(256 t + r, j)`. -/
theorem point4 (t : Fin cfg4.N) (x0 : Vec Ideal S256x16 .f32) (x1 : Vec Ideal S4096x16 .f32) (E : S4096x16.Idx → EReal)
    (h0 : ∀ (r : Fin 256) (c' : Fin 16) (R : Fin 4096), R.val = 256 * t.val + r.val → x0 (ix2 r c') = E (ix2 R c'))
    (h1 : ∀ (j : Fin 4096) (c' : Fin 16), x1 (ix2 j c') = E (ix2 j c'))
    (r : Fin 256) (j : Fin 4096) (R : Fin 4096) (hR : R.val = 256 * t.val + r.val) :
    k4_pay1 (F := Ideal) x0 x1 (ix2 r j) = G4 E (ix2 R j) := by
  rw [Pay.pay4]
  show Ideal.logistic _ = Ideal.logistic _
  congr 1
  refine Finset.sum_congr rfl fun c' _ => ?_
  rw [h0 r c' R hR, h1]

/-- What point `t` writes back is block `t` of `G4` of the encoding as the pass finds it. -/
theorem flushed4_eq (t : Fin cfg4.N) :
    (dat4 V c).flushed 2 t = ((cfg4.win 2).blk t).view.read (Elt Ideal) (G4 (V c main_v3)) := by
  show (cfg4.win 2).cut (grid4.coords t) ((dat4 V c).after 2 t) = _
  rw [after4_2]
  unfold out4_2
  rw [View.canon_unit_zero hz]
  simp only [View.ld_unit_zero (S := S256x16) hz, View.ld_unit_zero (S := S4096x16) hz]
  have hN : grid4.N = 16 := N_4
  have ht : t.val < 16 := by have h : t.val < grid4.N := t.isLt; omega
  obtain ⟨-, -, -, -, e4, e5⟩ := idx4 t
  funext y
  have hy0 : (y 0).val < 256 := (y 0).isLt
  have hy1 : (y 1).val < 4096 := (y 1).isLt
  show k4_pay1 (F := Ideal) (iblk4 V c 0 t) (iblk4 V c 1 t) y = G4 (V c main_v3) (((cfg4.win 2).blk t).view.emb y)
  have hemb : ((cfg4.win 2).blk t).view.emb y
      = ix2 (⟨256 * t.val + (y 0).val, by omega⟩ : Fin 4096) (⟨(y 1).val, hy1⟩ : Fin 4096) := by
    funext a; apply Fin.ext
    match a with
    | ⟨0, _⟩ => show win4_2.index t (0 : Fin 2) * 256 + 1 * (y 0).val = 256 * t.val + (y 0).val; rw [e4]; omega
    | ⟨1, _⟩ => show win4_2.index t (1 : Fin 2) * 4096 + 1 * (y 1).val = (y 1).val; rw [e5]; omega
  have hy : y = ix2 (⟨(y 0).val, hy0⟩ : Fin 256) (⟨(y 1).val, hy1⟩ : Fin 4096) := by
    funext a; match a with | ⟨0, _⟩ => rfl | ⟨1, _⟩ => rfl
  rw [hemb]
  refine (congrArg _ hy).trans ?_
  exact point4 t _ _ _ (fun r c' R hR => iblk4_0_read V c t r c' R hR) (fun j c' => iblk4_1_read V c t j c') _ _ _ rfl

/-- An index of the output array is in point `t`'s block iff each coordinate is in the block's range on its axis. -/
theorem mem_blk4 (t : Fin cfg4.N) (i : S4096x4096.Idx) :
    i ∈ ((cfg4.win 2).blk t).view.set ↔ ∀ a : Fin 2, win4_2.index t a * S256x4096.size a ≤ (i a).val ∧ (i a).val < win4_2.index t a * S256x4096.size a + S256x4096.size a := by
  show i ∈ ((View.whole main_v4).slice (win4_2.rect t)).set ↔ _
  rw [View.set_slice_whole, Rect.mem_set_unit]
  exact Iff.rfl

/-- Row `r` of the output array is in the block of point `r / 256`. -/
theorem cover4 (i : S4096x4096.Idx) : ∃ t : Fin cfg4.N, (cfg4.win 2).flush t = true ∧ i ∈ ((cfg4.win 2).blk t).view.set := by
  have hN : grid4.N = 16 := N_4
  have hi0 : (i 0).val < 4096 := (i 0).isLt
  have hi1 : (i 1).val < 4096 := (i 1).isLt
  let t : Fin cfg4.N := ⟨(i 0).val / 256, by show (i 0).val / 256 < grid4.N; omega⟩
  have htv : t.val = (i 0).val / 256 := rfl
  obtain ⟨-, -, -, -, e4, e5⟩ := idx4 t
  refine ⟨t, flush4_2 t, ?_⟩
  rw [mem_blk4]
  intro a
  match a with
  | ⟨0, _⟩ => show win4_2.index t (0 : Fin 2) * 256 ≤ (i 0).val ∧ (i 0).val < win4_2.index t (0 : Fin 2) * 256 + 256; rw [e4, htv]; omega
  | ⟨1, _⟩ => show win4_2.index t (1 : Fin 2) * 4096 ≤ (i 1).val ∧ (i 1).val < win4_2.index t (1 : Fin 2) * 4096 + 4096; rw [e5]; omega

/-- The output array after pass 4 is `G4` of the encoding the pass was entered with. -/
theorem final4 : (dat4 V c).arrAt 2 cfg4.N = G4 (V c main_v3) :=
  (dat4 V c).arrAt_eq_of_cover 2 (G4 (V c main_v3)) (fun t _ => flushed4_eq V c t) cover4

/-- `G4` at an index, written out. -/
theorem G4_apply (E : S4096x16.Idx → EReal) (r j : Fin 4096) :
    G4 E (ix2 r j) = Ideal.logistic (∑ c' : Fin 16, E (ix2 r c') * E (ix2 j c')) := rfl

/-- Pass 4's value, index by index. -/
theorem val4 (r j : Fin 4096) : (dat4 V c).arrAt 2 cfg4.N (ix2 r j)
    = Ideal.logistic (∑ c' : Fin 16, V c main_v3 (ix2 r c') *ᵣ V c main_v3 (ix2 j c')) := by
  rw [final4]
  rfl

/-! # Pass 3: the second convolution -/

/-- The output array of pass 3 as one function of the adjacency `A`, the scaled operand `Z` and the column `D`: at
    `(i, c)` the row scaling `s · D i` times `Σ_j A i j · Z j c + Z i c`. -/
def G3 (A : S4096x4096.Idx → EReal) (Z : S4096x16.Idx → EReal) (D : S4096x1.Idx → EReal) : S4096x16.Idx → EReal :=
  fun i => (cScale * D (ix2 (i 0) (0 : Fin 1))) * ((∑ j : Fin 4096, A (ix2 (i 0) j) * Z (ix2 j (i 1))) + Z (ix2 (i 0) (i 1)))

/-- The block indices over the grid: the row-block windows (inputs 0, 2, 3 and the output) are at block `(t, 0)`, the
    whole-array window 1 at `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-! ## The input blocks as rows of the arrays -/
/-- Window 0's block at point `t` is rows `256 t …` of the adjacency. -/
theorem iblk3_0_read (t : Fin cfg3.N) (r : Fin 256) (q : Fin 4096) (R : Fin 4096) (hR : R.val = 256 * t.val + r.val) :
    (iblk3 V c 0 t : Vec Ideal S256x4096 .f32) (ix2 r q) = (V c main_arg0 : S4096x4096.Idx → EReal) (ix2 R q) := by
  have e0 := (idx3 t).1
  have e1 := (idx3 t).2.1
  unfold iblk3
  rw [View.read_apply]
  show V c main_arg0 _ = V c main_arg0 _
  congr 1
  funext a
  apply Fin.ext
  match a with
  | ⟨0, _⟩ => show win3_0.index t (0 : Fin 2) * 256 + 1 * r.val = R.val; rw [e0, hR]; omega
  | ⟨1, _⟩ => show win3_0.index t (1 : Fin 2) * 4096 + 1 * q.val = q.val; rw [e1]; omega

/-- Window 1's block at every point is the whole scaled operand. -/
theorem iblk3_1_read (t : Fin cfg3.N) (j : Fin 4096) (q : Fin 16) :
    (iblk3 V c 1 t : Vec Ideal S4096x16 .f32) (ix2 j q) = (V c main_v2 : S4096x16.Idx → EReal) (ix2 j q) := by
  have e0 := (idx3 t).2.2.1
  have e1 := (idx3 t).2.2.2.1
  unfold iblk3
  rw [View.read_apply]
  show V c main_v2 _ = V c main_v2 _
  congr 1
  funext a
  apply Fin.ext
  match a with
  | ⟨0, _⟩ => show win3_1.index t (0 : Fin 2) * 4096 + 1 * j.val = j.val; rw [e0]; omega
  | ⟨1, _⟩ => show win3_1.index t (1 : Fin 2) * 16 + 1 * q.val = q.val; rw [e1]; omega

/-- Window 2's block at point `t` is rows `256 t …` of the scaled operand. -/
theorem iblk3_2_read (t : Fin cfg3.N) (r : Fin 256) (q : Fin 16) (R : Fin 4096) (hR : R.val = 256 * t.val + r.val) :
    (iblk3 V c 2 t : Vec Ideal S256x16 .f32) (ix2 r q) = (V c main_v2 : S4096x16.Idx → EReal) (ix2 R q) := by
  have e0 := (idx3 t).2.2.2.2.1
  have e1 := (idx3 t).2.2.2.2.2.1
  unfold iblk3
  rw [View.read_apply]
  show V c main_v2 _ = V c main_v2 _
  congr 1
  funext a
  apply Fin.ext
  match a with
  | ⟨0, _⟩ => show win3_2.index t (0 : Fin 2) * 256 + 1 * r.val = R.val; rw [e0, hR]; omega
  | ⟨1, _⟩ => show win3_2.index t (1 : Fin 2) * 16 + 1 * q.val = q.val; rw [e1]; omega

/-- Window 3's block at point `t` is rows `256 t …` of the column. -/
theorem iblk3_3_read (t : Fin cfg3.N) (r : Fin 256) (q : Fin 1) (R : Fin 4096) (hR : R.val = 256 * t.val + r.val) :
    (iblk3 V c 3 t : Vec Ideal S256x1 .f32) (ix2 r q) = (V c main_v0 : S4096x1.Idx → EReal) (ix2 R q) := by
  have e0 := (idx3 t).2.2.2.2.2.2.1
  have e1 := (idx3 t).2.2.2.2.2.2.2.1
  unfold iblk3
  rw [View.read_apply]
  show V c main_v0 _ = V c main_v0 _
  congr 1
  funext a
  apply Fin.ext
  match a with
  | ⟨0, _⟩ => show win3_3.index t (0 : Fin 2) * 256 + 1 * r.val = R.val; rw [e0, hR]; omega
  | ⟨1, _⟩ => show win3_3.index t (1 : Fin 2) * 1 + 1 * q.val = q.val; rw [e1]; omega

/-! ## One point, then the whole array -/

/-- The body's arithmetic at `(r, c')` of the block, on blocks that are rows `256 t + r` of `A`, `Z`, `D` and all rows
    of `Z`, is `G3 A Z D` at `(256 t + r, c')`. -/
theorem point3 (t : Fin cfg3.N) (x0 : Vec Ideal S256x4096 .f32) (x1 : Vec Ideal S4096x16 .f32) (x2 : Vec Ideal S256x16 .f32)
    (x3 : Vec Ideal S256x1 .f32) (A : S4096x4096.Idx → EReal) (Z : S4096x16.Idx → EReal) (D : S4096x1.Idx → EReal)
    (h0 : ∀ (r : Fin 256) (j : Fin 4096) (R : Fin 4096), R.val = 256 * t.val + r.val → x0 (ix2 r j) = A (ix2 R j))
    (h1 : ∀ (j : Fin 4096) (c' : Fin 16), x1 (ix2 j c') = Z (ix2 j c'))
    (h2 : ∀ (r : Fin 256) (c' : Fin 16) (R : Fin 4096), R.val = 256 * t.val + r.val → x2 (ix2 r c') = Z (ix2 R c'))
    (h3 : ∀ (r : Fin 256) (u : Fin 1) (R : Fin 4096), R.val = 256 * t.val + r.val → x3 (ix2 r u) = D (ix2 R u))
    (r : Fin 256) (c' : Fin 16) (R : Fin 4096) (hR : R.val = 256 * t.val + r.val) :
    k3_pay1 (F := Ideal) x0 x1 x3 x2 (ix2 r c') = G3 A Z D (ix2 R c') := by
  rw [Pay.pay3]
  have hs : (∑ j : Fin 4096, x0 (ix2 r j) * x1 (ix2 j c')) = ∑ j : Fin 4096, A (ix2 R j) * Z (ix2 j c') :=
    Finset.sum_congr rfl fun j _ => by rw [h0 r j R hR, h1]
  rw [hs, h3 r (0 : Fin 1) R hR, h2 r c' R hR]
  rfl

/-- What point `t` writes back is block `t` of `G3` of the arrays as the pass finds them. -/
theorem flushed3_eq (t : Fin cfg3.N) :
    (dat3 V c).flushed 4 t = ((cfg3.win 4).blk t).view.read (Elt Ideal) (G3 (V c main_arg0) (V c main_v2) (V c main_v0)) := by
  show (cfg3.win 4).cut (grid3.coords t) ((dat3 V c).after 4 t) = _
  rw [after3_4]
  unfold out3_4
  rw [View.canon_unit_zero hz]
  simp only [View.ld_unit_zero (S := S256x4096) hz, View.ld_unit_zero (S := S4096x16) hz, View.ld_unit_zero (S := S256x16) hz,
    View.ld_unit_zero (S := S256x1) hz]
  have hN : grid3.N = 16 := N_3
  have ht : t.val < 16 := by have h : t.val < grid3.N := t.isLt; omega
  have e8 := (idx3 t).2.2.2.2.2.2.2.2.1
  have e9 := (idx3 t).2.2.2.2.2.2.2.2.2
  funext y
  have hy0 : (y 0).val < 256 := (y 0).isLt
  have hy1 : (y 1).val < 16 := (y 1).isLt
  show k3_pay1 (F := Ideal) (iblk3 V c 0 t) (iblk3 V c 1 t) (iblk3 V c 3 t) (iblk3 V c 2 t) y
    = G3 (V c main_arg0) (V c main_v2) (V c main_v0) (((cfg3.win 4).blk t).view.emb y)
  have hemb : ((cfg3.win 4).blk t).view.emb y
      = ix2 (⟨256 * t.val + (y 0).val, by omega⟩ : Fin 4096) (⟨(y 1).val, hy1⟩ : Fin 16) := by
    funext a; apply Fin.ext
    match a with
    | ⟨0, _⟩ => show win3_4.index t (0 : Fin 2) * 256 + 1 * (y 0).val = 256 * t.val + (y 0).val; rw [e8]; omega
    | ⟨1, _⟩ => show win3_4.index t (1 : Fin 2) * 16 + 1 * (y 1).val = (y 1).val; rw [e9]; omega
  have hy : y = ix2 (⟨(y 0).val, hy0⟩ : Fin 256) (⟨(y 1).val, hy1⟩ : Fin 16) := by
    funext a; match a with | ⟨0, _⟩ => rfl | ⟨1, _⟩ => rfl
  rw [hemb]
  refine (congrArg _ hy).trans ?_
  exact point3 t _ _ _ _ _ _ _ (fun r j R hR => iblk3_0_read V c t r j R hR) (fun j c' => iblk3_1_read V c t j c')
    (fun r c' R hR => iblk3_2_read V c t r c' R hR) (fun r u R hR => iblk3_3_read V c t r u R hR) _ _ _ rfl

/-- An index of the output array is in point `t`'s block iff each coordinate is in the block's range on its axis. -/
theorem mem_blk3 (t : Fin cfg3.N) (i : S4096x16.Idx) :
    i ∈ ((cfg3.win 4).blk t).view.set ↔ ∀ a : Fin 2, win3_4.index t a * S256x16.size a ≤ (i a).val ∧ (i a).val < win3_4.index t a * S256x16.size a + S256x16.size a := by
  show i ∈ ((View.whole main_v3).slice (win3_4.rect t)).set ↔ _
  rw [View.set_slice_whole, Rect.mem_set_unit]
  exact Iff.rfl

/-- Row `r` of the output array is in the block of point `r / 256`. -/
theorem cover3 (i : S4096x16.Idx) : ∃ t : Fin cfg3.N, (cfg3.win 4).flush t = true ∧ i ∈ ((cfg3.win 4).blk t).view.set := by
  have hN : grid3.N = 16 := N_3
  have hi0 : (i 0).val < 4096 := (i 0).isLt
  have hi1 : (i 1).val < 16 := (i 1).isLt
  let t : Fin cfg3.N := ⟨(i 0).val / 256, by show (i 0).val / 256 < grid3.N; omega⟩
  have htv : t.val = (i 0).val / 256 := rfl
  have e8 := (idx3 t).2.2.2.2.2.2.2.2.1
  have e9 := (idx3 t).2.2.2.2.2.2.2.2.2
  refine ⟨t, flush3_4 t, ?_⟩
  rw [mem_blk3]
  intro a
  match a with
  | ⟨0, _⟩ => show win3_4.index t (0 : Fin 2) * 256 ≤ (i 0).val ∧ (i 0).val < win3_4.index t (0 : Fin 2) * 256 + 256; rw [e8, htv]; omega
  | ⟨1, _⟩ => show win3_4.index t (1 : Fin 2) * 16 ≤ (i 1).val ∧ (i 1).val < win3_4.index t (1 : Fin 2) * 16 + 16; rw [e9]; omega

/-- The output array after pass 3 is `G3` of the arrays the pass was entered with. -/
theorem final3 : (dat3 V c).arrAt 4 cfg3.N = G3 (V c main_arg0) (V c main_v2) (V c main_v0) :=
  (dat3 V c).arrAt_eq_of_cover 4 (G3 (V c main_arg0) (V c main_v2) (V c main_v0)) (fun t _ => flushed3_eq V c t) cover3

/-- `G3` at an index, written out. -/
theorem G3_apply (A : S4096x4096.Idx → EReal) (Z : S4096x16.Idx → EReal) (D : S4096x1.Idx → EReal) (r : Fin 4096) (c' : Fin 16) :
    G3 A Z D (ix2 r c') = (cScale * D (ix2 r (0 : Fin 1))) * ((∑ j : Fin 4096, A (ix2 r j) * Z (ix2 j c')) + Z (ix2 r c')) := rfl

/-- Pass 3's value, index by index. -/
theorem val3 (r : Fin 4096) (c' : Fin 16) : (dat3 V c).arrAt 4 cfg3.N (ix2 r c')
    = (cScale *ᵣ V c main_v0 (ix2 r (0 : Fin 1)))
      *ᵣ ((∑ j : Fin 4096, V c main_arg0 (ix2 r j) *ᵣ V c main_v2 (ix2 j c')) +ᵣ V c main_v2 (ix2 r c')) := by
  rw [final3]
  rfl

end Cert.KernelIdeal.HandValue

end
-- ==== Proof.HandValuesC.lean ====
/-
  The value of the third pass as one whole array.

  The pass streams sixteen row blocks: at grid point `t` the body sees rows `256 t … 256 t + 255` of the adjacency
  matrix, of `zd1` and of the column `d`, together with the whole of `zd1` and of `W₂`, and stores the [256, 16] block
  `d · ℓ₂(h W₂)` of those rows, `h` the hidden layer. The normalisation `ℓ₂` of a row reads that row only, so the block's
  row `y` is row `256 t + y` of ONE function of the whole arrays; the sixteen blocks tile the output array, which
  therefore ends holding that function.
-/
import proofs.«108352_g74474732912750_cont_9to1_m_1152_2_alg».proof.Proof.HandData
import proofs.«108352_g74474732912750_cont_9to1_m_1152_2_alg».proof.Proof.Payloads
import proofs.«108352_g74474732912750_cont_9to1_m_1152_2_alg».proof.Proof.Spec
import Idealize.ShloMosaic.Lib.Pipeline.Value
import Idealize.ShloMosaic.Lib.ValueIdx

set_option maxRecDepth 16384

noncomputable section

namespace Cert.KernelIdeal.HandValue.P2

open Idealize.ShloMosaic Idealize.ShloMosaic.TcCoe ValueIdx Cert.KernelIdeal Cert.KernelIdeal.Gen Cert.KernelIdeal.Hand Cert.Spec
open Idealize.ShloMosaic.Pipeline (Dat)

/-- The zero offsets of a whole-block access, however the zeros are spelt. -/
theorem hz : (![0, 0] : Fin 2 → Nat) = fun _ => 0 := funext fun a => by fin_cases a <;> rfl

/-! ## The pass's result as a function of whole arrays -/

/-- Entry `(r, c')` of the pass's result from the column `D`, the matrix `A`, the first layer's operand `Z` and the
    weights `W`: `D r · ℓ₂(h W) r c'` with `h i k = max ((s · D i) · (Σ_j A i j · Z j k + Z i k)) 0`. -/
def g2 (D : S4096x1.Idx → EReal) (A : S4096x4096.Idx → EReal) (Z : S4096x64.Idx → EReal) (W : S64x16.Idx → EReal)
    (r : Fin 4096) (c' : Fin 16) : EReal :=
  D (ix2 r (0 : Fin 1)) * l2 (fun (i : Fin 4096) (k' : Fin 16) => ∑ k : Fin 64,
      max ((cScale * D (ix2 i (0 : Fin 1))) * ((∑ j : Fin 4096, A (ix2 i j) * Z (ix2 j k)) + Z (ix2 i k))) cZero * W (ix2 k k')) r c'

/-- The same, indexed by the output array's index. -/
def G2 (D : S4096x1.Idx → EReal) (A : S4096x4096.Idx → EReal) (Z : S4096x64.Idx → EReal) (W : S64x16.Idx → EReal) :
    S4096x16.Idx → EReal := fun i => g2 D A Z W (i 0) (i 1)

/-! ## One grid point, over variables -/

/-- At grid point `t`, if the loaded blocks are the rows `256 t + y` of the arrays (the whole-array windows all of
    theirs), the body's arithmetic at `(p, q)` is the whole-array function at the array index `i` with
    `i = (256 t + p, q)`. The block's `ℓ₂` at row `p` and the array's at row `256 t + p` read the same row. -/
theorem point2 (D : S4096x1.Idx → EReal) (A : S4096x4096.Idx → EReal) (Z : S4096x64.Idx → EReal) (W : S64x16.Idx → EReal)
    (t : ℕ) (ht : t < 16)
    (x0 : Vec Ideal S256x4096 .f32) (x1 : Vec Ideal S4096x64 .f32) (x2 : Vec Ideal S256x64 .f32) (x3 : Vec Ideal S256x1 .f32)
    (x4 : Vec Ideal S64x16 .f32)
    (h0 : ∀ (y : Fin 256) (j : Fin 4096), x0 (ix2 y j) = A (ix2 (⟨256 * t + y.val, by omega⟩ : Fin 4096) j))
    (h1 : ∀ (j : Fin 4096) (k : Fin 64), x1 (ix2 j k) = Z (ix2 j k))
    (h2 : ∀ (y : Fin 256) (k : Fin 64), x2 (ix2 y k) = Z (ix2 (⟨256 * t + y.val, by omega⟩ : Fin 4096) k))
    (h3 : ∀ (y : Fin 256), x3 (ix2 y (0 : Fin 1)) = D (ix2 (⟨256 * t + y.val, by omega⟩ : Fin 4096) (0 : Fin 1)))
    (h4 : ∀ (k : Fin 64) (k' : Fin 16), x4 (ix2 k k') = W (ix2 k k'))
    (p : Fin 256) (q : Fin 16) (i : S4096x16.Idx) (hi0 : (i 0).val = 256 * t + p.val) (hi1 : (i 1).val = q.val) :
    k2_pay1 (F := Ideal) x0 x1 x3 x2 x4 x3 (ix2 p q) = G2 D A Z W i := by
  have e0 : (i 0 : Fin 4096) = ⟨256 * t + p.val, by omega⟩ := Fin.ext hi0
  have e1 : (i 1 : Fin 16) = q := Fin.ext hi1
  refine (Pay.pay2 x0 x1 x3 x2 x4 x3 p q).trans ?_
  unfold G2 g2
  rw [e0, e1]
  unfold l2
  simp only [h0, h1, h2, h3, h4]
  rfl

/-! ## The printed index maps, decided once over the grid -/

/-- Row-block windows (the matrix's, `zd1`'s, `d`'s and the output's) sit at block `(t, 0)` at point `t`; the
    whole-array windows at block `(0, 0)`. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section AtV
variable (V : (c : Dev nD) → (b : Ref sig .tc) → Buf (Elt Ideal) ((c : Thread nD τ).loc b)) (c : Dev nD)

/-! ## Each input block as rows of its array -/

/-- Window 0's block at point `t`: rows `256 t …` of the adjacency matrix. -/
theorem blk2_0 (t : Fin cfg2.N) (x : S256x4096.Idx) (k : S4096x4096.Idx)
    (hk0 : (k 0).val = 256 * t.val + (x 0).val) (hk1 : (k 1).val = (x 1).val) :
    (iblk2 V c 0 t : Vec Ideal S256x4096 .f32) x = (V c main_arg0 : S4096x4096.Idx → EReal) k := by
  obtain ⟨e0, e1, -⟩ := idx2 t
  unfold iblk2
  rw [View.read_apply]
  show V c main_arg0 _ = V c main_arg0 _
  refine congrArg _ ?_
  funext a
  apply Fin.ext
  match a with
  | ⟨0, _⟩ => show win2_0.index t 0 * 256 + 1 * (x 0).val = (k 0).val; rw [e0, hk0]; omega
  | ⟨1, _⟩ => show win2_0.index t 1 * 4096 + 1 * (x 1).val = (k 1).val; rw [e1, hk1]; omega

/-- Window 1's block at any point: the whole of `zd1`. -/
theorem blk2_1 (t : Fin cfg2.N) (x : S4096x64.Idx) (k : S4096x64.Idx)
    (hk0 : (k 0).val = (x 0).val) (hk1 : (k 1).val = (x 1).val) :
    (iblk2 V c 1 t : Vec Ideal S4096x64 .f32) x = (V c main_v1 : S4096x64.Idx → EReal) k := by
  obtain ⟨-, -, e0, e1, -⟩ := idx2 t
  unfold iblk2
  rw [View.read_apply]
  show V c main_v1 _ = V c main_v1 _
  refine congrArg _ ?_
  funext a
  apply Fin.ext
  match a with
  | ⟨0, _⟩ => show win2_1.index t 0 * 4096 + 1 * (x 0).val = (k 0).val; rw [e0, hk0]; omega
  | ⟨1, _⟩ => show win2_1.index t 1 * 64 + 1 * (x 1).val = (k 1).val; rw [e1, hk1]; omega

/-- Window 2's block at point `t`: rows `256 t …` of `zd1`. -/
theorem blk2_2 (t : Fin cfg2.N) (x : S256x64.Idx) (k : S4096x64.Idx)
    (hk0 : (k 0).val = 256 * t.val + (x 0).val) (hk1 : (k 1).val = (x 1).val) :
    (iblk2 V c 2 t : Vec Ideal S256x64 .f32) x = (V c main_v1 : S4096x64.Idx → EReal) k := by
  obtain ⟨-, -, -, -, e0, e1, -⟩ := idx2 t
  unfold iblk2
  rw [View.read_apply]
  show V c main_v1 _ = V c main_v1 _
  refine congrArg _ ?_
  funext a
  apply Fin.ext
  match a with
  | ⟨0, _⟩ => show win2_2.index t 0 * 256 + 1 * (x 0).val = (k 0).val; rw [e0, hk0]; omega
  | ⟨1, _⟩ => show win2_2.index t 1 * 64 + 1 * (x 1).val = (k 1).val; rw [e1, hk1]; omega

/-- Window 3's block at point `t`: rows `256 t …` of the column `d`. -/
theorem blk2_3 (t : Fin cfg2.N) (x : S256x1.Idx) (k : S4096x1.Idx)
    (hk0 : (k 0).val = 256 * t.val + (x 0).val) (hk1 : (k 1).val = (x 1).val) :
    (iblk2 V c 3 t : Vec Ideal S256x1 .f32) x = (V c main_v0 : S4096x1.Idx → EReal) k := by
  obtain ⟨-, -, -, -, -, -, e0, e1, -⟩ := idx2 t
  unfold iblk2
  rw [View.read_apply]
  show V c main_v0 _ = V c main_v0 _
  refine congrArg _ ?_
  funext a
  apply Fin.ext
  match a with
  | ⟨0, _⟩ => show win2_3.index t 0 * 256 + 1 * (x 0).val = (k 0).val; rw [e0, hk0]; omega
  | ⟨1, _⟩ => show win2_3.index t 1 * 1 + 1 * (x 1).val = (k 1).val; rw [e1, hk1]; omega

/-- Window 4's block at any point: the whole of `W₂`. -/
theorem blk2_4 (t : Fin cfg2.N) (x : S64x16.Idx) (k : S64x16.Idx)
    (hk0 : (k 0).val = (x 0).val) (hk1 : (k 1).val = (x 1).val) :
    (iblk2 V c 4 t : Vec Ideal S64x16 .f32) x = (V c main_arg3 : S64x16.Idx → EReal) k := by
  obtain ⟨-, -, -, -, -, -, -, -, e0, e1, -⟩ := idx2 t
  unfold iblk2
  rw [View.read_apply]
  show V c main_arg3 _ = V c main_arg3 _
  refine congrArg _ ?_
  funext a
  apply Fin.ext
  match a with
  | ⟨0, _⟩ => show win2_4.index t 0 * 64 + 1 * (x 0).val = (k 0).val; rw [e0, hk0]; omega
  | ⟨1, _⟩ => show win2_4.index t 1 * 16 + 1 * (x 1).val = (k 1).val; rw [e1, hk1]; omega

/-! ## What a point writes back -/

/-- The four arrays the pass reads, as the pass finds them, at their literal index types: the column `d`, the
    adjacency matrix, `zd1` and `W₂`. -/
abbrev aD : S4096x1.Idx → EReal := V c main_v0
abbrev aA : S4096x4096.Idx → EReal := V c main_arg0
abbrev aZ : S4096x64.Idx → EReal := V c main_v1
abbrev aW : S64x16.Idx → EReal := V c main_arg3

/-- The whole-array function at the contents the pass is entered with. -/
abbrev Gat : S4096x16.Idx → EReal := G2 (aD V c) (aA V c) (aZ V c) (aW V c)

/-- What point `t` writes back is block `t` of the whole-array function. -/
theorem flushed2_eq (t : Fin cfg2.N) :
    (dat2 V c).flushed 5 t = ((cfg2.win 5).blk t).view.read (Elt Ideal) (Gat V c) := by
  have hN : cfg2.N = 16 := N_2
  have ht : t.val < 16 := hN ▸ t.isLt
  obtain ⟨-, -, -, -, -, -, -, -, -, -, e0, e1⟩ := idx2 t
  show (cfg2.win 5).cut (grid2.coords t) ((dat2 V c).after 5 t) = _
  rw [after2_5]
  unfold out2_5
  rw [View.canon_unit_zero hz]
  simp only [View.ld_unit_zero (S := S256x4096) hz, View.ld_unit_zero (S := S4096x64) hz, View.ld_unit_zero (S := S256x64) hz,
    View.ld_unit_zero (S := S256x1) hz, View.ld_unit_zero (S := S64x16) hz]
  funext y
  obtain ⟨p, q, rfl⟩ : ∃ (p : Fin 256) (q : Fin 16), y = ix2 p q := ⟨y 0, y 1, eq_ix2 y⟩
  show k2_pay1 (F := Ideal) (iblk2 V c 0 t) (iblk2 V c 1 t) (iblk2 V c 3 t) (iblk2 V c 2 t) (iblk2 V c 4 t) (iblk2 V c 3 t) (ix2 p q)
    = Gat V c (((cfg2.win 5).blk t).view.emb (ix2 p q))
  refine point2 (aD V c) (aA V c) (aZ V c) (aW V c) t.val ht (iblk2 V c 0 t) (iblk2 V c 1 t) (iblk2 V c 2 t) (iblk2 V c 3 t) (iblk2 V c 4 t)
    (fun y j => blk2_0 V c t (ix2 y j) (ix2 (⟨256 * t.val + y.val, by omega⟩ : Fin 4096) j) rfl rfl)
    (fun j k => blk2_1 V c t (ix2 j k) (ix2 j k) rfl rfl)
    (fun y k => blk2_2 V c t (ix2 y k) (ix2 (⟨256 * t.val + y.val, by omega⟩ : Fin 4096) k) rfl rfl)
    (fun y => blk2_3 V c t (ix2 y (0 : Fin 1)) (ix2 (⟨256 * t.val + y.val, by omega⟩ : Fin 4096) (0 : Fin 1)) rfl rfl)
    (fun k k' => blk2_4 V c t (ix2 k k') (ix2 k k') rfl rfl)
    p q (((cfg2.win 5).blk t).view.emb (ix2 p q)) ?_ ?_
  · show win2_5.index t 0 * 256 + 1 * p.val = 256 * t.val + p.val
    rw [e0]; omega
  · show win2_5.index t 1 * 16 + 1 * q.val = q.val
    rw [e1]; omega

/-! ## The sixteen blocks tile the output array -/

/-- An index of the output array is in point `t`'s block iff each coordinate is in the block's range on its axis. -/
theorem mem_blk2 (t : Fin cfg2.N) (i : S4096x16.Idx) :
    i ∈ ((cfg2.win 5).blk t).view.set ↔ ∀ a : Fin 2, win2_5.index t a * S256x16.size a ≤ (i a).val
      ∧ (i a).val < win2_5.index t a * S256x16.size a + S256x16.size a := by
  show i ∈ ((View.whole main_v2).slice (win2_5.rect t)).set ↔ _
  rw [View.set_slice_whole, Rect.mem_set_unit]
  exact Iff.rfl

/-- Row `r` of the output array lies in the block of point `r / 256`. -/
theorem cover2 (i : S4096x16.Idx) : ∃ t : Fin cfg2.N, (cfg2.win 5).flush t = true ∧ i ∈ ((cfg2.win 5).blk t).view.set := by
  have hN : cfg2.N = 16 := N_2
  have hi0 : (i 0).val < 4096 := (i 0).isLt
  have hi1 : (i 1).val < 16 := (i 1).isLt
  let t : Fin cfg2.N := ⟨(i 0).val / 256, by rw [hN]; omega⟩
  obtain ⟨-, -, -, -, -, -, -, -, -, -, e0, e1⟩ := idx2 t
  have tv : t.val = (i 0).val / 256 := rfl
  refine ⟨t, flush2_5 t, ?_⟩
  rw [mem_blk2]
  intro a
  match a with
  | ⟨0, _⟩ =>
    show win2_5.index t 0 * 256 ≤ (i 0).val ∧ (i 0).val < win2_5.index t 0 * 256 + 256
    rw [e0, tv]; omega
  | ⟨1, _⟩ =>
    show win2_5.index t 1 * 16 ≤ (i 1).val ∧ (i 1).val < win2_5.index t 1 * 16 + 16
    rw [e1]; omega

/-! ## The output array after the pass -/

/-- After all sixteen points the output array holds the whole-array function. -/
theorem final2 : (dat2 V c).arrAt 5 cfg2.N = Gat V c :=
  (dat2 V c).arrAt_eq_of_cover 5 (Gat V c) (fun t _ => flushed2_eq V c t) (cover2)

/-- Entry `(r, c')` of the output array after the pass: `g2` of the four arrays as the pass finds them. -/
theorem val2 (r : Fin 4096) (c' : Fin 16) :
    (dat2 V c).arrAt 5 cfg2.N (ix2 r c') = g2 (aD V c) (aA V c) (aZ V c) (aW V c) r c' := by
  rw [final2]
  rfl

/-- The same with `g2` spelt out: `d r · ℓ₂(h W₂) r c'`, `h i k = max ((s · d i) · (Σ_j A i j · zd1 j k + zd1 i k)) 0`. -/
theorem val2_formula (r : Fin 4096) (c' : Fin 16) :
    (dat2 V c).arrAt 5 cfg2.N (ix2 r c') = aD V c (ix2 r (0 : Fin 1)) * l2 (fun (i : Fin 4096) (k' : Fin 16) => ∑ k : Fin 64,
      max ((cScale * aD V c (ix2 i (0 : Fin 1))) * ((∑ j : Fin 4096, aA V c (ix2 i j) * aZ V c (ix2 j k)) + aZ V c (ix2 i k))) cZero
        * aW V c (ix2 k k')) r c' :=
  val2 V c r c'

end AtV

end Cert.KernelIdeal.HandValue.P2

end
-- ==== Proof.KernelValue.lean ====
/-
  The kernel's result array as the specification's function of the arguments.

  Pass by pass the array a pass leaves is one function of the arrays it was entered with (HandValues*.lean); entered one
  from the other those functions compose: `d`, then `d · ℓ₂(X W₁)`, then the second layer's small operand, the encoding,
  and `σ(e eᵀ)` — the stages `Spec.kD … Spec.kOut` of the launch contents of the four arguments.
-/
import proofs.«108352_g74474732912750_cont_9to1_m_1152_2_alg».proof.Proof.HandRun
import proofs.«108352_g74474732912750_cont_9to1_m_1152_2_alg».proof.Proof.HandValuesA
import proofs.«108352_g74474732912750_cont_9to1_m_1152_2_alg».proof.Proof.HandValuesB
import proofs.«108352_g74474732912750_cont_9to1_m_1152_2_alg».proof.Proof.HandValuesC
import proofs.«108352_g74474732912750_cont_9to1_m_1152_2_alg».proof.Proof.Spec

noncomputable section

namespace Cert.KernelIdeal.HandValue

open Idealize.ShloMosaic Idealize.ShloMosaic.TcCoe Idealize.SL.Sem ValueIdx
open Idealize.ShloMosaic.Pipeline (Dat)
open Cert.KernelIdeal Cert.KernelIdeal.Gen Cert.KernelIdeal.Hand Cert.Spec

variable (m : (ℓ : Loc nD τ sig) → Buf (Elt Ideal) ℓ) (c : Dev nD)

/-- The four arguments at launch, as matrices of extended reals. -/
abbrev mA : Fin 4096 → Fin 4096 → EReal := fun a b => (m ((c : Thread nD τ).loc main_arg0) : S4096x4096.Idx → EReal) (ix2 a b)
abbrev mX : Fin 4096 → Fin 128 → EReal := fun a b => (m ((c : Thread nD τ).loc main_arg1) : S4096x128.Idx → EReal) (ix2 a b)
abbrev mW1 : Fin 128 → Fin 64 → EReal := fun a b => (m ((c : Thread nD τ).loc main_arg2) : S128x64.Idx → EReal) (ix2 a b)
abbrev mW2 : Fin 64 → Fin 16 → EReal := fun a b => (m ((c : Thread nD τ).loc main_arg3) : S64x16.Idx → EReal) (ix2 a b)

/-- After pass 0 the column `d` holds `kD`. -/
theorem d_after0 : (W1 m c (Proc.devRef .tc main_v0) : S4096x1.Idx → EReal) = fun i => kD (mA m c) (i 0) :=
  ((W1_self m c).trans (final0 (V0 m) c)).trans rfl

/-- It is not written again. -/
theorem d_after1 : (W2 m c (Proc.devRef .tc main_v0) : S4096x1.Idx → EReal) = fun i => kD (mA m c) (i 0) :=
  (W2_of_ne m c main_v0 (by decide)).trans (d_after0 m c)
theorem d_after2 : (W3 m c (Proc.devRef .tc main_v0) : S4096x1.Idx → EReal) = fun i => kD (mA m c) (i 0) :=
  (W3_of_ne m c main_v0 (by decide)).trans (d_after1 m c)

/-- After pass 1 the array `zd1` holds `kZd1`. -/
theorem zd1_after1 : (W2 m c (Proc.devRef .tc main_v1) : S4096x64.Idx → EReal) = fun i => kZd1 (mA m c) (mX m c) (mW1 m c) (i 0) (i 1) := by
  refine ((W2_self m c).trans (final1 (V1 m) c)).trans ?_
  funext i
  show aD (V1 m) c (ix2 (i 0) (0 : Fin 1)) * l2 (fun (a : Fin 4096) (k : Fin 64) => ∑ q : Fin 128, aX (V1 m) c (ix2 a q) * aW1 (V1 m) c (ix2 q k)) (i 0) (i 1) = _
  rw [show aD (V1 m) c = _ from d_after0 m c,
    show aX (V1 m) c = (m ((c : Thread nD τ).loc main_arg1) : S4096x128.Idx → EReal) from W1_of_ne m c main_arg1 (by decide),
    show aW1 (V1 m) c = (m ((c : Thread nD τ).loc main_arg2) : S128x64.Idx → EReal) from W1_of_ne m c main_arg2 (by decide)]
  rfl

theorem d_after3 : (W4 m c (Proc.devRef .tc main_v0) : S4096x1.Idx → EReal) = fun i => kD (mA m c) (i 0) :=
  (W4_of_ne m c main_v0 (by decide)).trans (d_after2 m c)

/-- The adjacency is never written. -/
theorem a_after1 : (W2 m c (Proc.devRef .tc main_arg0) : S4096x4096.Idx → EReal) = (m ((c : Thread nD τ).loc main_arg0) : S4096x4096.Idx → EReal) :=
  (W2_of_ne m c main_arg0 (by decide)).trans (W1_of_ne m c main_arg0 (by decide))
theorem a_after2 : (W3 m c (Proc.devRef .tc main_arg0) : S4096x4096.Idx → EReal) = (m ((c : Thread nD τ).loc main_arg0) : S4096x4096.Idx → EReal) :=
  (W3_of_ne m c main_arg0 (by decide)).trans (a_after1 m c)

/-- After pass 2 the array `zd2` holds `kZd2`: the hidden layer, its product with `W₂`, the normalisation and the scaling
    by `d`, of the arrays passes 0 and 1 left. -/
theorem zd2_after2 : (W3 m c (Proc.devRef .tc main_v2) : S4096x16.Idx → EReal)
    = fun i => kZd2 (mA m c) (mX m c) (mW1 m c) (mW2 m c) (i 0) (i 1) := by
  refine ((W3_self m c).trans (P2.final2 (V2 m) c)).trans ?_
  funext i
  show P2.g2 (P2.aD (V2 m) c) (P2.aA (V2 m) c) (P2.aZ (V2 m) c) (P2.aW (V2 m) c) (i 0) (i 1) = _
  rw [show P2.aD (V2 m) c = _ from d_after1 m c, show P2.aA (V2 m) c = _ from a_after1 m c,
    show P2.aZ (V2 m) c = _ from zd1_after1 m c,
    show P2.aW (V2 m) c = (m ((c : Thread nD τ).loc main_arg3) : S64x16.Idx → EReal) from
      (W2_of_ne m c main_arg3 (by decide)).trans (W1_of_ne m c main_arg3 (by decide))]
  rfl

/-- After pass 3 the encoding holds `kEnc`. -/
theorem enc_after3 : (W4 m c (Proc.devRef .tc main_v3) : S4096x16.Idx → EReal)
    = fun i => kEnc (mA m c) (mX m c) (mW1 m c) (mW2 m c) (i 0) (i 1) := by
  refine ((W4_self m c).trans (final3 (V3 m) c)).trans ?_
  show G3 (W3 m c (Proc.devRef .tc main_arg0)) (W3 m c (Proc.devRef .tc main_v2)) (W3 m c (Proc.devRef .tc main_v0)) = _
  rw [a_after2 m c, zd2_after2 m c, d_after2 m c]
  rfl

/-- THE KERNEL'S VALUE: the result array after pass 4 is `σ(e eᵀ)` of the kernel's own arrangement, `Spec.kOut` of the
    arguments' launch contents, index by index. -/
theorem kernel_value (i j : Fin 4096) :
    ((dat4 (V4 m) c).arrAt 2 cfg4.N : S4096x4096.Idx → EReal) (ix2 i j) = kOut (mA m c) (mX m c) (mW1 m c) (mW2 m c) i j := by
  rw [final4 (V4 m) c]
  show G4 (W4 m c (Proc.devRef .tc main_v3)) (ix2 i j) = _
  rw [enc_after3 m c]
  rfl

end Cert.KernelIdeal.HandValue

end
-- ==== Proof.RefValue.lean ====
/-
  The reference program's result, operation by operation, is the specification's `rOut` of the four argument arrays
  read by coordinates.
-/
import proofs.«108352_g74474732912750_cont_9to1_m_1152_2_alg».proof.Proof.Gen.ReferenceIdeal.Read
import proofs.«108352_g74474732912750_cont_9to1_m_1152_2_alg».proof.Proof.Spec

noncomputable section

namespace Cert.ReferenceIdeal.RefValue

open Idealize.ShloMosaic ValueIdx Cert.ReferenceIdeal Cert.ReferenceIdeal.Read Cert.Spec

/-- The arguments read by coordinates. -/
abbrev mA (x0 : FVec Ideal S4096x4096 .f32) : Fin 4096 → Fin 4096 → EReal := fun a b => x0 (ix2 a b)
abbrev mX (x1 : FVec Ideal S4096x128 .f32) : Fin 4096 → Fin 128 → EReal := fun a b => x1 (ix2 a b)
abbrev mW1 (x2 : FVec Ideal S128x64 .f32) : Fin 128 → Fin 64 → EReal := fun a b => x2 (ix2 a b)
abbrev mW2 (x3 : FVec Ideal S64x16 .f32) : Fin 64 → Fin 16 → EReal := fun a b => x3 (ix2 a b)

/-- A 32-bit word of a number below `4096` determines the number. -/
theorem ofNat32_inj (i j : Fin 4096) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- `%5`: the identity matrix. -/
theorem v5_eq (i j : Fin 4096) : val_main_v5 (F := Ideal) (ix2 i j) = eye i j := by
  rw [val_main_v5_apply, val_main_v4_apply, val_main_v3_apply, val_main_v0_apply, val_main_v2_apply, val_main_c_apply,
    val_main_v1_apply]
  show (((IntOp.cmpi .eq (IntOp.addi (BitVec.ofNat 32 i.val) 0#32) (BitVec.ofNat 32 j.val)).toNat : ℝ) : EReal) = eye i j
  unfold eye IntOp.cmpi IntOp.addi
  by_cases h : i = j
  · subst h; simp
  · rw [if_neg h]
    have : ¬ BitVec.ofNat 32 i.val = BitVec.ofNat 32 j.val := fun e => h ((ofNat32_inj i j).mp e)
    simp [this]

/-- `%6 = A + I`. -/
theorem v6_eq (x0 : FVec Ideal S4096x4096 .f32) (i j : Fin 4096) :
    val_main_v6 (F := Ideal) x0 (ix2 i j) = rA' (mA x0) i j := by
  rw [val_main_v6_apply, v5_eq]; rfl

/-! ## Indices: the composed index maps of the layout operations are the coordinate indices -/

theorem idx_v7 (i k : Fin 4096) : idx_main_v7 (ix1 i) k = ix2 i k :=
  funext fun a => by match a with | ⟨0, _⟩ => rfl | ⟨1, _⟩ => rfl
theorem idx_v10_v11 (i j : Fin 4096) : idx_main_v10 (idx_main_v11 (ix2 i j)) = ix1 i :=
  funext fun a => by match a with | ⟨0, _⟩ => rfl
theorem idx_v13_v14 (i j : Fin 4096) : idx_main_v13 (idx_main_v14 (ix2 i j)) = ix1 j :=
  funext fun a => by match a with | ⟨0, _⟩ => rfl

/-- `%7`: the row sums of `A + I`. -/
theorem v7_eq (x0 : FVec Ideal S4096x4096 .f32) (i : Fin 4096) :
    val_main_v7 (F := Ideal) x0 (ix1 i) = ∑ j : Fin 4096, rA' (mA x0) i j := by
  rw [val_main_v7_apply, val_main_cst_apply, Ideal.ofBits_def, Ideal.ofBits_zero_f32, zero_add]
  refine Finset.sum_congr rfl fun k _ => ?_
  rw [idx_v7, v6_eq]

/-- `%9 = d`. -/
theorem v9_eq (x0 : FVec Ideal S4096x4096 .f32) (i : Fin 4096) :
    val_main_v9 (F := Ideal) x0 (ix1 i) = rD (mA x0) i := by
  rw [val_main_v9_apply, v7_eq, val_main_v8_apply, val_main_cst_0_apply]; rfl

/-- `%15`: the normalised adjacency. -/
theorem v15_eq (x0 : FVec Ideal S4096x4096 .f32) (i j : Fin 4096) :
    val_main_v15 (F := Ideal) x0 (ix2 i j) = rAn (mA x0) i j := by
  rw [val_main_v15_apply, val_main_v12_apply, val_main_v11_apply, val_main_v10_apply, val_main_v14_apply,
    val_main_v13_apply, v6_eq, idx_v10_v11, idx_v13_v14, v9_eq, v9_eq]; rfl

theorem lidx_v16 (i : Fin 4096) (c : Fin 64) (k : Fin 128) : lidx_main_v16 (ix2 i c) k = ix2 i k :=
  funext fun a => by match a with | ⟨0, _⟩ => rfl | ⟨1, _⟩ => rfl
theorem ridx_v16 (i : Fin 4096) (c : Fin 64) (k : Fin 128) : ridx_main_v16 (ix2 i c) k = ix2 k c :=
  funext fun a => by match a with | ⟨0, _⟩ => rfl | ⟨1, _⟩ => rfl

/-- `%16 = X W₁`. -/
theorem v16_eq (x1 : FVec Ideal S4096x128 .f32) (x2 : FVec Ideal S128x64 .f32) (i : Fin 4096) (c : Fin 64) :
    val_main_v16 (F := Ideal) x1 x2 (ix2 i c) = Z (mX x1) (mW1 x2) i c := by
  rw [val_main_v16_apply]
  refine Finset.sum_congr rfl fun k _ => ?_
  rw [lidx_v16, ridx_v16]

theorem idx_call0_v1 (i : Fin 4096) (k : Fin 64) : idx_main_call0_v1 (ix1 i) k = ix2 i k :=
  funext fun a => by match a with | ⟨0, _⟩ => rfl | ⟨1, _⟩ => rfl
theorem idx_call0_v2_v20 (i : Fin 4096) (c : Fin 64) : idx_main_call0_v2 (idx_main_v20 (ix2 i c)) = ix1 i :=
  funext fun a => by match a with | ⟨0, _⟩ => rfl

/-- `%21`: the rows of `X W₁`, normalised. -/
theorem v21_eq (x1 : FVec Ideal S4096x128 .f32) (x2 : FVec Ideal S128x64 .f32) (i : Fin 4096) (c : Fin 64) :
    val_main_v21 (F := Ideal) x1 x2 (ix2 i c) = l2 (Z (mX x1) (mW1 x2)) i c := by
  rw [val_main_v21_apply, v16_eq, val_main_v20_apply, val_main_v19_apply, val_main_v17_apply, val_main_call0_v2_apply,
    idx_call0_v2_v20, val_main_call0_v1_apply, val_main_call0_cst_apply, Ideal.ofBits_def, Ideal.ofBits_zero_f32, zero_add,
    val_main_v18_apply, val_main_cst_1_apply]
  have hs : ∑ k : Fin 64, val_main_call0_v0 (F := Ideal) x1 x2 (idx_main_call0_v1 (ix1 i) k)
      = ∑ c' : Fin 64, Z (mX x1) (mW1 x2) i c' * Z (mX x1) (mW1 x2) i c' :=
    Finset.sum_congr rfl fun k _ => by rw [idx_call0_v1, val_main_call0_v0_apply, v16_eq]; rfl
  rw [hs]; rfl

theorem lidx_v22 (i : Fin 4096) (c : Fin 64) (k : Fin 4096) : lidx_main_v22 (ix2 i c) k = ix2 i k :=
  funext fun a => by match a with | ⟨0, _⟩ => rfl | ⟨1, _⟩ => rfl
theorem ridx_v22 (i : Fin 4096) (c : Fin 64) (k : Fin 4096) : ridx_main_v22 (ix2 i c) k = ix2 k c :=
  funext fun a => by match a with | ⟨0, _⟩ => rfl | ⟨1, _⟩ => rfl

/-- `%25 = h`: the first convolution, scaled and rectified. -/
theorem v25_eq (x0 : FVec Ideal S4096x4096 .f32) (x1 : FVec Ideal S4096x128 .f32) (x2 : FVec Ideal S128x64 .f32)
    (i : Fin 4096) (c : Fin 64) :
    val_main_v25 (F := Ideal) x0 x1 x2 (ix2 i c) = rH (mA x0) (mX x1) (mW1 x2) i c := by
  rw [val_main_v25_apply, val_main_v24_apply, val_main_v23_apply, val_main_cst_2_apply, val_main_call1_v0_apply,
    val_main_call1_cst_apply, val_main_v22_apply]
  have hs : ∑ k : Fin 4096, val_main_v15 (F := Ideal) x0 (lidx_main_v22 (ix2 i c) k)
        * val_main_v21 (F := Ideal) x1 x2 (ridx_main_v22 (ix2 i c) k)
      = ∑ j : Fin 4096, rAn (mA x0) i j * l2 (Z (mX x1) (mW1 x2)) j c :=
    Finset.sum_congr rfl fun k _ => by rw [lidx_v22, ridx_v22, v15_eq, v21_eq]
  rw [hs]; rfl

theorem lidx_v26 (i : Fin 4096) (c : Fin 16) (k : Fin 64) : lidx_main_v26 (ix2 i c) k = ix2 i k :=
  funext fun a => by match a with | ⟨0, _⟩ => rfl | ⟨1, _⟩ => rfl
theorem ridx_v26 (i : Fin 4096) (c : Fin 16) (k : Fin 64) : ridx_main_v26 (ix2 i c) k = ix2 k c :=
  funext fun a => by match a with | ⟨0, _⟩ => rfl | ⟨1, _⟩ => rfl

/-- `%26 = h W₂`. -/
theorem v26_eq (x0 : FVec Ideal S4096x4096 .f32) (x1 : FVec Ideal S4096x128 .f32) (x2 : FVec Ideal S128x64 .f32)
    (x3 : FVec Ideal S64x16 .f32) (i : Fin 4096) (c : Fin 16) :
    val_main_v26 (F := Ideal) x0 x1 x2 x3 (ix2 i c) = rG (mA x0) (mX x1) (mW1 x2) (mW2 x3) i c := by
  rw [val_main_v26_apply]
  refine Finset.sum_congr rfl fun k _ => ?_
  rw [lidx_v26, ridx_v26, v25_eq]

theorem idx_call2_v1 (i : Fin 4096) (k : Fin 16) : idx_main_call2_v1 (ix1 i) k = ix2 i k :=
  funext fun a => by match a with | ⟨0, _⟩ => rfl | ⟨1, _⟩ => rfl
theorem idx_call2_v2_v30 (i : Fin 4096) (c : Fin 16) : idx_main_call2_v2 (idx_main_v30 (ix2 i c)) = ix1 i :=
  funext fun a => by match a with | ⟨0, _⟩ => rfl

/-- `%31`: the rows of `h W₂`, normalised. -/
theorem v31_eq (x0 : FVec Ideal S4096x4096 .f32) (x1 : FVec Ideal S4096x128 .f32) (x2 : FVec Ideal S128x64 .f32)
    (x3 : FVec Ideal S64x16 .f32) (i : Fin 4096) (c : Fin 16) :
    val_main_v31 (F := Ideal) x0 x1 x2 x3 (ix2 i c) = l2 (rG (mA x0) (mX x1) (mW1 x2) (mW2 x3)) i c := by
  rw [val_main_v31_apply, v26_eq, val_main_v30_apply, val_main_v29_apply, val_main_v27_apply, val_main_call2_v2_apply,
    idx_call2_v2_v30, val_main_call2_v1_apply, val_main_call2_cst_apply, Ideal.ofBits_def, Ideal.ofBits_zero_f32, zero_add,
    val_main_v28_apply, val_main_cst_3_apply]
  have hs : ∑ k : Fin 16, val_main_call2_v0 (F := Ideal) x0 x1 x2 x3 (idx_main_call2_v1 (ix1 i) k)
      = ∑ c' : Fin 16, rG (mA x0) (mX x1) (mW1 x2) (mW2 x3) i c' * rG (mA x0) (mX x1) (mW1 x2) (mW2 x3) i c' :=
    Finset.sum_congr rfl fun k _ => by rw [idx_call2_v1, val_main_call2_v0_apply, v26_eq]; rfl
  rw [hs]; rfl

theorem lidx_v32 (i : Fin 4096) (c : Fin 16) (k : Fin 4096) : lidx_main_v32 (ix2 i c) k = ix2 i k :=
  funext fun a => by match a with | ⟨0, _⟩ => rfl | ⟨1, _⟩ => rfl
theorem ridx_v32 (i : Fin 4096) (c : Fin 16) (k : Fin 4096) : ridx_main_v32 (ix2 i c) k = ix2 k c :=
  funext fun a => by match a with | ⟨0, _⟩ => rfl | ⟨1, _⟩ => rfl

/-- `%34 = e`: the encoding. -/
theorem v34_eq (x0 : FVec Ideal S4096x4096 .f32) (x1 : FVec Ideal S4096x128 .f32) (x2 : FVec Ideal S128x64 .f32)
    (x3 : FVec Ideal S64x16 .f32) (i : Fin 4096) (c : Fin 16) :
    val_main_v34 (F := Ideal) x0 x1 x2 x3 (ix2 i c) = rEnc (mA x0) (mX x1) (mW1 x2) (mW2 x3) i c := by
  rw [val_main_v34_apply, val_main_v33_apply, val_main_cst_4_apply, val_main_v32_apply]
  have hs : ∑ k : Fin 4096, val_main_v15 (F := Ideal) x0 (lidx_main_v32 (ix2 i c) k)
        * val_main_v31 (F := Ideal) x0 x1 x2 x3 (ridx_main_v32 (ix2 i c) k)
      = ∑ j : Fin 4096, rAn (mA x0) i j * l2 (rG (mA x0) (mX x1) (mW1 x2) (mW2 x3)) j c :=
    Finset.sum_congr rfl fun k _ => by rw [lidx_v32, ridx_v32, v15_eq, v31_eq]
  rw [hs]; rfl

theorem lidx_v36 (i j : Fin 4096) (k : Fin 16) : lidx_main_v36 (ix2 i j) k = ix2 i k :=
  funext fun a => by match a with | ⟨0, _⟩ => rfl | ⟨1, _⟩ => rfl
theorem idx_v35_ridx_v36 (i j : Fin 4096) (k : Fin 16) : idx_main_v35 (ridx_main_v36 (ix2 i j) k) = ix2 j k :=
  funext fun a => by match a with | ⟨0, _⟩ => rfl | ⟨1, _⟩ => rfl

/-- `%36 = e eᵀ`. -/
theorem v36_eq (x0 : FVec Ideal S4096x4096 .f32) (x1 : FVec Ideal S4096x128 .f32) (x2 : FVec Ideal S128x64 .f32)
    (x3 : FVec Ideal S64x16 .f32) (i j : Fin 4096) :
    val_main_v36 (F := Ideal) x0 x1 x2 x3 (ix2 i j)
      = ∑ c : Fin 16, rEnc (mA x0) (mX x1) (mW1 x2) (mW2 x3) i c * rEnc (mA x0) (mX x1) (mW1 x2) (mW2 x3) j c := by
  rw [val_main_v36_apply]
  refine Finset.sum_congr rfl fun k _ => ?_
  rw [val_main_v35_apply, lidx_v36, idx_v35_ridx_v36, v34_eq, v34_eq]

/-- The reference program's result at `(i, j)` is the specification's `rOut` of the arguments read by coordinates. -/
theorem ref_value (x0 : FVec Ideal S4096x4096 .f32) (x1 : FVec Ideal S4096x128 .f32) (x2 : FVec Ideal S128x64 .f32)
    (x3 : FVec Ideal S64x16 .f32) (i j : Fin 4096) :
    val_main_v42 (F := Ideal) x0 x1 x2 x3 (ix2 i j)
      = rOut (fun a b => x0 (ix2 a b)) (fun a b => x1 (ix2 a b)) (fun a b => x2 (ix2 a b)) (fun a b => x3 (ix2 a b)) i j := by
  rw [val_main_v42_apply, val_main_v41_apply, val_main_cst_6_apply, val_main_v40_apply, val_main_v39_apply,
    val_main_cst_5_apply, val_main_v38_apply, val_main_v37_apply, v36_eq]
  rfl

end Cert.ReferenceIdeal.RefValue

end
-- ==== Proof.Algebra.lean ====
/-
  The real algebra joining the two programs of Spec.lean.

  On finite inputs whose shifted row sums s_i = Σ_j A i j + 1 are positive, every stage of either program is the
  extended real of a real number: d_i = (√s_i)⁻¹ on both sides, the norms are square roots of sums of squares, their
  floors max(norm, ε) are positive, and division by a positive real is multiplication by its reciprocal. Over ℝ,
    s · Σ_j ((d_i · (A i j + δ_ij)) · d_j) · v_j  =  (s · d_i) · (Σ_j A i j · (d_j · v_j) + d_i · v_i)
  by distributivity and Σ_j δ_ij f j = f i, which makes the two graph convolutions the same function.
-/
import proofs.«108352_g74474732912750_cont_9to1_m_1152_2_alg».proof.Proof.Spec

noncomputable section

namespace Cert.Spec

open Idealize.ShloMosaic

/-! ## Extended reals of real numbers -/

/-- The inclusion of ℝ in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ in the extended reals commutes with the maximum. -/
theorem coe_max (x y : ℝ) : ((max x y : ℝ) : EReal) = max (x : EReal) (y : EReal) :=
  EReal.coe_strictMono.monotone.map_max

/-! ## The literals -/

theorem cOne_eq : cOne = 1 := by
  simp [cOne, Ideal.ofBits, Ideal.ieee, -EReal.coe_mul]; norm_num

theorem cZero_eq : cZero = 0 := by
  simp [cZero, Ideal.ofBits, Ideal.ieee]

theorem cMinusHalf_eq : cMinusHalf = ((-(1 / 2) : ℝ) : EReal) := by
  simp [cMinusHalf, Ideal.ofBits, Ideal.ieee, -EReal.coe_mul]; norm_num

theorem cEps_eq : ∃ e : ℝ, 0 < e ∧ cEps = (e : EReal) := by
  refine ⟨_, ?_, by simp only [cEps, Ideal.ofBits, Ideal.ieee]; simp [-EReal.coe_mul]; rfl⟩
  positivity

theorem cScale_eq : ∃ s : ℝ, cScale = (s : EReal) := by
  refine ⟨_, by simp only [cScale, Ideal.ofBits, Ideal.ieee]; simp [-EReal.coe_mul]; rfl⟩

/-! ## The real stages -/

/-- The shifted row sum s_i = Σ_j a i j + 1. -/
def sR (a : Fin 4096 → Fin 4096 → ℝ) (i : Fin 4096) : ℝ := (∑ j : Fin 4096, a i j) + 1
/-- d_i = (√s_i)⁻¹. -/
def dR (a : Fin 4096 → Fin 4096 → ℝ) (i : Fin 4096) : ℝ := (Real.sqrt (sR a i))⁻¹
/-- A matrix product. -/
def mmR {m k n : Nat} (p : Fin m → Fin k → ℝ) (q : Fin k → Fin n → ℝ) (i : Fin m) (c : Fin n) : ℝ :=
  ∑ l : Fin k, p i l * q l c
/-- A row divided by the larger of its Euclidean norm and e. -/
def l2R {m n : Nat} (e : ℝ) (g : Fin m → Fin n → ℝ) (i : Fin m) (c : Fin n) : ℝ :=
  g i c * (1 / max (Real.sqrt (∑ c' : Fin n, g i c' * g i c')) e)
/-- The graph convolution with the column scaling folded into the operand and (A + I) v = A v + v. -/
def convR {n : Nat} (a : Fin 4096 → Fin 4096 → ℝ) (d : Fin 4096 → ℝ) (sc : ℝ) (v : Fin 4096 → Fin n → ℝ)
    (i : Fin 4096) (c : Fin n) : ℝ :=
  (sc * d i) * ((∑ j : Fin 4096, a i j * (d j * v j c)) + d i * v i c)
/-- The hidden layer. -/
def hR (a : Fin 4096 → Fin 4096 → ℝ) (x : Fin 4096 → Fin 128 → ℝ) (w1 : Fin 128 → Fin 64 → ℝ) (e sc : ℝ)
    (i : Fin 4096) (c : Fin 64) : ℝ :=
  max (convR a (dR a) sc (l2R e (mmR x w1)) i c) 0
/-- The encoding. -/
def encR (a : Fin 4096 → Fin 4096 → ℝ) (x : Fin 4096 → Fin 128 → ℝ) (w1 : Fin 128 → Fin 64 → ℝ)
    (w2 : Fin 64 → Fin 16 → ℝ) (e sc : ℝ) (i : Fin 4096) (c : Fin 16) : ℝ :=
  convR a (dR a) sc (l2R e (mmR (hR a x w1 e sc) w2)) i c

/-- Over ℝ the normalised adjacency applied to v is the folded form: distributivity and Σ_j δ_ij f j = f i. -/
theorem conv_real {n : Nat} (a : Fin 4096 → Fin 4096 → ℝ) (d : Fin 4096 → ℝ) (sc : ℝ) (v : Fin 4096 → Fin n → ℝ)
    (i : Fin 4096) (c : Fin n) :
    sc * ∑ j : Fin 4096, ((d i * (a i j + if i = j then 1 else 0)) * d j) * v j c = convR a d sc v i c := by
  have h : ∀ j : Fin 4096, ((d i * (a i j + if i = j then 1 else 0)) * d j) * v j c
      = d i * (a i j * (d j * v j c)) + (if i = j then d i * (d j * v j c) else 0) := by
    intro j; split_ifs <;> ring
  rw [Finset.sum_congr rfl fun j _ => h j, Finset.sum_add_distrib, ← Finset.mul_sum, Finset.sum_ite_eq,
    if_pos (Finset.mem_univ i), convR]
  ring

/-! ## The stages of both programs are these reals -/

section Stages

variable {A : Fin 4096 → Fin 4096 → EReal} {X : Fin 4096 → Fin 128 → EReal} {W1 : Fin 128 → Fin 64 → EReal}
  {W2 : Fin 64 → Fin 16 → EReal} {a : Fin 4096 → Fin 4096 → ℝ} {x : Fin 4096 → Fin 128 → ℝ}
  {w1 : Fin 128 → Fin 64 → ℝ} {w2 : Fin 64 → Fin 16 → ℝ} {e sc : ℝ}

/-- A product of matrices of reals is the matrix of real products. -/
theorem mm_eq {m k n : Nat} {P : Fin m → Fin k → EReal} {Q : Fin k → Fin n → EReal} {p : Fin m → Fin k → ℝ}
    {q : Fin k → Fin n → ℝ} (hP : ∀ i l, P i l = (p i l : EReal)) (hQ : ∀ l c, Q l c = (q l c : EReal))
    (i : Fin m) (c : Fin n) : (∑ l : Fin k, P i l * Q l c) = (mmR p q i c : EReal) := by
  rw [mmR, coe_sum]
  exact Finset.sum_congr rfl fun l _ => by rw [hP, hQ, EReal.coe_mul]

theorem rowsum_eq (hA : ∀ i j, A i j = (a i j : EReal)) (i : Fin 4096) :
    (∑ j : Fin 4096, A i j) = ((∑ j : Fin 4096, a i j : ℝ) : EReal) := by
  rw [coe_sum]
  exact Finset.sum_congr rfl fun j _ => hA i j

/-- The kernel's d: the reciprocal square root of a positive real. -/
theorem kD_eq (hA : ∀ i j, A i j = (a i j : EReal)) (i : Fin 4096) (hs : 0 < sR a i) :
    kD A i = (dR a i : EReal) := by
  have h : (∑ j : Fin 4096, A i j) + cOne = ((sR a i : ℝ) : EReal) := by
    rw [rowsum_eq hA, cOne_eq, sR, EReal.coe_add, EReal.coe_one]
  rw [kD, h, Ideal.rsqrt_coe, if_neg (not_lt.mpr hs.le), if_neg hs.ne', dR]

theorem eye_eq (i j : Fin 4096) : eye i j = (((if i = j then 1 else 0 : ℝ)) : EReal) := by
  unfold eye
  split_ifs <;> simp

theorem rA'_eq (hA : ∀ i j, A i j = (a i j : EReal)) (i j : Fin 4096) :
    rA' A i j = ((a i j + if i = j then 1 else 0 : ℝ) : EReal) := by
  rw [rA', hA, eye_eq, EReal.coe_add]

/-- The reference's d: s^(-1/2) = (√s)⁻¹ for s ≥ 0, and the row sum of A + I is s. -/
theorem rD_eq (hA : ∀ i j, A i j = (a i j : EReal)) (i : Fin 4096) (hs : 0 < sR a i) :
    rD A i = (dR a i : EReal) := by
  have h : (∑ j : Fin 4096, rA' A i j) = ((sR a i : ℝ) : EReal) := by
    rw [Finset.sum_congr rfl fun j _ => rA'_eq hA i j, ← coe_sum, sR, Finset.sum_add_distrib, Finset.sum_ite_eq,
      if_pos (Finset.mem_univ i)]
  rw [rD, h, cMinusHalf_eq, Ideal.pow_coe_coe, dR, Real.rpow_eq_pow, Real.rpow_neg hs.le, ← Real.sqrt_eq_rpow]

/-- The ℓ₂ normalisation of a real matrix: the norm is real, its floor positive, the quotient a product. -/
theorem l2_eq {m n : Nat} {G : Fin m → Fin n → EReal} {g : Fin m → Fin n → ℝ} (he : cEps = (e : EReal))
    (hepos : 0 < e) (hG : ∀ i c, G i c = (g i c : EReal)) (i : Fin m) (c : Fin n) :
    l2 G i c = (l2R e g i c : EReal) := by
  have hsum : (∑ c' : Fin n, G i c' * G i c') = ((∑ c' : Fin n, g i c' * g i c' : ℝ) : EReal) := by
    rw [coe_sum]
    exact Finset.sum_congr rfl fun c' _ => by rw [hG, EReal.coe_mul]
  have hnn : ¬ (∑ c' : Fin n, g i c' * g i c') < 0 :=
    not_lt.mpr (Finset.sum_nonneg fun c' _ => mul_self_nonneg _)
  have hmax : max (Real.sqrt (∑ c' : Fin n, g i c' * g i c')) e ≠ 0 :=
    (lt_of_lt_of_le hepos (le_max_right _ _)).ne'
  rw [l2, hsum, Ideal.sqrt_coe, if_neg hnn, he, ← coe_max, Ideal.div_coe hmax, hG, ← EReal.coe_mul, l2R]

/-- The kernel's convolution of a real operand. -/
theorem kconv_eq {n : Nat} {D : Fin 4096 → EReal} {V : Fin 4096 → Fin n → EReal} {d : Fin 4096 → ℝ}
    {v : Fin 4096 → Fin n → ℝ} (hA : ∀ i j, A i j = (a i j : EReal)) (hD : ∀ i, D i = (d i : EReal))
    (hV : ∀ i c, V i c = (v i c : EReal)) (hsc : cScale = (sc : EReal)) (i : Fin 4096) (c : Fin n) :
    (cScale * D i) * ((∑ j : Fin 4096, A i j * (D j * V j c)) + D i * V i c) = (convR a d sc v i c : EReal) := by
  have hsum : (∑ j : Fin 4096, A i j * (D j * V j c)) = ((∑ j : Fin 4096, a i j * (d j * v j c) : ℝ) : EReal) := by
    rw [coe_sum]
    exact Finset.sum_congr rfl fun j _ => by rw [hA, hD, hV, EReal.coe_mul, EReal.coe_mul]
  rw [hsum, hsc, hD, hV, ← EReal.coe_mul, ← EReal.coe_mul, ← EReal.coe_add, ← EReal.coe_mul, convR]

/-- The reference's convolution of a real operand, brought to the kernel's form. -/
theorem rconv_eq {n : Nat} {V : Fin 4096 → Fin n → EReal} {d : Fin 4096 → ℝ} {v : Fin 4096 → Fin n → ℝ}
    (hA : ∀ i j, A i j = (a i j : EReal)) (hD : ∀ i, rD A i = (d i : EReal))
    (hV : ∀ i c, V i c = (v i c : EReal)) (hsc : cScale = (sc : EReal)) (i : Fin 4096) (c : Fin n) :
    cScale * ∑ j : Fin 4096, rAn A i j * V j c = (convR a d sc v i c : EReal) := by
  have hsum : (∑ j : Fin 4096, rAn A i j * V j c)
      = ((∑ j : Fin 4096, ((d i * (a i j + if i = j then 1 else 0)) * d j) * v j c : ℝ) : EReal) := by
    rw [coe_sum]
    exact Finset.sum_congr rfl fun j _ => by
      rw [rAn, hD, hD, rA'_eq hA, hV, EReal.coe_mul, EReal.coe_mul, EReal.coe_mul]
  rw [hsum, hsc, ← EReal.coe_mul, conv_real]

end Stages

/-! ## The two programs agree -/

section Main

variable {A : Fin 4096 → Fin 4096 → EReal} {X : Fin 4096 → Fin 128 → EReal} {W1 : Fin 128 → Fin 64 → EReal}
  {W2 : Fin 64 → Fin 16 → EReal} {a : Fin 4096 → Fin 4096 → ℝ} {x : Fin 4096 → Fin 128 → ℝ}
  {w1 : Fin 128 → Fin 64 → ℝ} {w2 : Fin 64 → Fin 16 → ℝ} {e sc : ℝ}

/-- The kernel's hidden layer. -/
theorem kH_eq (hA : ∀ i j, A i j = (a i j : EReal)) (hX : ∀ i k, X i k = (x i k : EReal))
    (hW1 : ∀ k c, W1 k c = (w1 k c : EReal)) (he : cEps = (e : EReal)) (hepos : 0 < e)
    (hsc : cScale = (sc : EReal)) (hs : ∀ i, 0 < sR a i) (i : Fin 4096) (c : Fin 64) :
    kH A X W1 i c = (hR a x w1 e sc i c : EReal) := by
  have hD : ∀ i, kD A i = (dR a i : EReal) := fun i => kD_eq hA i (hs i)
  have hV : ∀ i c, l2 (Z X W1) i c = (l2R e (mmR x w1) i c : EReal) :=
    l2_eq (G := Z X W1) he hepos fun i c => mm_eq hX hW1 i c
  rw [kH]
  simp only [kZd1]
  rw [kconv_eq hA hD hV hsc, cZero_eq, hR, coe_max, EReal.coe_zero]

/-- The reference's hidden layer is the same real. -/
theorem rH_eq (hA : ∀ i j, A i j = (a i j : EReal)) (hX : ∀ i k, X i k = (x i k : EReal))
    (hW1 : ∀ k c, W1 k c = (w1 k c : EReal)) (he : cEps = (e : EReal)) (hepos : 0 < e)
    (hsc : cScale = (sc : EReal)) (hs : ∀ i, 0 < sR a i) (i : Fin 4096) (c : Fin 64) :
    rH A X W1 i c = (hR a x w1 e sc i c : EReal) := by
  have hD : ∀ i, rD A i = (dR a i : EReal) := fun i => rD_eq hA i (hs i)
  have hV : ∀ i c, l2 (Z X W1) i c = (l2R e (mmR x w1) i c : EReal) :=
    l2_eq (G := Z X W1) he hepos fun i c => mm_eq hX hW1 i c
  rw [rH, rconv_eq hA hD hV hsc, cZero_eq, hR, coe_max, EReal.coe_zero]

/-- The kernel's encoding. -/
theorem kEnc_eq (hA : ∀ i j, A i j = (a i j : EReal)) (hX : ∀ i k, X i k = (x i k : EReal))
    (hW1 : ∀ k c, W1 k c = (w1 k c : EReal)) (hW2 : ∀ k c, W2 k c = (w2 k c : EReal)) (he : cEps = (e : EReal))
    (hepos : 0 < e) (hsc : cScale = (sc : EReal)) (hs : ∀ i, 0 < sR a i) (i : Fin 4096) (c : Fin 16) :
    kEnc A X W1 W2 i c = (encR a x w1 w2 e sc i c : EReal) := by
  have hD : ∀ i, kD A i = (dR a i : EReal) := fun i => kD_eq hA i (hs i)
  have hG : ∀ i c, kG A X W1 W2 i c = (mmR (hR a x w1 e sc) w2 i c : EReal) := fun i c =>
    mm_eq (P := kH A X W1) (Q := W2) (fun i k => kH_eq hA hX hW1 he hepos hsc hs i k) hW2 i c
  have hV : ∀ i c, l2 (kG A X W1 W2) i c = (l2R e (mmR (hR a x w1 e sc) w2) i c : EReal) :=
    l2_eq (G := kG A X W1 W2) he hepos hG
  rw [kEnc]
  simp only [kZd2]
  rw [kconv_eq hA hD hV hsc, encR]

/-- The reference's encoding is the same real. -/
theorem rEnc_eq (hA : ∀ i j, A i j = (a i j : EReal)) (hX : ∀ i k, X i k = (x i k : EReal))
    (hW1 : ∀ k c, W1 k c = (w1 k c : EReal)) (hW2 : ∀ k c, W2 k c = (w2 k c : EReal)) (he : cEps = (e : EReal))
    (hepos : 0 < e) (hsc : cScale = (sc : EReal)) (hs : ∀ i, 0 < sR a i) (i : Fin 4096) (c : Fin 16) :
    rEnc A X W1 W2 i c = (encR a x w1 w2 e sc i c : EReal) := by
  have hD : ∀ i, rD A i = (dR a i : EReal) := fun i => rD_eq hA i (hs i)
  have hG : ∀ i c, rG A X W1 W2 i c = (mmR (hR a x w1 e sc) w2 i c : EReal) := fun i c =>
    mm_eq (P := rH A X W1) (Q := W2) (fun i k => rH_eq hA hX hW1 he hepos hsc hs i k) hW2 i c
  have hV : ∀ i c, l2 (rG A X W1 W2) i c = (l2R e (mmR (hR a x w1 e sc) w2) i c : EReal) :=
    l2_eq (G := rG A X W1 W2) he hepos hG
  rw [rEnc, rconv_eq hA hD hV hsc, encR]

end Main

/-- On finite inputs whose shifted row sums are positive the kernel's output is the reference's. -/
theorem kOut_eq_rOut (A : Fin 4096 → Fin 4096 → EReal) (X : Fin 4096 → Fin 128 → EReal)
    (W1 : Fin 128 → Fin 64 → EReal) (W2 : Fin 64 → Fin 16 → EReal)
    (hA : ∀ i j, ∃ r : ℝ, A i j = (r : EReal)) (hX : ∀ i k, ∃ r : ℝ, X i k = (r : EReal))
    (hW1 : ∀ k c, ∃ r : ℝ, W1 k c = (r : EReal)) (hW2 : ∀ k c, ∃ r : ℝ, W2 k c = (r : EReal))
    (hpos : ∀ i, (-1 : EReal) < ∑ j : Fin 4096, A i j) (i j : Fin 4096) :
    kOut A X W1 W2 i j = rOut A X W1 W2 i j := by
  choose a hA using hA
  choose x hX using hX
  choose w1 hW1 using hW1
  choose w2 hW2 using hW2
  obtain ⟨e, hepos, he⟩ := cEps_eq
  obtain ⟨sc, hsc⟩ := cScale_eq
  have hs : ∀ i, 0 < sR a i := by
    intro i
    have h := hpos i
    rw [rowsum_eq hA, ← EReal.coe_one, ← EReal.coe_neg, EReal.coe_lt_coe_iff] at h
    rw [sR]
    linarith
  have hE : ∀ i c, kEnc A X W1 W2 i c = rEnc A X W1 W2 i c := fun i c =>
    (kEnc_eq hA hX hW1 hW2 he hepos hsc hs i c).trans (rEnc_eq hA hX hW1 hW2 he hepos hsc hs i c).symm
  rw [kOut, rOut, Ideal.logistic, cOne_eq]
  simp only [hE]

end Cert.Spec

end
-- ==== Proof.PreFacts.lean ====
/-
  The precondition read back: where the printed predicate holds, every entry of the four arguments is a real number and
  every row sum of the first is greater than `-1`.
-/
import proofs.«108352_g74474732912750_cont_9to1_m_1152_2_alg».proof.Pre_finite_inputs
import Idealize.ShloMosaic.Lib.ValueIdx
import Idealize.ShloMosaic.Lib.ReduceAll
import Idealize.ShloMosaic.PureOps.Ideal.Laws

noncomputable section

namespace Cert.PreFacts

open Idealize.ShloMosaic

/-- The scalar shape has one index. -/
instance : Subsingleton Cert.Pre_finite_inputs.S_.Idx := ⟨fun a b => funext fun d => d.elim0⟩

/-- A decided proposition whose bit is `1` holds. -/
theorem of_ofBool_decide {p : Prop} [Decidable p] (h : BitVec.ofBool (decide p) = 1#1) : p := by
  by_contra hn
  rw [decide_eq_false hn] at h
  exact absurd h (by decide)

/-- The word `0x7F800000` denotes `+∞`. -/
theorem ofBits_inf : Ideal.ofBits .f32 0x7F800000#32 = ⊤ := by simp [Ideal.ofBits, Ideal.ieee]

/-- The word `0xBF800000` denotes `-1`. -/
theorem ofBits_neg_one : Ideal.ofBits .f32 0xBF800000#32 = (-1 : EReal) := by
  simp [Ideal.ofBits, Ideal.ieee, -EReal.coe_mul]
  norm_num

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := of_ofBool_decide h
  induction x using EReal.rec with
  | bot => simp at hlt
  | coe r => exact ⟨r, rfl⟩
  | top => simp at hlt

/-- A row sum of the first argument from the initial value `0` is the sum of the row's entries. -/
theorem rowSum_eq [Cert.Pre_finite_inputs.Facts] (a0 : FVec Ideal Cert.Pre_finite_inputs.S4096x4096 .f32) (r : Fin 4096) :
    Ideal.hostReduceAdd Cert.Pre_finite_inputs.Facts.reducesTo_S4096x4096_S4096_d1 a0 (Ideal.ofBits .f32 0x00000000#32)
        (ValueIdx.ix1 r)
      = ∑ c : Fin 4096, a0 (ValueIdx.ix2 r c) := by
  rw [Ideal.hostReduceAdd_single Cert.Pre_finite_inputs.Facts.reducesTo_S4096x4096_S4096_d1 (by decide),
    Ideal.ofBits_zero_f32, zero_add]
  refine Finset.sum_congr rfl fun k _ => ?_
  exact congrArg a0 (funext fun a => Fin.ext (by match a with | ⟨0, _⟩ => rfl | ⟨1, _⟩ => rfl))

/-- Where the printed precondition holds, the four arguments are real everywhere and every row sum of the first is
    greater than `-1`. -/
theorem decode [Cert.Pre_finite_inputs.Facts] (a0 : FVec Ideal Cert.Pre_finite_inputs.S4096x4096 .f32)
    (a1 : FVec Ideal Cert.Pre_finite_inputs.S4096x128 .f32) (a2 : FVec Ideal Cert.Pre_finite_inputs.S128x64 .f32)
    (a3 : FVec Ideal Cert.Pre_finite_inputs.S64x16 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ ∀ r : Fin 4096, (-1 : EReal) < ∑ c : Fin 4096, a0 (ValueIdx.ix2 r c) := by
  have h0 := congrFun h ValueIdx.ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => real_of_abs_lt_inf (a0 i) (Host.reduce_andi_all _ _ _ _ _ h1 i),
    fun i => real_of_abs_lt_inf (a1 i) (Host.reduce_andi_all _ _ _ _ _ h2 i),
    fun i => real_of_abs_lt_inf (a2 i) (Host.reduce_andi_all _ _ _ _ _ h3 i),
    fun i => real_of_abs_lt_inf (a3 i) (Host.reduce_andi_all _ _ _ _ _ h4 i), fun r => ?_⟩
  have hr : Ideal.cmp .ogt
      (Ideal.hostReduceAdd Cert.Pre_finite_inputs.Facts.reducesTo_S4096x4096_S4096_d1 a0
        (Ideal.ofBits .f32 0x00000000#32) (ValueIdx.ix1 r))
      (Ideal.ofBits .f32 0xBF800000#32) = 1#1 := Host.reduce_andi_all _ _ _ _ _ h5 (ValueIdx.ix1 r)
  rw [rowSum_eq, ofBits_neg_one] at hr
  exact of_ofBool_decide hr

end Cert.PreFacts

end
-- ==== Proof.lean ====
/-
  A graph auto-encoder on a dense 4096×4096 adjacency `A` (features `X`, weights `W₁`, `W₂`): the kernel's five
  streaming passes against the plain reference, equal at the ideal instance on finite inputs whose shifted row sums
  `Σ_j A i j + 1` are positive (the domain of the reference's `(rowsum (A + I))^(-1/2)`).

  The reference forms `A' = A + I`, `d = (rowsum A')^(-1/2)`, `Ã = diag d · A' · diag d`, then
  `h = relu (s · Ã · ℓ₂(X W₁))`, `e = s · Ã · ℓ₂(h W₂)` and `σ(e eᵀ)`. The kernel never forms `A'` or `Ã`: pass 0 takes
  `d = rsqrt (rowsum A + 1)`; pass 1 scales the small operand by `d` row-wise; passes 2 and 3 use
  `(A + I) v = A v + v` on row blocks and apply the row scaling `s · d` last; pass 4 is `σ(e eᵀ)` row block by row block.
  On the stated domain every intermediate is a real number, `rsqrt` and the power `-1/2` agree, and the two arrangements
  are equal by distributivity (Algebra.lean).

  Each program's frame — it terminates, faults nowhere, leaves its arguments as launched — comes from its run: the
  kernel's five passes as pipelines entered one from the other (HandRun.lean, at the word-level instance and at the ideal
  one), the reference's host operations in order. The kernel's result array is read off that run block by block
  (HandValues*.lean, KernelValue.lean), the reference's off its operations (RefValue.lean).
-/
import proofs.«108352_g74474732912750_cont_9to1_m_1152_2_alg».proof.Defs
import proofs.«108352_g74474732912750_cont_9to1_m_1152_2_alg».proof.Proof.Gen.Kernel
import proofs.«108352_g74474732912750_cont_9to1_m_1152_2_alg».proof.Proof.Gen.Kernel.Skeleton
import proofs.«108352_g74474732912750_cont_9to1_m_1152_2_alg».proof.Proof.Gen.Kernel.Launch
import proofs.«108352_g74474732912750_cont_9to1_m_1152_2_alg».proof.Proof.Gen.Kernel.Regions
import proofs.«108352_g74474732912750_cont_9to1_m_1152_2_alg».proof.Proof.Gen.Kernel.Points
import proofs.«108352_g74474732912750_cont_9to1_m_1152_2_alg».proof.Proof.Gen.KernelIdeal
import proofs.«108352_g74474732912750_cont_9to1_m_1152_2_alg».proof.Proof.Gen.KernelIdeal.Skeleton
import proofs.«108352_g74474732912750_cont_9to1_m_1152_2_alg».proof.Proof.Gen.KernelIdeal.Launch
import proofs.«108352_g74474732912750_cont_9to1_m_1152_2_alg».proof.Proof.Gen.KernelIdeal.Regions
import proofs.«108352_g74474732912750_cont_9to1_m_1152_2_alg».proof.Proof.Gen.KernelIdeal.Points
import proofs.«108352_g74474732912750_cont_9to1_m_1152_2_alg».proof.Proof.Gen.ReferenceIdeal
import proofs.«108352_g74474732912750_cont_9to1_m_1152_2_alg».proof.Proof.Gen.ReferenceIdeal.Run
import proofs.«108352_g74474732912750_cont_9to1_m_1152_2_alg».proof.Proof.Gen.ReferenceIdeal.Read
import proofs.«108352_g74474732912750_cont_9to1_m_1152_2_alg».proof.Proof.Gen.Pre_finite_inputs
import proofs.«108352_g74474732912750_cont_9to1_m_1152_2_alg».proof.Proof.HandBodiesA
import proofs.«108352_g74474732912750_cont_9to1_m_1152_2_alg».proof.Proof.HandBodiesB
import proofs.«108352_g74474732912750_cont_9to1_m_1152_2_alg».proof.Proof.HandRun
import proofs.«108352_g74474732912750_cont_9to1_m_1152_2_alg».proof.Proof.KHandBodiesA
import proofs.«108352_g74474732912750_cont_9to1_m_1152_2_alg».proof.Proof.KHandBodiesB
import proofs.«108352_g74474732912750_cont_9to1_m_1152_2_alg».proof.Proof.KHandRun
import proofs.«108352_g74474732912750_cont_9to1_m_1152_2_alg».proof.Proof.KernelValue
import proofs.«108352_g74474732912750_cont_9to1_m_1152_2_alg».proof.Proof.RefValue
import proofs.«108352_g74474732912750_cont_9to1_m_1152_2_alg».proof.Proof.Algebra
import proofs.«108352_g74474732912750_cont_9to1_m_1152_2_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as launched: its five passes' run, the result forgotten. -/
theorem frame_k : Cert.frame_Kernel := fun m ρ _ =>
  (θ_run Cert.Kernel.defs _ _).mono (fun _ h c => (h c).2)
    (Cert.Kernel.Hand.run (F := Bits) m Cert.Kernel.Hand.body_obligation0 Cert.Kernel.Hand.body_obligation1
      Cert.Kernel.Hand.body_obligation2 Cert.Kernel.Hand.body_obligation3 Cert.Kernel.Hand.body_obligation4 ρ)

/-- The same run at the ideal instance. -/
theorem frame_ki : Cert.frame_KernelIdeal := fun m ρ _ =>
  (θ_run Cert.KernelIdeal.defs _ _).mono (fun _ h c => (h c).2)
    (Cert.KernelIdeal.Hand.run (F := Ideal) m Cert.KernelIdeal.Hand.body_obligation0 Cert.KernelIdeal.Hand.body_obligation1
      Cert.KernelIdeal.Hand.body_obligation2 Cert.KernelIdeal.Hand.body_obligation3 Cert.KernelIdeal.Hand.body_obligation4 ρ)

/-- The reference's host operations run in order and write no argument. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array is `σ(e eᵀ)` of its own arrangement (`Spec.kOut`) and the reference's
    is that of the textbook one (`Spec.rOut`), of arguments that agree; the precondition makes every entry real and every
    shifted row sum positive, where the two are one function. -/
theorem algebraic : Cert.algebraic_KernelIdeal_ReferenceIdeal := by
  intro m ρ m' ρ' hpre hagree
  refine ⟨fun c => (Cert.KernelIdeal.Hand.dat4 (Cert.KernelIdeal.Hand.V4 m) c).arrAt 2 Cert.KernelIdeal.cfg4.N,
    Cert.KernelIdeal.Hand.run (F := Ideal) m Cert.KernelIdeal.Hand.body_obligation0 Cert.KernelIdeal.Hand.body_obligation1
      Cert.KernelIdeal.Hand.body_obligation2 Cert.KernelIdeal.Hand.body_obligation3 Cert.KernelIdeal.Hand.body_obligation4 ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2]
  obtain ⟨hA, hX, hW1, hW2, hpos⟩ := Cert.PreFacts.decode _ _ _ _ (hpre c)
  funext idx
  obtain ⟨i, j, rfl⟩ : ∃ (i j : Fin 4096), idx = ValueIdx.ix2 i j := ⟨idx 0, idx 1, ValueIdx.eq_ix2 idx⟩
  refine (Cert.ReferenceIdeal.RefValue.ref_value _ _ _ _ i j).trans ?_
  refine ((Cert.Spec.kOut_eq_rOut _ _ _ _ (fun a b => hA _) (fun a b => hX _) (fun a b => hW1 _) (fun a b => hW2 _) hpos i j).symm).trans ?_
  exact (Cert.KernelIdeal.HandValue.kernel_value m c i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
